-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v142_0)) (v1 : (c : Dev Cert.KernelIdeal.nD) → Buf (Elt Ideal) ((c.tc : Thread Cert.KernelIdeal.nD Cert.KernelIdeal.τ).loc Cert.KernelIdeal.main_v142_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142_0) = v0 c
          ∧ r.2.mem ((c.tc : Thread Cert.KernelIdeal.nD Cert.KernelIdeal.τ).loc Cert.KernelIdeal.main_v142_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x100000 : Shape := ⟨2, ![2, 100000]⟩
abbrev S100000 : Shape := ⟨1, ![100000]⟩
abbrev S5x512x512 : Shape := ⟨3, ![5, 512, 512]⟩
abbrev S5x512 : Shape := ⟨2, ![5, 512]⟩
abbrev S256x2560 : Shape := ⟨2, ![256, 2560]⟩
abbrev S256 : Shape := ⟨1, ![256]⟩
abbrev S2560 : Shape := ⟨1, ![2560]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S5x512x512 : S_.BroadcastsInDim S5x512x512 (![] : Fin 0 → Fin S5x512x512.rank)
  reducesTo_S5x512x512_S_d0_1_2 : S5x512x512.ReducesTo [0, 1, 2] S_
  bcast_S_S5x512 : S_.BroadcastsInDim S5x512 (![] : Fin 0 → Fin S5x512.rank)
  reducesTo_S5x512_S_d0_1 : S5x512.ReducesTo [0, 1] S_
  bcast_S_S256x2560 : S_.BroadcastsInDim S256x2560 (![] : Fin 0 → Fin S256x2560.rank)
  reducesTo_S256x2560_S_d0_1 : S256x2560.ReducesTo [0, 1] S_
  bcast_S_S256 : S_.BroadcastsInDim S256 (![] : Fin 0 → Fin S256.rank)
  reducesTo_S256_S_d0 : S256.ReducesTo [0] S_
  bcast_S_S2560 : S_.BroadcastsInDim S2560 (![] : Fin 0 → Fin S2560.rank)
  reducesTo_S2560_S_d0 : S2560.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2560 .f32) (main_arg14 : FVec F S2560 .f32) (main_arg15 : FVec F S2560 .f32) (main_v48 : IVec S_ 1) (main_v49 : FVec F S2560 .f32) (main_v50 : FVec F S2560 .f32) : IVec S_ 1 :=
  let main_v51 : IVec S2560 1 := cmpf .olt main_v49 main_v50
  let main_c_19 : IVec S_ 1 := constantI S_ 1 1#1
  let main_v52 : IVec S_ 1 := (fun x v => Host.reduce IntOp.andi x v reducesTo_S2560_S_d0 h_S_) main_v51 main_c_19
  let main_v53 : IVec S_ 1 := andi main_v48 main_v52
  let main_v54 : FVec F S2560 .f32 := Host.absf main_arg13
  let main_cst_20 : FVec F S_ .f32 := constant S_ .f32 0x7F800000#32
  let main_v55 : FVec F S2560 .f32 := broadcastInDim S2560 ![] bcast_S_S2560 main_cst_20
  let main_v56 : IVec S2560 1 := cmpf .olt main_v54 main_v55
  let main_c_21 : IVec S_ 1 := constantI S_ 1 1#1
  let main_v57 : IVec S_ 1 := (fun x v => Host.reduce IntOp.andi x v reducesTo_S2560_S_d0 h_S_) main_v56 main_c_21
  let main_v58 : IVec S_ 1 := andi main_v53 main_v57
  let main_v59 : FVec F S2560 .f32 := Host.absf main_arg14
  let main_cst_22 : FVec F S_ .f32 := constant S_ .f32 0x7F800000#32
  let main_v60 : FVec F S2560 .f32 := broadcastInDim S2560 ![] bcast_S_S2560 main_cst_22
  let main_v61 : IVec S2560 1 := cmpf .olt main_v59 main_v60
  let main_c_23 : IVec S_ 1 := constantI S_ 1 1#1
  let main_v62 : IVec S_ 1 := (fun x v => Host.reduce IntOp.andi x v reducesTo_S2560_S_d0 h_S_) main_v61 main_c_23
  let main_v63 : IVec S_ 1 := andi main_v58 main_v62
  let main_v64 : FVec F S2560 .f32 := Host.absf main_arg15
  let main_cst_24 : FVec F S_ .f32 := constant S_ .f32 0x7F800000#32
  let main_v65 : FVec F S2560 .f32 := broadcastInDim S2560 ![] bcast_S_S2560 main_cst_24
  let main_v66 : IVec S2560 1 := cmpf .olt main_v64 main_v65
  let main_c_25 : IVec S_ 1 := constantI S_ 1 1#1
  let main_v67 : IVec S_ 1 := (fun x v => Host.reduce IntOp.andi x v reducesTo_S2560_S_d0 h_S_) main_v66 main_c_25
  fn_part4 (F := F) main_v63 main_v67

def fn_part2 {F : FTy → Type} [FloatOps F] (main_arg9 : FVec F S256x2560 .f32) (main_arg10 : FVec F S256x2560 .f32) (main_arg11 : FVec F S256 .f32) (main_arg12 : FVec F S2560 .f32) (main_arg13 : FVec F S2560 .f32) (main_arg14 : FVec F S2560 .f32) (main_arg15 : FVec F S2560 .f32) (main_v33 : IVec S_ 1) : IVec S_ 1 :=
  let main_v34 : FVec F S256x2560 .f32 := Host.absf main_arg9
  let main_cst_12 : FVec F S_ .f32 := constant S_ .f32 0x7F800000#32
  let main_v35 : FVec F S256x2560 .f32 := broadcastInDim S256x2560 ![] bcast_S_S256x2560 main_cst_12
  let main_v36 : IVec S256x2560 1 := cmpf .olt main_v34 main_v35
  let main_c_13 : IVec S_ 1 := constantI S_ 1 1#1
  let main_v37 : IVec S_ 1 := (fun x v => Host.reduce IntOp.andi x v reducesTo_S256x2560_S_d0_1 h_S_) main_v36 main_c_13
  let main_v38 : IVec S_ 1 := andi main_v33 main_v37
  let main_v39 : FVec F S256x2560 .f32 := Host.absf main_arg10
  let main_cst_14 : FVec F S_ .f32 := constant S_ .f32 0x7F800000#32
  let main_v40 : FVec F S256x2560 .f32 := broadcastInDim S256x2560 ![] bcast_S_S256x2560 main_cst_14
  let main_v41 : IVec S256x2560 1 := cmpf .olt main_v39 main_v40
  let main_c_15 : IVec S_ 1 := constantI S_ 1 1#1
  let main_v42 : IVec S_ 1 := (fun x v => Host.reduce IntOp.andi x v reducesTo_S256x2560_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S2560 .f32 := Host.absf main_arg12
  let main_cst_18 : FVec F S_ .f32 := constant S_ .f32 0x7F800000#32
  let main_v50 : FVec F S2560 .f32 := broadcastInDim S2560 ![] bcast_S_S2560 main_cst_18
  fn_part3 (F := F) main_arg13 main_arg14 main_arg15 main_v48 main_v49 main_v50

def fn_part1 {F : FTy → Type} [FloatOps F] (main_arg6 : FVec F S256x2560 .f32) (main_arg7 : FVec F S256x2560 .f32) (main_arg8 : FVec F S256 .f32) (main_arg9 : FVec F S256x2560 .f32) (main_arg10 : FVec F S256x2560 .f32) (main_arg11 : FVec F S256 .f32) (main_arg12 : FVec F S2560 .f32) (main_arg13 : FVec F S2560 .f32) (main_arg14 : FVec F S2560 .f32) (main_arg15 : FVec F S2560 .f32) (main_v13 : IVec S_ 1) (main_v16 : IVec S5x512 1) : IVec S_ 1 :=
  let main_c_5 : IVec S_ 1 := constantI S_ 1 1#1
  let main_v17 : IVec S_ 1 := (fun x v => Host.reduce IntOp.andi x v reducesTo_S5x512_S_d0_1 h_S_) main_v16 main_c_5
  let main_v18 : IVec S_ 1 := andi main_v13 main_v17
  let main_v19 : FVec F S256x2560 .f32 := Host.absf main_arg6
  let main_cst_6 : FVec F S_ .f32 := constant S_ .f32 0x7F800000#32
  let main_v20 : FVec F S256x2560 .f32 := broadcastInDim S256x2560 ![] bcast_S_S256x2560 main_cst_6
  let main_v21 : IVec S256x2560 1 := cmpf .olt main_v19 main_v20
  let main_c_7 : IVec S_ 1 := constantI S_ 1 1#1
  let main_v22 : IVec S_ 1 := (fun x v => Host.reduce IntOp.andi x v reducesTo_S256x2560_S_d0_1 h_S_) main_v21 main_c_7
  let main_v23 : IVec S_ 1 := andi main_v18 main_v22
  let main_v24 : FVec F S256x2560 .f32 := Host.absf main_arg7
  let main_cst_8 : FVec F S_ .f32 := constant S_ .f32 0x7F800000#32
  let main_v25 : FVec F S256x2560 .f32 := broadcastInDim S256x2560 ![] bcast_S_S256x2560 main_cst_8
  let main_v26 : IVec S256x2560 1 := cmpf .olt main_v24 main_v25
  let main_c_9 : IVec S_ 1 := constantI S_ 1 1#1
  let main_v27 : IVec S_ 1 := (fun x v => Host.reduce IntOp.andi x v reducesTo_S256x2560_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S20000x512 .f32) (main_arg1 : IVec S2x100000 32) (main_arg2 : IVec S100000 32) (main_arg3 : FVec F S5x512x512 .f32) (main_arg4 : FVec F S5x512x512 .f32) (main_arg5 : FVec F S5x512 .f32) (main_arg6 : FVec F S256x2560 .f32) (main_arg7 : FVec F S256x2560 .f32) (main_arg8 : FVec F S256 .f32) (main_arg9 : FVec F S256x2560 .f32) (main_arg10 : FVec F S256x2560 .f32) (main_arg11 : FVec F S256 .f32) (main_arg12 : FVec F S2560 .f32) (main_arg13 : FVec F S2560 .f32) (main_arg14 : FVec F S2560 .f32) (main_arg15 : FVec F S2560 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S5x512x512 .f32 := Host.absf main_arg3
  let main_cst_0 : FVec F S_ .f32 := constant S_ .f32 0x7F800000#32
  let main_v5 : FVec F S5x512x512 .f32 := broadcastInDim S5x512x512 ![] bcast_S_S5x512x512 main_cst_0
  let main_v6 : IVec S5x512x512 1 := cmpf .olt main_v4 main_v5
  let main_c_1 : IVec S_ 1 := constantI S_ 1 1#1
  let main_v7 : IVec S_ 1 := (fun x v => Host.reduce IntOp.andi x v reducesTo_S5x512x512_S_d0_1_2 h_S_) main_v6 main_c_1
  let main_v8 : IVec S_ 1 := andi main_v3 main_v7
  let main_v9 : FVec F S5x512x512 .f32 := Host.absf main_arg4
  let main_cst_2 : FVec F S_ .f32 := constant S_ .f32 0x7F800000#32
  let main_v10 : FVec F S5x512x512 .f32 := broadcastInDim S5x512x512 ![] bcast_S_S5x512x512 main_cst_2
  let main_v11 : IVec S5x512x512 1 := cmpf .olt main_v9 main_v10
  let main_c_3 : IVec S_ 1 := constantI S_ 1 1#1
  let main_v12 : IVec S_ 1 := (fun x v => Host.reduce IntOp.andi x v reducesTo_S5x512x512_S_d0_1_2 h_S_) main_v11 main_c_3
  let main_v13 : IVec S_ 1 := andi main_v8 main_v12
  let main_v14 : FVec F S5x512 .f32 := Host.absf main_arg5
  let main_cst_4 : FVec F S_ .f32 := constant S_ .f32 0x7F800000#32
  let main_v15 : FVec F S5x512 .f32 := broadcastInDim S5x512 ![] bcast_S_S5x512 main_cst_4
  let main_v16 : IVec S5x512 1 := cmpf .olt main_v14 main_v15
  fn_part1 (F := F) main_arg6 main_arg7 main_arg8 main_arg9 main_arg10 main_arg11 main_arg12 main_arg13 main_arg14 main_arg15 main_v13 main_v16
-- ==== Kernel.lean ====
abbrev S20000x512 : Shape := ⟨2, ![20000, 512]⟩
abbrev S2x100000 : Shape := ⟨2, ![2, 100000]⟩
abbrev S100000 : Shape := ⟨1, ![100000]⟩
abbrev S5x512x512 : Shape := ⟨3, ![5, 512, 512]⟩
abbrev S5x512 : Shape := ⟨2, ![5, 512]⟩
abbrev S256x2560 : Shape := ⟨2, ![256, 2560]⟩
abbrev S256 : Shape := ⟨1, ![256]⟩
abbrev S2560 : Shape := ⟨1, ![2560]⟩
abbrev S1x100000 : Shape := ⟨2, ![1, 100000]⟩
abbrev S_ : Shape := ⟨0, ![]⟩
abbrev S100000x1 : Shape := ⟨2, ![100000, 1]⟩
abbrev S100000x512 : Shape := ⟨2, ![100000, 512]⟩
abbrev S20000 : Shape := ⟨1, ![20000]⟩
abbrev S20000x1 : Shape := ⟨2, ![20000, 1]⟩
abbrev S1x2560 : Shape := ⟨2, ![1, 2560]⟩
abbrev S20000x2560 : Shape := ⟨2, ![20000, 2560]⟩
abbrev S400x512 : Shape := ⟨2, ![400, 512]⟩
abbrev S400x2560 : Shape := ⟨2, ![400, 2560]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S100000x2560 : Shape := ⟨2, ![100000, 2560]⟩
abbrev S2560x256 : Shape := ⟨2, ![2560, 256]⟩
abbrev S1x256 : Shape := ⟨2, ![1, 256]⟩
abbrev S20000x256 : Shape := ⟨2, ![20000, 256]⟩
abbrev S800x2560 : Shape := ⟨2, ![800, 2560]⟩
abbrev S800x256 : Shape := ⟨2, ![800, 256]⟩

abbrev nBuf : Space → Nat
  | .hbm => 188
  | .vmem => 35
  | .smem => 0
  | _ => 0

abbrev hbmTy0_0 (i : Nat) : BufTy := match i % 128 with
  | 0 => ⟨S20000x512, .f32⟩
  | 1 => ⟨S2x100000, .i32⟩
  | 2 => ⟨S100000, .i32⟩
  | 3 => ⟨S5x512x512, .f32⟩
  | 4 => ⟨S5x512x512, .f32⟩
  | 5 => ⟨S5x512, .f32⟩
  | 6 => ⟨S256x2560, .f32⟩
  | 7 => ⟨S256x2560, .f32⟩
  | 8 => ⟨S256, .f32⟩
  | 9 => ⟨S256x2560, .f32⟩
  | 10 => ⟨S256x2560, .f32⟩
  | 11 => ⟨S256, .f32⟩
  | 12 => ⟨S2560, .f32⟩
  | 13 => ⟨S2560, .f32⟩
  | 14 => ⟨S2560, .f32⟩
  | 15 => ⟨S2560, .f32⟩
  | 16 => ⟨S1x100000, .i32⟩
  | 17 => ⟨S100000, .i32⟩
  | 18 => ⟨S1x100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x512, .f32⟩
  | 29 => ⟨S_, .i32⟩
  | 30 => ⟨S100000, .i32⟩
  | 31 => ⟨S100000, .i1⟩
  | 32 => ⟨S100000, .f32⟩
  | 33 => ⟨S100000x1, .f32⟩
  | 34 => ⟨S100000x512, .f32⟩
  | 35 => ⟨S100000x512, .f32⟩
  | 36 => ⟨S_, .f32⟩
  | 37 => ⟨S20000x512, .f32⟩
  | 38 => ⟨S100000x1, .i32⟩
  | 39 => ⟨S20000x512, .f32⟩
  | 40 => ⟨S_, .f32⟩
  | 41 => ⟨S20000, .f32⟩
  | 42 => ⟨S100000x1, .i32⟩
  | 43 => ⟨S20000, .f32⟩
  | 44 => ⟨S_, .f32⟩
  | 45 => ⟨S20000, .f32⟩
  | 46 => ⟨S20000, .f32⟩
  | 47 => ⟨S20000x1, .f32⟩
  | 48 => ⟨S20000x512, .f32⟩
  | 49 => ⟨S20000x512, .f32⟩
  | 50 => ⟨S_, .i32⟩
  | 51 => ⟨S100000, .i32⟩
  | 52 => ⟨S100000, .i1⟩
  | 53 => ⟨S100000, .f32⟩
  | 54 => ⟨S100000x1, .f32⟩
  | 55 => ⟨S100000x512, .f32⟩
  | 56 => ⟨S100000x512, .f32⟩
  | 57 => ⟨S_, .f32⟩
  | 58 => ⟨S20000x512, .f32⟩
  | 59 => ⟨S100000x1, .i32⟩
  | 60 => ⟨S20000x512, .f32⟩
  | 61 => ⟨S_, .f32⟩
  | 62 => ⟨S20000, .f32⟩
  | 63 => ⟨S100000x1, .i32⟩
  | 64 => ⟨S20000, .f32⟩
  | 65 => ⟨S_, .f32⟩
  | 66 => ⟨S20000, .f32⟩
  | 67 => ⟨S20000, .f32⟩
  | 68 => ⟨S20000x1, .f32⟩
  | 69 => ⟨S20000x512, .f32⟩
  | 70 => ⟨S20000x512, .f32⟩
  | 71 => ⟨S_, .i32⟩
  | 72 => ⟨S100000, .i32⟩
  | 73 => ⟨S100000, .i1⟩
  | 74 => ⟨S100000, .f32⟩
  | 75 => ⟨S100000x1, .f32⟩
  | 76 => ⟨S100000x512, .f32⟩
  | 77 => ⟨S100000x512, .f32⟩
  | 78 => ⟨S_, .f32⟩
  | 79 => ⟨S20000x512, .f32⟩
  | 80 => ⟨S100000x1, .i32⟩
  | 81 => ⟨S20000x512, .f32⟩
  | 82 => ⟨S_, .f32⟩
  | 83 => ⟨S20000, .f32⟩
  | 84 => ⟨S100000x1, .i32⟩
  | 85 => ⟨S20000, .f32⟩
  | 86 => ⟨S_, .f32⟩
  | 87 => ⟨S20000, .f32⟩
  | 88 => ⟨S20000, .f32⟩
  | 89 => ⟨S20000x1, .f32⟩
  | 90 => ⟨S20000x512, .f32⟩
  | 91 => ⟨S20000x512, .f32⟩
  | 92 => ⟨S_, .i32⟩
  | 93 => ⟨S100000, .i32⟩
  | 94 => ⟨S100000, .i1⟩
  | 95 => ⟨S100000, .f32⟩
  | 96 => ⟨S100000x1, .f32⟩
  | 97 => ⟨S100000x512, .f32⟩
  | 98 => ⟨S100000x512, .f32⟩
  | 99 => ⟨S_, .f32⟩
  | 100 => ⟨S20000x512, .f32⟩
  | 101 => ⟨S100000x1, .i32⟩
  | 102 => ⟨S20000x512, .f32⟩
  | 103 => ⟨S_, .f32⟩
  | 104 => ⟨S20000, .f32⟩
  | 105 => ⟨S100000x1, .i32⟩
  | 106 => ⟨S20000, .f32⟩
  | 107 => ⟨S_, .f32⟩
  | 108 => ⟨S20000, .f32⟩
  | 109 => ⟨S20000, .f32⟩
  | 110 => ⟨S20000x1, .f32⟩
  | 111 => ⟨S20000x512, .f32⟩
  | 112 => ⟨S20000x512, .f32⟩
  | 113 => ⟨S_, .i32⟩
  | 114 => ⟨S100000, .i32⟩
  | 115 => ⟨S100000, .i1⟩
  | 116 => ⟨S100000, .f32⟩
  | 117 => ⟨S100000x1, .f32⟩
  | 118 => ⟨S100000x512, .f32⟩
  | 119 => ⟨S100000x512, .f32⟩
  | 120 => ⟨S_, .f32⟩
  | 121 => ⟨S20000x512, .f32⟩
  | 122 => ⟨S100000x1, .i32⟩
  | 123 => ⟨S20000x512, .f32⟩
  | 124 => ⟨S_, .f32⟩
  | 125 => ⟨S20000, .f32⟩
  | 126 => ⟨S100000x1, .i32⟩
  | 127 => ⟨S20000, .f32⟩
  | _ => ⟨S20000x512, .f32⟩

abbrev hbmTy0_1 (i : Nat) : BufTy := match i % 128 with
  | 0 => ⟨S_, .f32⟩
  | 1 => ⟨S20000, .f32⟩
  | 2 => ⟨S20000, .f32⟩
  | 3 => ⟨S20000x1, .f32⟩
  | 4 => ⟨S20000x512, .f32⟩
  | 5 => ⟨S20000x512, .f32⟩
  | 6 => ⟨S20000x512, .bf16⟩
  | 7 => ⟨S20000x512, .bf16⟩
  | 8 => ⟨S20000x512, .bf16⟩
  | 9 => ⟨S20000x512, .bf16⟩
  | 10 => ⟨S20000x512, .bf16⟩
  | 11 => ⟨S20000x512, .bf16⟩
  | 12 => ⟨S5x512x512, .f32⟩
  | 13 => ⟨S5x512x512, .bf16⟩
  | 14 => ⟨S5x512x512, .f32⟩
  | 15 => ⟨S5x512x512, .bf16⟩
  | 16 => ⟨S1x2560, .f32⟩
  | 17 => ⟨S1x2560, .f32⟩
  | 18 => ⟨S1x2560, .f32⟩
  | 19 => ⟨S1x2560, .f32⟩
  | 20 => ⟨S20000x2560, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x2560, .f32⟩
  | 30 => ⟨S_, .f32⟩
  | 31 => ⟨S20000x2560, .f32⟩
  | 32 => ⟨S100000x1, .i32⟩
  | 33 => ⟨S20000x2560, .f32⟩
  | 34 => ⟨S_, .f32⟩
  | 35 => ⟨S100000, .f32⟩
  | 36 => ⟨S_, .f32⟩
  | 37 => ⟨S20000, .f32⟩
  | 38 => ⟨S100000x1, .i32⟩
  | 39 => ⟨S20000, .f32⟩
  | 40 => ⟨S_, .f32⟩
  | 41 => ⟨S20000, .f32⟩
  | 42 => ⟨S20000, .f32⟩
  | 43 => ⟨S20000x1, .f32⟩
  | 44 => ⟨S20000x2560, .f32⟩
  | 45 => ⟨S20000x2560, .f32⟩
  | 46 => ⟨S20000x2560, .bf16⟩
  | 47 => ⟨S20000x2560, .bf16⟩
  | 48 => ⟨S2560x256, .f32⟩
  | 49 => ⟨S2560x256, .bf16⟩
  | 50 => ⟨S2560x256, .f32⟩
  | 51 => ⟨S2560x256, .bf16⟩
  | 52 => ⟨S2560x256, .f32⟩
  | 53 => ⟨S2560x256, .bf16⟩
  | 54 => ⟨S2560x256, .f32⟩
  | 55 => ⟨S2560x256, .bf16⟩
  | 56 => ⟨S1x256, .f32⟩
  | 57 => ⟨S1x256, .f32⟩
  | 58 => ⟨S20000x256, .f32⟩
  | 59 => ⟨S20000x256, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S400x512, .bf16⟩
  | .local _ .vmem, ⟨1, _⟩ => ⟨S400x512, .bf16⟩
  | .local _ .vmem, ⟨2, _⟩ => ⟨S400x512, .bf16⟩
  | .local _ .vmem, ⟨3, _⟩ => ⟨S400x512, .bf16⟩
  | .local _ .vmem, ⟨4, _⟩ => ⟨S400x512, .bf16⟩
  | .local _ .vmem, ⟨5, _⟩ => ⟨S400x512, .bf16⟩
  | .local _ .vmem, ⟨6, _⟩ => ⟨S400x512, .bf16⟩
  | .local _ .vmem, ⟨7, _⟩ => ⟨S400x512, .bf16⟩
  | .local _ .vmem, ⟨8, _⟩ => ⟨S400x512, .bf16⟩
  | .local _ .vmem, ⟨9, _⟩ => ⟨S400x512, .bf16⟩
  | .local _ .vmem, ⟨10, _⟩ => ⟨S400x512, .bf16⟩
  | .local _ .vmem, ⟨11, _⟩ => ⟨S400x512, .bf16⟩
  | .local _ .vmem, ⟨12, _⟩ => ⟨S5x512x512, .bf16⟩
  | .local _ .vmem, ⟨13, _⟩ => ⟨S5x512x512, .bf16⟩
  | .local _ .vmem, ⟨14, _⟩ => ⟨S5x512, .f32⟩
  | .local _ .vmem, ⟨15, _⟩ => ⟨S1x2560, .f32⟩
  | .local _ .vmem, ⟨16, _⟩ => ⟨S1x2560, .f32⟩
  | .local _ .vmem, ⟨17, _⟩ => ⟨S1x2560, .f32⟩
  | .local _ .vmem, ⟨18, _⟩ => ⟨S1x2560, .f32⟩
  | .local _ .vmem, ⟨19, _⟩ => ⟨S400x2560, .f32⟩
  | .local _ .vmem, ⟨20, _⟩ => ⟨S400x2560, .f32⟩
  | .local _ .vmem, ⟨21, _⟩ => ⟨S800x2560, .bf16⟩
  | .local _ .vmem, ⟨22, _⟩ => ⟨S800x2560, .bf16⟩
  | .local _ .vmem, ⟨23, _⟩ => ⟨S800x2560, .bf16⟩
  | .local _ .vmem, ⟨24, _⟩ => ⟨S800x2560, .bf16⟩
  | .local _ .vmem, ⟨25, _⟩ => ⟨S2560x256, .bf16⟩
  | .local _ .vmem, ⟨26, _⟩ => ⟨S2560x256, .bf16⟩
  | .local _ .vmem, ⟨27, _⟩ => ⟨S1x256, .f32⟩
  | .local _ .vmem, ⟨28, _⟩ => ⟨S2560x256, .bf16⟩
  | .local _ .vmem, ⟨29, _⟩ => ⟨S2560x256, .bf16⟩
  | .local _ .vmem, ⟨30, _⟩ => ⟨S1x256, .f32⟩
  | .local _ .vmem, ⟨31, _⟩ => ⟨S800x256, .f32⟩
  | .local _ .vmem, ⟨32, _⟩ => ⟨S800x256, .f32⟩
  | .local _ .vmem, ⟨33, _⟩ => ⟨S800x256, .f32⟩
  | .local _ .vmem, ⟨34, _⟩ => ⟨S800x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_20 : Ref sig .tc := ⟨.hbm, 149, rfl⟩
abbrev main_v111 : Ref sig .tc := ⟨.hbm, 150, rfl⟩
abbrev main_v112 : Ref sig .tc := ⟨.hbm, 151, rfl⟩
abbrev main_c_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_23 : Ref sig .tc := ⟨.hbm, 162, rfl⟩
abbrev main_v121 : Ref sig .tc := ⟨.hbm, 163, rfl⟩
abbrev main_cst_24 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_25 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142_0 : Ref sig .tc := ⟨.hbm, 186, rfl⟩
abbrev main_v142_1 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S400x2560 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2560x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2560x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2560x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2560x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S800x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S800x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bitsLt_bf16_f32 : FTy.bits .bf16 < FTy.bits .f32
  transposes_S5x512x512_S5x512x512_0_2_1 : S5x512x512.Transposes [0, 2, 1] S5x512x512
  shapeCasts_S2560_S1x2560 : S2560.ShapeCasts S1x2560
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S5x512x512_S1x512x512_0_0_0 : ∀ a, (![0, 0, 0] : Fin 3 → Nat) a + S1x512x512.size a ≤ S5x512x512.size a
  h_S1x512x512 : 0 < S1x512x512.numel
  shapeCasts_S1x512x512_S512x512 : S1x512x512.ShapeCasts S512x512
  inb_S5x512_S1x512_0_0 : ∀ a, (![0, 0] : Fin 2 → Nat) a + S1x512.size a ≤ S5x512.size a
  h_S1x512 : 0 < S1x512.numel
  shapeCasts_S1x512_S512 : S1x512.ShapeCasts S512
  shapeCasts_S512_S1x512 : S512.ShapeCasts S1x512
  broadcasts_S1x512_S400x512 : S1x512.Broadcasts S400x512
  inb_S1x2560_S1x512_0_0 : ∀ a, (![0, 0] : Fin 2 → Nat) a + S1x512.size a ≤ S1x2560.size a
  shapeCasts_S1x512_S1x512 : S1x512.ShapeCasts S1x512
  inb_S400x2560_S400x512_0_0 : ∀ a, (![0, 0] : Fin 2 → Nat) a + S400x512.size a ≤ S400x2560.size a
  inb_S5x512x512_S1x512x512_1_0_0 : ∀ a, (![1, 0, 0] : Fin 3 → Nat) a + S1x512x512.size a ≤ S5x512x512.size a
  inb_S5x512_S1x512_1_0 : ∀ a, (![1, 0] : Fin 2 → Nat) a + S1x512.size a ≤ S5x512.size a
  inb_S1x2560_S1x512_0_512 : ∀ a, (![0, 512] : Fin 2 → Nat) a + S1x512.size a ≤ S1x2560.size a
  inb_S400x2560_S400x512_0_512 : ∀ a, (![0, 512] : Fin 2 → Nat) a + S400x512.size a ≤ S400x2560.size a
  inb_S5x512x512_S1x512x512_2_0_0 : ∀ a, (![2, 0, 0] : Fin 3 → Nat) a + S1x512x512.size a ≤ S5x512x512.size a
  inb_S5x512_S1x512_2_0 : ∀ a, (![2, 0] : Fin 2 → Nat) a + S1x512.size a ≤ S5x512.size a
  inb_S1x2560_S1x512_0_1024 : ∀ a, (![0, 1024] : Fin 2 → Nat) a + S1x512.size a ≤ S1x2560.size a
  inb_S400x2560_S400x512_0_1024 : ∀ a, (![0, 1024] : Fin 2 → Nat) a + S400x512.size a ≤ S400x2560.size a
  inb_S5x512x512_S1x512x512_3_0_0 : ∀ a, (![3, 0, 0] : Fin 3 → Nat) a + S1x512x512.size a ≤ S5x512x512.size a
  inb_S5x512_S1x512_3_0 : ∀ a, (![3, 0] : Fin 2 → Nat) a + S1x512.size a ≤ S5x512.size a
  inb_S1x2560_S1x512_0_1536 : ∀ a, (![0, 1536] : Fin 2 → Nat) a + S1x512.size a ≤ S1x2560.size a
  inb_S400x2560_S400x512_0_1536 : ∀ a, (![0, 1536] : Fin 2 → Nat) a + S400x512.size a ≤ S400x2560.size a
  inb_S5x512x512_S1x512x512_4_0_0 : ∀ a, (![4, 0, 0] : Fin 3 → Nat) a + S1x512x512.size a ≤ S5x512x512.size a
  inb_S5x512_S1x512_4_0 : ∀ a, (![4, 0] : Fin 2 → Nat) a + S1x512.size a ≤ S5x512.size a
  inb_S1x2560_S1x512_0_2048 : ∀ a, (![0, 2048] : Fin 2 → Nat) a + S1x512.size a ≤ S1x2560.size a
  inb_S400x2560_S400x512_0_2048 : ∀ a, (![0, 2048] : Fin 2 → Nat) a + S400x512.size a ≤ S400x2560.size a
  bcast_S_S20000x2560 : S_.BroadcastsInDim S20000x2560 (![] : Fin 0 → Fin S20000x2560.rank)
  bcast_S20000x1_S20000x2560_0_1 : S20000x1.BroadcastsInDim S20000x2560 (![0, 1] : Fin 2 → Fin S20000x2560.rank)
  transposes_S256x2560_S2560x256_1_0 : S256x2560.Transposes [1, 0] S2560x256
  shapeCasts_S256_S1x256 : S256.ShapeCasts S1x256
  inb_S800x2560_S800x2560_0_0 : ∀ a, (![0, 0] : Fin 2 → Nat) a + S800x2560.size a ≤ S800x2560.size a
  h_S800x2560 : 0 < S800x2560.numel
  shapeCasts_S800x2560_S800x2560 : S800x2560.ShapeCasts S800x2560
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S800x256 : S1x256.Broadcasts S800x256
  inb_S800x256_S800x256_0_0 : ∀ a, (![0, 0] : Fin 2 → Nat) a + S800x256.size a ≤ S800x256.size a
  h_S800x256 : 0 < S800x256.numel
  gather_S20000x512_S100000x1_S100000x512_1_0_n_n_0_1_1512_wf : GatherDims.WF S20000x512 S100000x1 S100000x512 [1] [0] [] [0] [] 1 ![1, 512]
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  dot_S400x512_S512x512_S400x512_1_0_0_1_n_n_wf : DotDims.WF S400x512 S512x512 S400x512 [1] [0] [0] [1] [] []
  gather_S20000x2560_S100000x1_S100000x2560_1_0_n_n_0_1_12560_wf : GatherDims.WF S20000x2560 S100000x1 S100000x2560 [1] [0] [] [0] [] 1 ![1, 2560]
  scatter_S20000x2560_S100000x1_S100000x2560_1_0_0_1_wf : ScatterDims.WF S20000x2560 S100000x1 S100000x2560 [1] [0] [0] 1
  dot_S800x2560_S2560x256_S800x256_1_0_0_1_n_n_wf : DotDims.WF S800x2560 S2560x256 S800x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S20000x512.size a
  hwx0_0 : ∀ i : grid0.Coords, EltTy.bits .bf16 = 32 ∨ (Rect.block (s := S20000x512) S400x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x512.size a ≤ S20000x512.size a
  hwx0_1 : ∀ i : grid0.Coords, EltTy.bits .bf16 = 32 ∨ (Rect.block (s := S20000x512) S400x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S20000x512.size a
  hwx0_2 : ∀ i : grid0.Coords, EltTy.bits .bf16 = 32 ∨ (Rect.block (s := S20000x512) S400x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x512.size a ≤ S20000x512.size a
  hwx0_3 : ∀ i : grid0.Coords, EltTy.bits .bf16 = 32 ∨ (Rect.block (s := S20000x512) S400x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S20000x512.size a
  hwx0_4 : ∀ i : grid0.Coords, EltTy.bits .bf16 = 32 ∨ (Rect.block (s := S20000x512) S400x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x512.size a ≤ S20000x512.size a
  hwx0_5 : ∀ i : grid0.Coords, EltTy.bits .bf16 = 32 ∨ (Rect.block (s := S20000x512) S400x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x512x512.size a ≤ S5x512x512.size a
  hwx0_6 : ∀ i : grid0.Coords, EltTy.bits .bf16 = 32 ∨ (Rect.block (s := S5x512x512) S5x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x512x512.size a ≤ S5x512x512.size a
  hwx0_7 : ∀ i : grid0.Coords, EltTy.bits .bf16 = 32 ∨ (Rect.block (s := S5x512x512) S5x512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x512.size a ≤ S5x512.size a
  hwx0_8 : ∀ i : grid0.Coords, EltTy.bits .f32 = 32 ∨ (Rect.block (s := S5x512) S5x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2560.size a ≤ S1x2560.size a
  hwx0_9 : ∀ i : grid0.Coords, EltTy.bits .f32 = 32 ∨ (Rect.block (s := S1x2560) S1x2560.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2560.size a ≤ S1x2560.size a
  hwx0_10 : ∀ i : grid0.Coords, EltTy.bits .f32 = 32 ∨ (Rect.block (s := S1x2560) S1x2560.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2560.size a ≤ S1x2560.size a
  hwx0_11 : ∀ i : grid0.Coords, EltTy.bits .f32 = 32 ∨ (Rect.block (s := S1x2560) S1x2560.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2560.size a ≤ S1x2560.size a
  hwx0_12 : ∀ i : grid0.Coords, EltTy.bits .f32 = 32 ∨ (Rect.block (s := S1x2560) S1x2560.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x2560.size a ≤ S20000x2560.size a
  hwx0_13 : ∀ i : grid0.Coords, EltTy.bits .f32 = 32 ∨ (Rect.block (s := S20000x2560) S400x2560.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x2560.size a ≤ S20000x2560.size a
  hwx1_0 : ∀ i : grid1.Coords, EltTy.bits .bf16 = 32 ∨ (Rect.block (s := S20000x2560) S800x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x2560.size a ≤ S20000x2560.size a
  hwx1_1 : ∀ i : grid1.Coords, EltTy.bits .bf16 = 32 ∨ (Rect.block (s := S20000x2560) S800x2560.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2560x256.size a ≤ S2560x256.size a
  hwx1_2 : ∀ i : grid1.Coords, EltTy.bits .bf16 = 32 ∨ (Rect.block (s := S2560x256) S2560x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2560x256.size a ≤ S2560x256.size a
  hwx1_3 : ∀ i : grid1.Coords, EltTy.bits .bf16 = 32 ∨ (Rect.block (s := S2560x256) S2560x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2560x256.size a ≤ S2560x256.size a
  hwx1_5 : ∀ i : grid1.Coords, EltTy.bits .bf16 = 32 ∨ (Rect.block (s := S2560x256) S2560x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2560x256.size a ≤ S2560x256.size a
  hwx1_6 : ∀ i : grid1.Coords, EltTy.bits .bf16 = 32 ∨ (Rect.block (s := S2560x256) S2560x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S800x256.size a ≤ S20000x256.size a
  hwx1_8 : ∀ i : grid1.Coords, EltTy.bits .f32 = 32 ∨ (Rect.block (s := S20000x256) S800x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S800x256.size a ≤ S20000x256.size a
  hwx1_9 : ∀ i : grid1.Coords, EltTy.bits .f32 = 32 ∨ (Rect.block (s := S20000x256) S800x256.size (cc1_transform_9 i) (hinb1_9 i)).WholeWords (EltTy.packing .f32)

variable [Facts₀]

def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def gather_S20000x2560_S100000x1_S100000x2560_1_0_n_n_0_1_12560 : GatherDims S20000x2560 S100000x1 S100000x2560 where
  offsetDims := [1]
  collapsedSliceDims := [0]
  operandBatchingDims := []
  startIndicesBatchingDims := []
  startIndexMap := [0]
  indexVectorDim := 1
  sliceSizes := ![1, 2560]
  wf := gather_S20000x2560_S100000x1_S100000x2560_1_0_n_n_0_1_12560_wf
def scatter_S20000x2560_S100000x1_S100000x2560_1_0_0_1 : ScatterDims S20000x2560 S100000x1 S100000x2560 where
  updateWindowDims := [1]
  insertedWindowDims := [0]
  scatterDimsToOperandDims := [0]
  indexVectorDim := 1
  wf := scatter_S20000x2560_S100000x1_S100000x2560_1_0_0_1_wf
def dot_S800x2560_S2560x256_S800x256_1_0_0_1_n_n : DotDims S800x2560 S2560x256 S800x256 where
  lhsContracting := [1]
  rhsContracting := [0]
  lhsNonContracting := [0]
  rhsNonContracting := [1]
  lhsBatch := []
  rhsBatch := []
  wf := dot_S800x2560_S2560x256_S800x256_1_0_0_1_n_n_wf

abbrev win0_0 : Pipeline.Window sig grid0 :=
  Pipeline.Window.ofSpec (Memref.whole main_v96) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S400x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S400x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v100) S400x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v101) S400x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v103) S5x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v105) S5x512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S5x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v106) S1x2560.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v107) S1x2560.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v108) S1x2560.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v109) S1x2560.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v110) S400x2560.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v130) S800x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v131) S800x2560.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v133) S2560x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v135) S2560x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v140) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v137) S2560x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v139) S2560x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v141) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v142_0) S800x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v142_1) S800x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x512 : Shape := ⟨2, ![20000, 512]⟩
abbrev S2x100000 : Shape := ⟨2, ![2, 100000]⟩
abbrev S100000 : Shape := ⟨1, ![100000]⟩
abbrev S5x512x512 : Shape := ⟨3, ![5, 512, 512]⟩
abbrev S5x512 : Shape := ⟨2, ![5, 512]⟩
abbrev S256x2560 : Shape := ⟨2, ![256, 2560]⟩
abbrev S256 : Shape := ⟨1, ![256]⟩
abbrev S2560 : Shape := ⟨1, ![2560]⟩
abbrev S1x100000 : Shape := ⟨2, ![1, 100000]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S100000x1 : Shape := ⟨2, ![100000, 1]⟩
abbrev S100000x512 : Shape := ⟨2, ![100000, 512]⟩
abbrev S20000 : Shape := ⟨1, ![20000]⟩
abbrev S20000x1 : Shape := ⟨2, ![20000, 1]⟩
abbrev S20000x2560 : Shape := ⟨2, ![20000, 2560]⟩
abbrev S1x2560 : Shape := ⟨2, ![1, 2560]⟩
abbrev S100000x2560 : Shape := ⟨2, ![100000, 2560]⟩
abbrev S2560x256 : Shape := ⟨2, ![2560, 256]⟩
abbrev S20000x256 : Shape := ⟨2, ![20000, 256]⟩
abbrev S1x256 : Shape := ⟨2, ![1, 256]⟩

abbrev nBuf : Space → Nat
  | .hbm => 342
  | .vmem => 0
  | .smem => 0
  | _ => 0

abbrev hbmTy0_0 (i : Nat) : BufTy := match i % 128 with
  | 0 => ⟨S20000x512, .f32⟩
  | 1 => ⟨S2x100000, .i32⟩
  | 2 => ⟨S100000, .i32⟩
  | 3 => ⟨S5x512x512, .f32⟩
  | 4 => ⟨S5x512x512, .f32⟩
  | 5 => ⟨S5x512, .f32⟩
  | 6 => ⟨S256x2560, .f32⟩
  | 7 => ⟨S256x2560, .f32⟩
  | 8 => ⟨S256, .f32⟩
  | 9 => ⟨S256x2560, .f32⟩
  | 10 => ⟨S256x2560, .f32⟩
  | 11 => ⟨S256, .f32⟩
  | 12 => ⟨S2560, .f32⟩
  | 13 => ⟨S2560, .f32⟩
  | 14 => ⟨S2560, .f32⟩
  | 15 => ⟨S2560, .f32⟩
  | 16 => ⟨S1x100000, .i32⟩
  | 17 => ⟨S100000, .i32⟩
  | 18 => ⟨S1x100000, .i32⟩
  | 19 => ⟨S100000, .i32⟩
  | 20 => ⟨S_, .i32⟩
  | 21 => ⟨S100000, .i32⟩
  | 22 => ⟨S100000, .i1⟩
  | 23 => ⟨S100000, .f32⟩
  | 24 => ⟨S1x512x512, .f32⟩
  | 25 => ⟨S512x512, .f32⟩
  | 26 => ⟨S1x512x512, .f32⟩
  | 27 => ⟨S512x512, .f32⟩
  | 28 => ⟨S1x512, .f32⟩
  | 29 => ⟨S512, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x512, .f32⟩
  | 39 => ⟨S100000x1, .f32⟩
  | 40 => ⟨S100000x512, .f32⟩
  | 41 => ⟨S100000x512, .f32⟩
  | 42 => ⟨S_, .f32⟩
  | 43 => ⟨S20000x512, .f32⟩
  | 44 => ⟨S100000x1, .i32⟩
  | 45 => ⟨S20000x512, .f32⟩
  | 46 => ⟨S_, .f32⟩
  | 47 => ⟨S20000, .f32⟩
  | 48 => ⟨S100000x1, .i32⟩
  | 49 => ⟨S20000, .f32⟩
  | 50 => ⟨S_, .f32⟩
  | 51 => ⟨S20000, .f32⟩
  | 52 => ⟨S20000, .f32⟩
  | 53 => ⟨S20000x1, .f32⟩
  | 54 => ⟨S20000x512, .f32⟩
  | 55 => ⟨S20000x512, .f32⟩
  | 56 => ⟨S512x512, .f32⟩
  | 57 => ⟨S20000x512, .f32⟩
  | 58 => ⟨S512x512, .f32⟩
  | 59 => ⟨S20000x512, .f32⟩
  | 60 => ⟨S20000x512, .f32⟩
  | 61 => ⟨S1x512, .f32⟩
  | 62 => ⟨S20000x512, .f32⟩
  | 63 => ⟨S20000x512, .f32⟩
  | 64 => ⟨S_, .f32⟩
  | 65 => ⟨S20000x512, .f32⟩
  | 66 => ⟨S20000x512, .f32⟩
  | 67 => ⟨S_, .i32⟩
  | 68 => ⟨S100000, .i32⟩
  | 69 => ⟨S100000, .i1⟩
  | 70 => ⟨S100000, .f32⟩
  | 71 => ⟨S1x512x512, .f32⟩
  | 72 => ⟨S512x512, .f32⟩
  | 73 => ⟨S1x512x512, .f32⟩
  | 74 => ⟨S512x512, .f32⟩
  | 75 => ⟨S1x512, .f32⟩
  | 76 => ⟨S512, .f32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x512, .f32⟩
  | 86 => ⟨S100000x1, .f32⟩
  | 87 => ⟨S100000x512, .f32⟩
  | 88 => ⟨S100000x512, .f32⟩
  | 89 => ⟨S_, .f32⟩
  | 90 => ⟨S20000x512, .f32⟩
  | 91 => ⟨S100000x1, .i32⟩
  | 92 => ⟨S20000x512, .f32⟩
  | 93 => ⟨S_, .f32⟩
  | 94 => ⟨S20000, .f32⟩
  | 95 => ⟨S100000x1, .i32⟩
  | 96 => ⟨S20000, .f32⟩
  | 97 => ⟨S_, .f32⟩
  | 98 => ⟨S20000, .f32⟩
  | 99 => ⟨S20000, .f32⟩
  | 100 => ⟨S20000x1, .f32⟩
  | 101 => ⟨S20000x512, .f32⟩
  | 102 => ⟨S20000x512, .f32⟩
  | 103 => ⟨S512x512, .f32⟩
  | 104 => ⟨S20000x512, .f32⟩
  | 105 => ⟨S512x512, .f32⟩
  | 106 => ⟨S20000x512, .f32⟩
  | 107 => ⟨S20000x512, .f32⟩
  | 108 => ⟨S1x512, .f32⟩
  | 109 => ⟨S20000x512, .f32⟩
  | 110 => ⟨S20000x512, .f32⟩
  | 111 => ⟨S_, .f32⟩
  | 112 => ⟨S20000x512, .f32⟩
  | 113 => ⟨S20000x512, .f32⟩
  | 114 => ⟨S_, .i32⟩
  | 115 => ⟨S100000, .i32⟩
  | 116 => ⟨S100000, .i1⟩
  | 117 => ⟨S100000, .f32⟩
  | 118 => ⟨S1x512x512, .f32⟩
  | 119 => ⟨S512x512, .f32⟩
  | 120 => ⟨S1x512x512, .f32⟩
  | 121 => ⟨S512x512, .f32⟩
  | 122 => ⟨S1x512, .f32⟩
  | 123 => ⟨S512, .f32⟩
  | 124 => ⟨S_, .i32⟩
  | 125 => ⟨S100000, .i32⟩
  | 126 => ⟨S100000, .i1⟩
  | 127 => ⟨S_, .i32⟩
  | _ => ⟨S20000x512, .f32⟩

abbrev hbmTy0_1 (i : Nat) : BufTy := match i % 128 with
  | 0 => ⟨S100000, .i32⟩
  | 1 => ⟨S100000, .i32⟩
  | 2 => ⟨S100000, .i32⟩
  | 3 => ⟨S100000x1, .i32⟩
  | 4 => ⟨S100000x512, .f32⟩
  | 5 => ⟨S100000x1, .f32⟩
  | 6 => ⟨S100000x512, .f32⟩
  | 7 => ⟨S100000x512, .f32⟩
  | 8 => ⟨S_, .f32⟩
  | 9 => ⟨S20000x512, .f32⟩
  | 10 => ⟨S100000x1, .i32⟩
  | 11 => ⟨S20000x512, .f32⟩
  | 12 => ⟨S_, .f32⟩
  | 13 => ⟨S20000, .f32⟩
  | 14 => ⟨S100000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x512, .f32⟩
  | 21 => ⟨S20000x512, .f32⟩
  | 22 => ⟨S512x512, .f32⟩
  | 23 => ⟨S20000x512, .f32⟩
  | 24 => ⟨S512x512, .f32⟩
  | 25 => ⟨S20000x512, .f32⟩
  | 26 => ⟨S20000x512, .f32⟩
  | 27 => ⟨S1x512, .f32⟩
  | 28 => ⟨S20000x512, .f32⟩
  | 29 => ⟨S20000x512, .f32⟩
  | 30 => ⟨S_, .f32⟩
  | 31 => ⟨S20000x512, .f32⟩
  | 32 => ⟨S20000x512, .f32⟩
  | 33 => ⟨S_, .i32⟩
  | 34 => ⟨S100000, .i32⟩
  | 35 => ⟨S100000, .i1⟩
  | 36 => ⟨S100000, .f32⟩
  | 37 => ⟨S1x512x512, .f32⟩
  | 38 => ⟨S512x512, .f32⟩
  | 39 => ⟨S1x512x512, .f32⟩
  | 40 => ⟨S512x512, .f32⟩
  | 41 => ⟨S1x512, .f32⟩
  | 42 => ⟨S512, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x512, .f32⟩
  | 52 => ⟨S100000x1, .f32⟩
  | 53 => ⟨S100000x512, .f32⟩
  | 54 => ⟨S100000x512, .f32⟩
  | 55 => ⟨S_, .f32⟩
  | 56 => ⟨S20000x512, .f32⟩
  | 57 => ⟨S100000x1, .i32⟩
  | 58 => ⟨S20000x512, .f32⟩
  | 59 => ⟨S_, .f32⟩
  | 60 => ⟨S20000, .f32⟩
  | 61 => ⟨S100000x1, .i32⟩
  | 62 => ⟨S20000, .f32⟩
  | 63 => ⟨S_, .f32⟩
  | 64 => ⟨S20000, .f32⟩
  | 65 => ⟨S20000, .f32⟩
  | 66 => ⟨S20000x1, .f32⟩
  | 67 => ⟨S20000x512, .f32⟩
  | 68 => ⟨S20000x512, .f32⟩
  | 69 => ⟨S512x512, .f32⟩
  | 70 => ⟨S20000x512, .f32⟩
  | 71 => ⟨S512x512, .f32⟩
  | 72 => ⟨S20000x512, .f32⟩
  | 73 => ⟨S20000x512, .f32⟩
  | 74 => ⟨S1x512, .f32⟩
  | 75 => ⟨S20000x512, .f32⟩
  | 76 => ⟨S20000x512, .f32⟩
  | 77 => ⟨S_, .f32⟩
  | 78 => ⟨S20000x512, .f32⟩
  | 79 => ⟨S20000x512, .f32⟩
  | 80 => ⟨S_, .i32⟩
  | 81 => ⟨S100000, .i32⟩
  | 82 => ⟨S100000, .i1⟩
  | 83 => ⟨S100000, .f32⟩
  | 84 => ⟨S1x512x512, .f32⟩
  | 85 => ⟨S512x512, .f32⟩
  | 86 => ⟨S1x512x512, .f32⟩
  | 87 => ⟨S512x512, .f32⟩
  | 88 => ⟨S1x512, .f32⟩
  | 89 => ⟨S512, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x512, .f32⟩
  | 99 => ⟨S100000x1, .f32⟩
  | 100 => ⟨S100000x512, .f32⟩
  | 101 => ⟨S100000x512, .f32⟩
  | 102 => ⟨S_, .f32⟩
  | 103 => ⟨S20000x512, .f32⟩
  | 104 => ⟨S100000x1, .i32⟩
  | 105 => ⟨S20000x512, .f32⟩
  | 106 => ⟨S_, .f32⟩
  | 107 => ⟨S20000, .f32⟩
  | 108 => ⟨S100000x1, .i32⟩
  | 109 => ⟨S20000, .f32⟩
  | 110 => ⟨S_, .f32⟩
  | 111 => ⟨S20000, .f32⟩
  | 112 => ⟨S20000, .f32⟩
  | 113 => ⟨S20000x1, .f32⟩
  | 114 => ⟨S20000x512, .f32⟩
  | 115 => ⟨S20000x512, .f32⟩
  | 116 => ⟨S512x512, .f32⟩
  | 117 => ⟨S20000x512, .f32⟩
  | 118 => ⟨S512x512, .f32⟩
  | 119 => ⟨S20000x512, .f32⟩
  | 120 => ⟨S20000x512, .f32⟩
  | 121 => ⟨S1x512, .f32⟩
  | 122 => ⟨S20000x512, .f32⟩
  | 123 => ⟨S20000x512, .f32⟩
  | 124 => ⟨S_, .f32⟩
  | 125 => ⟨S20000x512, .f32⟩
  | 126 => ⟨S20000x512, .f32⟩
  | 127 => ⟨S20000x2560, .f32⟩
  | _ => ⟨S20000x512, .f32⟩

abbrev hbmTy0_2 (i : Nat) : BufTy := match i % 128 with
  | 0 => ⟨S1x2560, .f32⟩
  | 1 => ⟨S20000x2560, .f32⟩
  | 2 => ⟨S20000x2560, .f32⟩
  | 3 => ⟨S_, .f32⟩
  | 4 => ⟨S2560, .f32⟩
  | 5 => ⟨S2560, .f32⟩
  | 6 => ⟨S2560, .f32⟩
  | 7 => ⟨S1x2560, .f32⟩
  | 8 => ⟨S20000x2560, .f32⟩
  | 9 => ⟨S20000x2560, .f32⟩
  | 10 => ⟨S1x2560, .f32⟩
  | 11 => ⟨S20000x2560, .f32⟩
  | 12 => ⟨S20000x2560, .f32⟩
  | 13 => ⟨S1x2560, .f32⟩
  | 14 => ⟨S20000x2560, .f32⟩
  | 15 => ⟨S20000x2560, .f32⟩
  | 16 => ⟨S_, .f32⟩
  | 17 => ⟨S100000, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x2560, .f32⟩
  | 27 => ⟨S100000x1, .f32⟩
  | 28 => ⟨S100000x2560, .f32⟩
  | 29 => ⟨S100000x2560, .f32⟩
  | 30 => ⟨S_, .f32⟩
  | 31 => ⟨S20000x2560, .f32⟩
  | 32 => ⟨S100000x1, .i32⟩
  | 33 => ⟨S20000x2560, .f32⟩
  | 34 => ⟨S_, .f32⟩
  | 35 => ⟨S20000, .f32⟩
  | 36 => ⟨S100000x1, .i32⟩
  | 37 => ⟨S20000, .f32⟩
  | 38 => ⟨S_, .f32⟩
  | 39 => ⟨S20000, .f32⟩
  | 40 => ⟨S20000, .f32⟩
  | 41 => ⟨S20000x1, .f32⟩
  | 42 => ⟨S20000x2560, .f32⟩
  | 43 => ⟨S20000x2560, .f32⟩
  | 44 => ⟨S2560x256, .f32⟩
  | 45 => ⟨S20000x256, .f32⟩
  | 46 => ⟨S2560x256, .f32⟩
  | 47 => ⟨S20000x256, .f32⟩
  | 48 => ⟨S20000x256, .f32⟩
  | 49 => ⟨S1x256, .f32⟩
  | 50 => ⟨S20000x256, .f32⟩
  | 51 => ⟨S20000x256, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x2560, .f32⟩
  | 61 => ⟨S100000x1, .f32⟩
  | 62 => ⟨S100000x2560, .f32⟩
  | 63 => ⟨S100000x2560, .f32⟩
  | 64 => ⟨S_, .f32⟩
  | 65 => ⟨S20000x2560, .f32⟩
  | 66 => ⟨S100000x1, .i32⟩
  | 67 => ⟨S20000x2560, .f32⟩
  | 68 => ⟨S_, .f32⟩
  | 69 => ⟨S20000, .f32⟩
  | 70 => ⟨S100000x1, .i32⟩
  | 71 => ⟨S20000, .f32⟩
  | 72 => ⟨S_, .f32⟩
  | 73 => ⟨S20000, .f32⟩
  | 74 => ⟨S20000, .f32⟩
  | 75 => ⟨S20000x1, .f32⟩
  | 76 => ⟨S20000x2560, .f32⟩
  | 77 => ⟨S20000x2560, .f32⟩
  | 78 => ⟨S2560x256, .f32⟩
  | 79 => ⟨S20000x256, .f32⟩
  | 80 => ⟨S2560x256, .f32⟩
  | 81 => ⟨S20000x256, .f32⟩
  | 82 => ⟨S20000x256, .f32⟩
  | 83 => ⟨S1x256, .f32⟩
  | 84 => ⟨S20000x256, .f32⟩
  | 85 => ⟨S20000x256, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_c_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_5 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call1_cst : Ref sig .tc := ⟨.hbm, 111, rfl⟩
abbrev main_call1_v0 : Ref sig .tc := ⟨.hbm, 112, rfl⟩
abbrev main_v81 : Ref sig .tc := ⟨.hbm, 113, rfl⟩
abbrev main_c_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_11 : Ref sig .tc := ⟨.hbm, 124, rfl⟩
abbrev main_v91 : Ref sig .tc := ⟨.hbm, 125, rfl⟩
abbrev main_v92 : Ref sig .tc := ⟨.hbm, 126, rfl⟩
abbrev main_c_12 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_13 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_15 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_call2_cst : Ref sig .tc := ⟨.hbm, 158, rfl⟩
abbrev main_call2_v0 : Ref sig .tc := ⟨.hbm, 159, rfl⟩
abbrev main_v120 : Ref sig .tc := ⟨.hbm, 160, rfl⟩
abbrev main_c_16 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_17 : Ref sig .tc := ⟨.hbm, 171, rfl⟩
abbrev main_v130 : Ref sig .tc := ⟨.hbm, 172, rfl⟩
abbrev main_v131 : Ref sig .tc := ⟨.hbm, 173, rfl⟩
abbrev main_c_18 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_19 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_20 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_21 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_call3_cst : Ref sig .tc := ⟨.hbm, 205, rfl⟩
abbrev main_call3_v0 : Ref sig .tc := ⟨.hbm, 206, rfl⟩
abbrev main_v159 : Ref sig .tc := ⟨.hbm, 207, rfl⟩
abbrev main_c_22 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_c_23 : Ref sig .tc := ⟨.hbm, 218, rfl⟩
abbrev main_v169 : Ref sig .tc := ⟨.hbm, 219, rfl⟩
abbrev main_v170 : Ref sig .tc := ⟨.hbm, 220, rfl⟩
abbrev main_c_24 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_25 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_26 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_27 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_call4_cst : Ref sig .tc := ⟨.hbm, 252, rfl⟩
abbrev main_call4_v0 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_28 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_29 : Ref sig .tc := ⟨.hbm, 272, rfl⟩
abbrev main_v215 : Ref sig .tc := ⟨.hbm, 273, rfl⟩
abbrev main_c_30 : Ref sig .tc := ⟨.hbm, 274, rfl⟩
abbrev main_v216 : Ref sig .tc := ⟨.hbm, 275, rfl⟩
abbrev main_v217 : Ref sig .tc := ⟨.hbm, 276, rfl⟩
abbrev main_c_31 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_32 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_33 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_34 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_c_35 : Ref sig .tc := ⟨.hbm, 308, rfl⟩
abbrev main_v245 : Ref sig .tc := ⟨.hbm, 309, rfl⟩
abbrev main_v246 : Ref sig .tc := ⟨.hbm, 310, rfl⟩
abbrev main_c_36 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_cst_37 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_cst_38 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_39 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  slices_S5x512x512_S1x512x512_0_0_0 : S5x512x512.Slices ![0, 0, 0] S1x512x512
  shapeCasts_S1x512x512_S512x512 : S1x512x512.ShapeCasts S512x512
  slices_S5x512_S1x512_0_0 : S5x512.Slices ![0, 0] S1x512
  shapeCasts_S1x512_S512 : S1x512.ShapeCasts S512
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S5x512x512_S1x512x512_1_0_0 : S5x512x512.Slices ![1, 0, 0] S1x512x512
  slices_S5x512_S1x512_1_0 : S5x512.Slices ![1, 0] S1x512
  slices_S5x512x512_S1x512x512_2_0_0 : S5x512x512.Slices ![2, 0, 0] S1x512x512
  slices_S5x512_S1x512_2_0 : S5x512.Slices ![2, 0] S1x512
  slices_S5x512x512_S1x512x512_3_0_0 : S5x512x512.Slices ![3, 0, 0] S1x512x512
  slices_S5x512_S1x512_3_0 : S5x512.Slices ![3, 0] S1x512
  slices_S5x512x512_S1x512x512_4_0_0 : S5x512x512.Slices ![4, 0, 0] S1x512x512
  slices_S5x512_S1x512_4_0 : S5x512.Slices ![4, 0] S1x512
  concatenates_S20000x512_S20000x512_S20000x512_S20000x512_S20000x512_S20000x2560_d1 : Shape.Concatenates [S20000x512, S20000x512, S20000x512, S20000x512, S20000x512] S20000x2560 1
  bcast_S2560_S1x2560_1 : S2560.BroadcastsInDim S1x2560 (![1] : Fin 1 → Fin S1x2560.rank)
  bcast_S1x2560_S20000x2560_0_1 : S1x2560.BroadcastsInDim S20000x2560 (![0, 1] : Fin 2 → Fin S20000x2560.rank)
  bcast_S_S2560 : S_.BroadcastsInDim S2560 (![] : Fin 0 → Fin S2560.rank)
  bcast_S100000x1_S100000x2560_0_1 : S100000x1.BroadcastsInDim S100000x2560 (![0, 1] : Fin 2 → Fin S100000x2560.rank)
  bcast_S_S20000x2560 : S_.BroadcastsInDim S20000x2560 (![] : Fin 0 → Fin S20000x2560.rank)
  bcast_S20000x1_S20000x2560_0_1 : S20000x1.BroadcastsInDim S20000x2560 (![0, 1] : Fin 2 → Fin S20000x2560.rank)
  transposes_S256x2560_S2560x256_1_0 : S256x2560.Transposes [1, 0] S2560x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x512_S100000x1_S100000x512_1_0_n_n_0_1_1512_wf : GatherDims.WF S20000x512 S100000x1 S100000x512 [1] [0] [] [0] [] 1 ![1, 512]
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  dot_S20000x512_S512x512_S20000x512_1_0_0_1_n_n_wf : DotDims.WF S20000x512 S512x512 S20000x512 [1] [0] [0] [1] [] []
  gather_S20000x2560_S100000x1_S100000x2560_1_0_n_n_0_1_12560_wf : GatherDims.WF S20000x2560 S100000x1 S100000x2560 [1] [0] [] [0] [] 1 ![1, 2560]
  scatter_S20000x2560_S100000x1_S100000x2560_1_0_0_1_wf : ScatterDims.WF S20000x2560 S100000x1 S100000x2560 [1] [0] [0] 1
  dot_S20000x2560_S2560x256_S20000x256_1_0_0_1_n_n_wf : DotDims.WF S20000x2560 S2560x256 S20000x256 [1] [0] [0] [1] [] []

variable [Facts₀]

def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x2560_S100000x1_S100000x2560_1_0_n_n_0_1_12560 : GatherDims S20000x2560 S100000x1 S100000x2560 where
  offsetDims := [1]
  collapsedSliceDims := [0]
  operandBatchingDims := []
  startIndicesBatchingDims := []
  startIndexMap := [0]
  indexVectorDim := 1
  sliceSizes := ![1, 2560]
  wf := gather_S20000x2560_S100000x1_S100000x2560_1_0_n_n_0_1_12560_wf
def scatter_S20000x2560_S100000x1_S100000x2560_1_0_0_1 : ScatterDims S20000x2560 S100000x1 S100000x2560 where
  updateWindowDims := [1]
  insertedWindowDims := [0]
  scatterDimsToOperandDims := [0]
  indexVectorDim := 1
  wf := scatter_S20000x2560_S100000x1_S100000x2560_1_0_0_1_wf
def dot_S20000x2560_S2560x256_S20000x256_1_0_0_1_n_n : DotDims S20000x2560 S2560x256 S20000x256 where
  lhsContracting := [1]
  rhsContracting := [0]
  lhsNonContracting := [0]
  rhsNonContracting := [1]
  lhsBatch := []
  rhsBatch := []
  wf := dot_S20000x2560_S2560x256_S20000x256_1_0_0_1_n_n_wf

class Facts : Prop extends Facts₀ where

variable [Facts]
-- ==== Proof.KRun.lean ====
/-
  The idealized kernel's run, with its two result arrays NAMED.

  @main is four segments: the host operations before the first pallas_call, that call's pipeline, the host
  operations between the calls, the second call's pipeline. The buffer contents at the segment boundaries are a fold
  from the launch memory; the last of them is what every unscoped buffer holds when @main returns. So each result
  array ends at the last boundary's contents, which for an output of the second pipeline is what that pipeline's
  write-backs leave (the fold of its blocks over the grid), and the argument arrays end as launched.
-/
import proofs.«145364_j21045339751000_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result array at the last
    boundary's contents and the arguments as launched. -/
theorem run_named : θ_run defs (onTc (τ := τ) (main (F := F))) ⟨m, fun _ => 0, ρ⟩ (fun r => ∀ c : Dev nD,
      r.2.mem ((c.tc : Thread nD τ).loc main_v142_0) = W4 m ρ c (Proc.devRef .tc main_v142_0)
      ∧ r.2.mem ((c.tc : Thread nD τ).loc main_v142_1) = W4 m ρ c (Proc.devRef .tc main_v142_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v142_0 (by decide)),
       h c _ (mem_uc main_v142_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

/-- The second pipeline's two outputs at the last boundary are what its write-backs leave. -/
theorem W4_mu (c : Dev nD) : W4 m ρ c (Proc.devRef .tc main_v142_0) = (dat1 (V3 m ρ) c).arrAt 8 cfg1.N := W4_arr m ρ c 8
theorem W4_lv (c : Dev nD) : W4 m ρ c (Proc.devRef .tc main_v142_1) = (dat1 (V3 m ρ) c).arrAt 9 cfg1.N := W4_arr m ρ c 9

/-- The first pipeline's output, as the host operations between the calls find it, is what its write-backs leave. -/
theorem W2_hidden (c : Dev nD) : W2 m ρ c (Proc.devRef .tc main_v110) = (dat0 (V1 m ρ) c).arrAt 13 cfg0.N := W2_arr m ρ c 13

end Cert.KernelIdeal.KRun

end
-- ==== Proof.Spec.lean ====
/-
  What the two-layer relational SAGE encoder computes, over the extended reals, element by element.

  Layer one, for each of the five relations k and each node r: the relation's mean-aggregated neighbour features
  and the node's own features go through two linear maps and a bias, then relu; the five 512-wide results sit side
  by side (channel 512·k + j), and every channel is normalised with its running statistics (eval-mode batch norm).
  Layer two (the two heads): the same linear form, over the mean-aggregated hidden features and the node's own.

  The arrays enter as ACCESSORS (functions of coordinates), so that a side which holds a weight transposed, or a
  per-channel vector as a one-row matrix, states its own layout at the call and both sides meet at one function.
-/
import Idealize.ShloMosaic.PureOps.Ideal
import Idealize.ShloMosaic.Lib.ValueIdx

noncomputable section

namespace Cert.SageSpec

open Idealize.ShloMosaic Idealize.ShloMosaic.ValueIdx

/-- The batch norm's epsilon: the single-precision number nearest 1e-5, as both programs spell it. -/
abbrev eps : EReal := Ideal.ofBits .f32 0x3727C5AC#32

/-- Eval-mode batch norm of one value by its channel's running mean, running variance, scale and shift. -/
def bn (v rm rv g be : EReal) : EReal := ((v - rm) * Ideal.rsqrt (rv + eps)) * g + be

/-- One SAGE output element: the aggregated row against one weight row, plus the node's own row against another,
    plus the bias — in this order of additions. -/
def sage {K : Nat} (mean x wl wr : Fin K → EReal) (b : EReal) : EReal :=
  (∑ c : Fin K, mean c * wl c) + (∑ c : Fin K, x c * wr c) + b

/-- The relation a hidden channel belongs to, and its place inside the relation's 512 channels. -/
abbrev rel (q : Fin 2560) : Fin 5 := ⟨q.val / 512, by have := q.isLt; omega⟩
abbrev chan (q : Fin 2560) : Fin 512 := ⟨q.val % 512, Nat.mod_lt _ (by decide)⟩

/-- The hidden features: channel q = 512·k + j of node r is the batch norm of relu of relation k's SAGE element j. -/
def hidden (mean : Fin 5 → Fin 20000 → Fin 512 → EReal) (x : Fin 20000 → Fin 512 → EReal)
    (wl wr : Fin 5 → Fin 512 → Fin 512 → EReal) (b : Fin 5 → Fin 512 → EReal) (rm rv g be : Fin 2560 → EReal) :
    (⟨2, ![20000, 2560]⟩ : Shape).Idx → EReal := fun i =>
  bn (max (sage (mean (rel (i 1)) (i 0)) (x (i 0)) (wl (rel (i 1)) (chan (i 1))) (wr (rel (i 1)) (chan (i 1))) (b (rel (i 1)) (chan (i 1)))) 0)
    (rm (i 1)) (rv (i 1)) (g (i 1)) (be (i 1))

/-- One head: element j of node r is the SAGE element over the 2560 hidden channels. -/
def head (mh h : Fin 20000 → Fin 2560 → EReal) (wl wr : Fin 256 → Fin 2560 → EReal) (b : Fin 256 → EReal) :
    (⟨2, ![20000, 256]⟩ : Shape).Idx → EReal := fun i =>
  sage (mh (i 0)) (h (i 0)) (wl (i 1)) (wr (i 1)) (b (i 1))

end Cert.SageSpec

end
-- ==== Proof.Branches.lean ====
/-
  The first kernel's output array, as one function of its input arrays.

  Each of the fifty grid points takes 400 rows of the node features and of the five relations' aggregated means, and
  the whole stacked weights, biases and per-channel statistics, and writes a 400×2560 tile: five stores, one per
  relation, side by side along the columns. Store k holds, at row p and column j,
      bn( relu( Σ_c mean_k[p,c]·Wl[k][c,j] + Σ_c x[p,c]·Wr[k][c,j] + b[k][j] ) ) at channel 512·k + j,
  the arithmetic cut at a different place for each relation but always this entry. So the tile is one function of the
  point's input tiles; each input tile is the block of its array at row offset 400·t (the whole array, for the
  weights and statistics); the fifty tiles cover the 20000 rows; and the array ends holding the specification's
  hidden features of the arrays as they were when the kernel started.
-/
import proofs.«145364_j21045339751000_1_alg».proof.Proof.Gen.KernelIdeal.Frame
import proofs.«145364_j21045339751000_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Branches

open Cert.KernelIdeal Cert.KernelIdeal.Gen
open Idealize.ShloMosaic Idealize.ShloMosaic.ValueIdx Idealize.ShloMosaic.TcCoe Idealize.SL.Sem
open Idealize.ShloMosaic.Pipeline (Dat Cfg Window)

/-! ## Reading the layout operations and the contraction at coordinates -/

/-- A one-row vector spread over the 400 rows of a tile: row `p`, column `j` reads column `j`. -/
theorem bcRow {α : Type} (v : S1x512.Idx → α) (p : Fin 400) (j : Fin 512) :
    broadcastTo S400x512 v broadcasts_S1x512_S400x512 (ix2 p j) = v (ix2 0 j) :=
  broadcastTo_apply v broadcasts_S1x512_S400x512 (ix2 p j) (ix2 0 j) (fun a => by
    match a with
    | ⟨0, _⟩ => rfl
    | ⟨1, _⟩ => rfl)

/-- The bias row passes through a flattening and back unchanged. -/
theorem flatRow {α : Type} (v : S1x512.Idx → α) :
    shapeCast S1x512 (shapeCast S512 v shapeCasts_S1x512_S512) shapeCasts_S512_S1x512 = v :=
  shapeCast_shapeCast v shapeCasts_S1x512_S512 shapeCasts_S512_S1x512

/-- One relation's 512×512 weight slab, seen as a matrix: entry (c, j) is the slab's (0, c, j). -/
theorem slab {α : Type} (w : S1x512x512.Idx → α) (c j : Fin 512) :
    shapeCast S512x512 w shapeCasts_S1x512x512_S512x512 (ix2 c j) = w (ix3 0 c j) :=
  shapeCast_apply w shapeCasts_S1x512x512_S512x512 (ix2 c j) (ix3 0 c j) (by
    rw [Shape.rowMajor_val_three, Shape.rowMajor_val_two]
    show ((0 : Nat) * 512 + c.val) * 512 + j.val = c.val * 512 + j.val
    omega)

theorem lhs0 (i : S400x512.Idx) (q : dot_S400x512_S512x512_S400x512_1_0_0_1_n_n.contr.Idx) : (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
theorem lhs1 (i : S400x512.Idx) (q : dot_S400x512_S512x512_S400x512_1_0_0_1_n_n.contr.Idx) : (dot_S400x512_S512x512_S400x512_1_0_0_1_n_n.lhsIdx i q 1).val = (q ⟨0, by decide⟩).val :=
  dot_S400x512_S512x512_S400x512_1_0_0_1_n_n.lhsIdx_val_of_single rfl i q
theorem rhs0 (i : S400x512.Idx) (q : dot_S400x512_S512x512_S400x512_1_0_0_1_n_n.contr.Idx) : (dot_S400x512_S512x512_S400x512_1_0_0_1_n_n.rhsIdx i q 0).val = (q ⟨0, by decide⟩).val :=
  dot_S400x512_S512x512_S400x512_1_0_0_1_n_n.rhsIdx_val_of_single rfl i q
theorem rhs1 (i : S400x512.Idx) (q : dot_S400x512_S512x512_S400x512_1_0_0_1_n_n.contr.Idx) : (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- The product of a row tile with a weight slab into a zero accumulator, at row `p` and output channel `j`:
    the sum over the 512 input channels. -/
theorem mm (a : FVec Ideal S400x512 .bf16) (w : Vec Ideal S1x512x512 .bf16) (p : Fin 400) (j : Fin 512) :
    matmul dot_S400x512_S512x512_S400x512_1_0_0_1_n_n none a (shapeCast S512x512 w shapeCasts_S1x512x512_S512x512 : FVec Ideal S512x512 .bf16) (constant (F := Ideal) S400x512 .f32 0x00000000#32) (ix2 p j)
      = ∑ c : Fin 512, a (ix2 p c) * w (ix3 0 c j) := by
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p j) ((contrEquiv1 dot_S400x512_S512x512_S400x512_1_0_0_1_n_n 512 rfl rfl).symm k) = ix2 p k := funext fun a => Fin.ext (by
    match a with
    | ⟨0, _⟩ => exact lhs0 _ _
    | ⟨1, _⟩ => exact (lhs1 _ _).trans hk)
  have er : dot_S400x512_S512x512_S400x512_1_0_0_1_n_n.rhsIdx (ix2 p j) ((contrEquiv1 dot_S400x512_S512x512_S400x512_1_0_0_1_n_n 512 rfl rfl).symm k) = ix2 k j := funext fun a => Fin.ext (by
    match a with
    | ⟨0, _⟩ => exact (rhs0 _ _).trans hk
    | ⟨1, _⟩ => exact rhs1 _ _)
  rw [el, er, slab]

/-! ## One hidden entry, and the five stores' payloads at coordinates -/

/-- One hidden entry from its rows: relu of the SAGE element, then the channel's batch norm. -/
def cell (mrow xrow wlc wrc : Fin 512 → EReal) (b rm rv g be : EReal) : EReal :=
  SageSpec.bn (max (SageSpec.sage mrow xrow wlc wrc b) 0) rm rv g be

theorem rsqrt_at (v : FVec Ideal S1x512 .f32) (i : S1x512.Idx) : rsqrt v i = Ideal.rsqrt (v i) := rfl

theorem zero_word : (Scalar.ofBits .f32 0x00000000#32 : Ideal .f32) = 0 := Ideal.ofBits_zero_f32

theorem eps_word : (Scalar.ofBits .f32 0x3727C5AC#32 : Ideal .f32) = SageSpec.eps := rfl

/-- Relation 0's store, at row `p` and channel `j` of its 512 columns: the body cuts the arithmetic differently for each
    relation, and each cut is the same entry. -/
theorem pay_rel0 (x m : FVec Ideal S400x512 .bf16) (wl wr : FVec Ideal S1x512x512 .bf16) (b rm rv g be : FVec Ideal S1x512 .f32)
    (p : Fin 400) (j : Fin 512) :
    k0_pay5 (F := Ideal) (k0_pay3 be) (k0_pay4 x m wl wr b rm rv g) (ix2 p j)
      = cell (fun c => m (ix2 p c)) (fun c => x (ix2 p c)) (fun c => wl (ix3 0 c j)) (fun c => wr (ix3 0 c j))
          (b (ix2 0 j)) (rm (ix2 0 j)) (rv (ix2 0 j)) (g (ix2 0 j)) (be (ix2 0 j)) := by
  unfold k0_pay5 k0_pay3 k0_pay4 k0_pay2 cell SageSpec.bn SageSpec.sage
  simp only [shapeCast_self, flatRow, addf_apply, mulf_apply, subf_apply, maximumf_apply, bcRow, mm, broadcast_apply, rsqrt_at,
    zero_word, eps_word]

/-- Relation 1's store, at row `p` and channel `j` of its 512 columns: the body cuts the arithmetic differently for each
    relation, and each cut is the same entry. -/
theorem pay_rel1 (x m : FVec Ideal S400x512 .bf16) (wl wr : FVec Ideal S1x512x512 .bf16) (b rm rv g be : FVec Ideal S1x512 .f32)
    (p : Fin 400) (j : Fin 512) :
    k0_pay9 (F := Ideal) (k0_pay6 be) (k0_pay7 (k0_pay2 x) m wl wr b rm rv) (k0_pay8 g) (ix2 p j)
      = cell (fun c => m (ix2 p c)) (fun c => x (ix2 p c)) (fun c => wl (ix3 0 c j)) (fun c => wr (ix3 0 c j))
          (b (ix2 0 j)) (rm (ix2 0 j)) (rv (ix2 0 j)) (g (ix2 0 j)) (be (ix2 0 j)) := by
  unfold k0_pay9 k0_pay6 k0_pay7 k0_pay8 k0_pay2 cell SageSpec.bn SageSpec.sage
  simp only [shapeCast_self, flatRow, addf_apply, mulf_apply, subf_apply, maximumf_apply, bcRow, mm, broadcast_apply, rsqrt_at,
    zero_word, eps_word]

/-- Relation 2's store, at row `p` and channel `j` of its 512 columns: the body cuts the arithmetic differently for each
    relation, and each cut is the same entry. -/
theorem pay_rel2 (x m : FVec Ideal S400x512 .bf16) (wl wr : FVec Ideal S1x512x512 .bf16) (b rm rv g be : FVec Ideal S1x512 .f32)
    (p : Fin 400) (j : Fin 512) :
    k0_pay13 (F := Ideal) (k0_pay10 g) (k0_pay11 be) (k0_pay12 (k0_pay2 x) m wl wr b rm rv) (ix2 p j)
      = cell (fun c => m (ix2 p c)) (fun c => x (ix2 p c)) (fun c => wl (ix3 0 c j)) (fun c => wr (ix3 0 c j))
          (b (ix2 0 j)) (rm (ix2 0 j)) (rv (ix2 0 j)) (g (ix2 0 j)) (be (ix2 0 j)) := by
  unfold k0_pay13 k0_pay10 k0_pay11 k0_pay12 k0_pay2 cell SageSpec.bn SageSpec.sage
  simp only [shapeCast_self, flatRow, addf_apply, mulf_apply, subf_apply, maximumf_apply, bcRow, mm, broadcast_apply, rsqrt_at,
    zero_word, eps_word]

/-- Relation 3's store, at row `p` and channel `j` of its 512 columns: the body cuts the arithmetic differently for each
    relation, and each cut is the same entry. -/
theorem pay_rel3 (x m : FVec Ideal S400x512 .bf16) (wl wr : FVec Ideal S1x512x512 .bf16) (b rm rv g be : FVec Ideal S1x512 .f32)
    (p : Fin 400) (j : Fin 512) :
    k0_pay18 (F := Ideal) (k0_pay14 g) (k0_pay15 be) (k0_pay16 (k0_pay2 x) m wl wr b rm) (k0_pay17 rv) (ix2 p j)
      = cell (fun c => m (ix2 p c)) (fun c => x (ix2 p c)) (fun c => wl (ix3 0 c j)) (fun c => wr (ix3 0 c j))
          (b (ix2 0 j)) (rm (ix2 0 j)) (rv (ix2 0 j)) (g (ix2 0 j)) (be (ix2 0 j)) := by
  unfold k0_pay18 k0_pay14 k0_pay15 k0_pay16 k0_pay17 k0_pay2 cell SageSpec.bn SageSpec.sage
  simp only [shapeCast_self, flatRow, addf_apply, mulf_apply, subf_apply, maximumf_apply, bcRow, mm, broadcast_apply, rsqrt_at,
    zero_word, eps_word]

/-- Relation 4's store, at row `p` and channel `j` of its 512 columns: the body cuts the arithmetic differently for each
    relation, and each cut is the same entry. -/
theorem pay_rel4 (x m : FVec Ideal S400x512 .bf16) (wl wr : FVec Ideal S1x512x512 .bf16) (b rm rv g be : FVec Ideal S1x512 .f32)
    (p : Fin 400) (j : Fin 512) :
    k0_pay1 (F := Ideal) (k0_pay19 g) (k0_pay20 be) (k0_pay21 (k0_pay2 x) m wl wr b rm) (k0_pay22 rv) (ix2 p j)
      = cell (fun c => m (ix2 p c)) (fun c => x (ix2 p c)) (fun c => wl (ix3 0 c j)) (fun c => wr (ix3 0 c j))
          (b (ix2 0 j)) (rm (ix2 0 j)) (rv (ix2 0 j)) (g (ix2 0 j)) (be (ix2 0 j)) := by
  unfold k0_pay1 k0_pay19 k0_pay20 k0_pay21 k0_pay22 k0_pay2 cell SageSpec.bn SageSpec.sage
  simp only [shapeCast_self, flatRow, addf_apply, mulf_apply, subf_apply, maximumf_apply, bcRow, mm, broadcast_apply, rsqrt_at,
    zero_word, eps_word]

/-! ## The output tile of one grid point as one function of its input tiles -/

/-- A load of a whole 400×512 tile reads it. -/
theorem ldTile {e : EltTy} (X : Vec Ideal S400x512 e) (inb : ∀ a, (![0, 0] : Fin 2 → Nat) a + S400x512.size a ≤ S400x512.size a)
    (p : Fin 400) (c : Fin 512) :
    View.ld X (Rect.unit (s := S400x512) ![0, 0] S400x512.size inb) (ix2 p c) = X (ix2 p c) :=
  congrArg X (funext fun a => Fin.ext (by
    match a with
    | ⟨0, _⟩ => show 0 + 1 * p.val = p.val; omega
    | ⟨1, _⟩ => show 0 + 1 * c.val = c.val; omega))

/-- A load of relation `k`'s slab of a stacked weight reads the stack at (k, c, j). -/
theorem ldSlab {e : EltTy} (X : Vec Ideal S5x512x512 e) (k : Nat) (hk : k < 5)
    (inb : ∀ a, (![k, 0, 0] : Fin 3 → Nat) a + S1x512x512.size a ≤ S5x512x512.size a) (c j : Fin 512) :
    View.ld X (Rect.unit (s := S5x512x512) ![k, 0, 0] S1x512x512.size inb) (ix3 0 c j) = X (ix3 ⟨k, hk⟩ c j) :=
  congrArg X (funext fun a => Fin.ext (by
    match a with
    | ⟨0, _⟩ => show k + 1 * 0 = k; omega
    | ⟨1, _⟩ => show 0 + 1 * c.val = c.val; omega
    | ⟨2, _⟩ => show 0 + 1 * j.val = j.val; omega))

/-- A load of relation `k`'s row of the stacked biases reads the stack at (k, j). -/
theorem ldBias {e : EltTy} (X : Vec Ideal S5x512 e) (k : Nat) (hk : k < 5)
    (inb : ∀ a, (![k, 0] : Fin 2 → Nat) a + S1x512.size a ≤ S5x512.size a) (j : Fin 512) :
    View.ld X (Rect.unit (s := S5x512) ![k, 0] S1x512.size inb) (ix2 0 j) = X (ix2 ⟨k, hk⟩ j) :=
  congrArg X (funext fun a => Fin.ext (by
    match a with
    | ⟨0, _⟩ => show k + 1 * 0 = k; omega
    | ⟨1, _⟩ => show 0 + 1 * j.val = j.val; omega))

/-- A load of 512 columns from column `o` of a per-channel row reads the row at column o + j. -/
theorem ldStat {e : EltTy} (X : Vec Ideal S1x2560 e) (o : Nat)
    (inb : ∀ a, (![0, o] : Fin 2 → Nat) a + S1x512.size a ≤ S1x2560.size a) (j : Fin 512) (h : o + j.val < 2560) :
    View.ld X (Rect.unit (s := S1x2560) ![0, o] S1x512.size inb) (ix2 0 j) = X (ix2 0 ⟨o + j.val, h⟩) :=
  congrArg X (funext fun a => Fin.ext (by
    match a with
    | ⟨0, _⟩ => show 0 + 1 * 0 = 0; omega
    | ⟨1, _⟩ => show o + 1 * j.val = o + j.val; omega))

/-- Five things, one per relation. -/
def pick5 {α : Type} (a0 a1 a2 a3 a4 : α) : Fin 5 → α
  | ⟨0, _⟩ => a0 | ⟨1, _⟩ => a1 | ⟨2, _⟩ => a2 | ⟨3, _⟩ => a3 | ⟨4, _⟩ => a4

/-- Entry (p, q) of the 400×2560 tile a grid point leaves, from the point's input tiles: column q = 512·k + j is
    relation k's channel j. -/
def tileAt (x m0 m1 m2 m3 m4 : Vec Ideal S400x512 .bf16) (wl wr : Vec Ideal S5x512x512 .bf16) (b : Vec Ideal S5x512 .f32)
    (rm rv g be : Vec Ideal S1x2560 .f32) (p : Fin 400) (q : Fin 2560) : EReal :=
  cell (fun c => pick5 m0 m1 m2 m3 m4 (SageSpec.rel q) (ix2 p c)) (fun c => x (ix2 p c))
    (fun c => wl (ix3 (SageSpec.rel q) c (SageSpec.chan q))) (fun c => wr (ix3 (SageSpec.rel q) c (SageSpec.chan q)))
    (b (ix2 (SageSpec.rel q) (SageSpec.chan q))) (rm (ix2 0 q)) (rv (ix2 0 q)) (g (ix2 0 q)) (be (ix2 0 q))

/-- The same, with the column's relation and channel named. -/
theorem tileAt_of (x m0 m1 m2 m3 m4 : Vec Ideal S400x512 .bf16) (wl wr : Vec Ideal S5x512x512 .bf16) (b : Vec Ideal S5x512 .f32)
    (rm rv g be : Vec Ideal S1x2560 .f32) (p : Fin 400) (q : Fin 2560) (k : Fin 5) (j : Fin 512) (hq : q.val = 512 * k.val + j.val) :
    tileAt x m0 m1 m2 m3 m4 wl wr b rm rv g be p q
      = cell (fun c => pick5 m0 m1 m2 m3 m4 k (ix2 p c)) (fun c => x (ix2 p c)) (fun c => wl (ix3 k c j)) (fun c => wr (ix3 k c j))
          (b (ix2 k j)) (rm (ix2 0 q)) (rv (ix2 0 q)) (g (ix2 0 q)) (be (ix2 0 q)) := by
  have hr : SageSpec.rel q = k := Fin.ext (by show q.val / 512 = k.val; have := j.isLt; omega)
  have hc : SageSpec.chan q = j := Fin.ext (by show q.val % 512 = j.val; have := j.isLt; omega)
  unfold tileAt
  rw [hr, hc]

def tile (x m0 m1 m2 m3 m4 : Vec Ideal S400x512 .bf16) (wl wr : Vec Ideal S5x512x512 .bf16) (b : Vec Ideal S5x512 .f32)
    (rm rv g be : Vec Ideal S1x2560 .f32) : Vec Ideal S400x2560 .f32 :=
  fun y => tileAt x m0 m1 m2 m3 m4 wl wr b rm rv g be (y 0) (y 1)

/-- Entries built from equal rows and equal channel statistics are equal. -/
theorem cell_congr {m m' x x' wl wl' wr wr' : Fin 512 → EReal} {b b' rm rm' rv rv' g g' be be' : EReal}
    (hm : ∀ c, m c = m' c) (hx : ∀ c, x c = x' c) (hwl : ∀ c, wl c = wl' c) (hwr : ∀ c, wr c = wr' c)
    (hb : b = b') (hrm : rm = rm') (hrv : rv = rv') (hg : g = g') (hbe : be = be') :
    cell m x wl wr b rm rv g be = cell m' x' wl' wr' b' rm' rv' g' be' := by
  obtain rfl : m = m' := funext hm
  obtain rfl : x = x' := funext hx
  obtain rfl : wl = wl' := funext hwl
  obtain rfl : wr = wr' := funext hwr
  subst hb hrm hrv hg hbe
  rfl

/-- Relation 0's store is the tile's columns 0 … 511. -/
theorem piece0 (x0 x1 x2 x3 x4 x5 : Vec Ideal S400x512 .bf16) (x6 x7 : Vec Ideal S5x512x512 .bf16) (x8 : Vec Ideal S5x512 .f32)
    (x9 x10 x11 x12 : Vec Ideal S1x2560 .f32) (p : Fin 400) (j : Fin 512) (h : 0 + j.val < 2560) :
    k0_pay5 (F := Ideal) (k0_pay3 (View.ld x12 r0_3)) (k0_pay4 (View.ld x0 r0_0) (View.ld x1 r0_0) (View.ld x6 r0_1) (View.ld x7 r0_1) (View.ld x8 r0_2) (View.ld x9 r0_3) (View.ld x10 r0_3) (View.ld x11 r0_3)) (ix2 p j)
      = tileAt x0 x1 x2 x3 x4 x5 x6 x7 x8 x9 x10 x11 x12 p ⟨0 + j.val, h⟩ := by
  rw [pay_rel0, tileAt_of x0 x1 x2 x3 x4 x5 x6 x7 x8 x9 x10 x11 x12 p ⟨0 + j.val, h⟩ ⟨0, by decide⟩ j (by show 0 + j.val = 512 * 0 + j.val; omega)]
  exact cell_congr (fun c => ldTile x1 _ p c) (fun c => ldTile x0 _ p c)
    (fun c => ldSlab x6 0 (by decide) _ c j) (fun c => ldSlab x7 0 (by decide) _ c j) (ldBias x8 0 (by decide) _ j)
    (ldStat x9 0 _ j h) (ldStat x10 0 _ j h) (ldStat x11 0 _ j h) (ldStat x12 0 _ j h)

/-- Relation 1's store is the tile's columns 512 … 1023. -/
theorem piece1 (x0 x1 x2 x3 x4 x5 : Vec Ideal S400x512 .bf16) (x6 x7 : Vec Ideal S5x512x512 .bf16) (x8 : Vec Ideal S5x512 .f32)
    (x9 x10 x11 x12 : Vec Ideal S1x2560 .f32) (p : Fin 400) (j : Fin 512) (h : 512 + j.val < 2560) :
    k0_pay9 (F := Ideal) (k0_pay6 (View.ld x12 r0_7)) (k0_pay7 (k0_pay2 (View.ld x0 r0_0)) (View.ld x2 r0_0) (View.ld x6 r0_5) (View.ld x7 r0_5) (View.ld x8 r0_6) (View.ld x9 r0_7) (View.ld x10 r0_7)) (k0_pay8 (View.ld x11 r0_7)) (ix2 p j)
      = tileAt x0 x1 x2 x3 x4 x5 x6 x7 x8 x9 x10 x11 x12 p ⟨512 + j.val, h⟩ := by
  rw [pay_rel1, tileAt_of x0 x1 x2 x3 x4 x5 x6 x7 x8 x9 x10 x11 x12 p ⟨512 + j.val, h⟩ ⟨1, by decide⟩ j (by show 512 + j.val = 512 * 1 + j.val; omega)]
  exact cell_congr (fun c => ldTile x2 _ p c) (fun c => ldTile x0 _ p c)
    (fun c => ldSlab x6 1 (by decide) _ c j) (fun c => ldSlab x7 1 (by decide) _ c j) (ldBias x8 1 (by decide) _ j)
    (ldStat x9 512 _ j h) (ldStat x10 512 _ j h) (ldStat x11 512 _ j h) (ldStat x12 512 _ j h)

/-- Relation 2's store is the tile's columns 1024 … 1535. -/
theorem piece2 (x0 x1 x2 x3 x4 x5 : Vec Ideal S400x512 .bf16) (x6 x7 : Vec Ideal S5x512x512 .bf16) (x8 : Vec Ideal S5x512 .f32)
    (x9 x10 x11 x12 : Vec Ideal S1x2560 .f32) (p : Fin 400) (j : Fin 512) (h : 1024 + j.val < 2560) :
    k0_pay13 (F := Ideal) (k0_pay10 (View.ld x11 r0_11)) (k0_pay11 (View.ld x12 r0_11)) (k0_pay12 (k0_pay2 (View.ld x0 r0_0)) (View.ld x3 r0_0) (View.ld x6 r0_9) (View.ld x7 r0_9) (View.ld x8 r0_10) (View.ld x9 r0_11) (View.ld x10 r0_11)) (ix2 p j)
      = tileAt x0 x1 x2 x3 x4 x5 x6 x7 x8 x9 x10 x11 x12 p ⟨1024 + j.val, h⟩ := by
  rw [pay_rel2, tileAt_of x0 x1 x2 x3 x4 x5 x6 x7 x8 x9 x10 x11 x12 p ⟨1024 + j.val, h⟩ ⟨2, by decide⟩ j (by show 1024 + j.val = 512 * 2 + j.val; omega)]
  exact cell_congr (fun c => ldTile x3 _ p c) (fun c => ldTile x0 _ p c)
    (fun c => ldSlab x6 2 (by decide) _ c j) (fun c => ldSlab x7 2 (by decide) _ c j) (ldBias x8 2 (by decide) _ j)
    (ldStat x9 1024 _ j h) (ldStat x10 1024 _ j h) (ldStat x11 1024 _ j h) (ldStat x12 1024 _ j h)

/-- Relation 3's store is the tile's columns 1536 … 2047. -/
theorem piece3 (x0 x1 x2 x3 x4 x5 : Vec Ideal S400x512 .bf16) (x6 x7 : Vec Ideal S5x512x512 .bf16) (x8 : Vec Ideal S5x512 .f32)
    (x9 x10 x11 x12 : Vec Ideal S1x2560 .f32) (p : Fin 400) (j : Fin 512) (h : 1536 + j.val < 2560) :
    k0_pay18 (F := Ideal) (k0_pay14 (View.ld x11 r0_15)) (k0_pay15 (View.ld x12 r0_15)) (k0_pay16 (k0_pay2 (View.ld x0 r0_0)) (View.ld x4 r0_0) (View.ld x6 r0_13) (View.ld x7 r0_13) (View.ld x8 r0_14) (View.ld x9 r0_15)) (k0_pay17 (View.ld x10 r0_15)) (ix2 p j)
      = tileAt x0 x1 x2 x3 x4 x5 x6 x7 x8 x9 x10 x11 x12 p ⟨1536 + j.val, h⟩ := by
  rw [pay_rel3, tileAt_of x0 x1 x2 x3 x4 x5 x6 x7 x8 x9 x10 x11 x12 p ⟨1536 + j.val, h⟩ ⟨3, by decide⟩ j (by show 1536 + j.val = 512 * 3 + j.val; omega)]
  exact cell_congr (fun c => ldTile x4 _ p c) (fun c => ldTile x0 _ p c)
    (fun c => ldSlab x6 3 (by decide) _ c j) (fun c => ldSlab x7 3 (by decide) _ c j) (ldBias x8 3 (by decide) _ j)
    (ldStat x9 1536 _ j h) (ldStat x10 1536 _ j h) (ldStat x11 1536 _ j h) (ldStat x12 1536 _ j h)

/-- Relation 4's store is the tile's columns 2048 … 2559. -/
theorem piece4 (x0 x1 x2 x3 x4 x5 : Vec Ideal S400x512 .bf16) (x6 x7 : Vec Ideal S5x512x512 .bf16) (x8 : Vec Ideal S5x512 .f32)
    (x9 x10 x11 x12 : Vec Ideal S1x2560 .f32) (p : Fin 400) (j : Fin 512) (h : 2048 + j.val < 2560) :
    k0_pay1 (F := Ideal) (k0_pay19 (View.ld x11 r0_19)) (k0_pay20 (View.ld x12 r0_19)) (k0_pay21 (k0_pay2 (View.ld x0 r0_0)) (View.ld x5 r0_0) (View.ld x6 r0_17) (View.ld x7 r0_17) (View.ld x8 r0_18) (View.ld x9 r0_19)) (k0_pay22 (View.ld x10 r0_19)) (ix2 p j)
      = tileAt x0 x1 x2 x3 x4 x5 x6 x7 x8 x9 x10 x11 x12 p ⟨2048 + j.val, h⟩ := by
  rw [pay_rel4, tileAt_of x0 x1 x2 x3 x4 x5 x6 x7 x8 x9 x10 x11 x12 p ⟨2048 + j.val, h⟩ ⟨4, by decide⟩ j (by show 2048 + j.val = 512 * 4 + j.val; omega)]
  exact cell_congr (fun c => ldTile x5 _ p c) (fun c => ldTile x0 _ p c)
    (fun c => ldSlab x6 4 (by decide) _ c j) (fun c => ldSlab x7 4 (by decide) _ c j) (ldBias x8 4 (by decide) _ j)
    (ldStat x9 2048 _ j h) (ldStat x10 2048 _ j h) (ldStat x11 2048 _ j h) (ldStat x12 2048 _ j h)

/-- A store of a 400×512 payload at column offset `o` agrees with a function of the whole tile once it does so at
    coordinates. -/
theorem piece_ok (G : S400x2560.Idx → EReal) (o : Nat) (inb : ∀ a, (![0, o] : Fin 2 → Nat) a + S400x512.size a ≤ S400x2560.size a)
    (w : S400x512.Idx → EReal)
    (h : ∀ (p : Fin 400) (j : Fin 512) (hj : o + j.val < 2560), w (ix2 p j) = G (ix2 p ⟨o + j.val, hj⟩)) :
    ∀ x : (Rect.unit (s := S400x2560) ![0, o] S400x512.size inb).shape.Idx,
      w x = G ((Rect.unit (s := S400x2560) ![0, o] S400x512.size inb).emb x) := by
  intro x
  have h1 : o + 512 ≤ 2560 := inb 1
  have hx1 : (x 1).val < 512 := (x 1).isLt
  have hb : o + (x 1).val < 2560 := by omega
  calc w x = w (ix2 (x 0) (x 1)) := congrArg w (eq_ix2 x)
    _ = G (ix2 (x 0) ⟨o + (x 1).val, hb⟩) := h (x 0) (x 1) hb
    _ = G ((Rect.unit (s := S400x2560) ![0, o] S400x512.size inb).emb x) := congrArg G (funext fun a => Fin.ext (by
        match a with
        | ⟨0, _⟩ => show (x 0).val = 0 + 1 * (x 0).val; omega
        | ⟨1, _⟩ => show o + (x 1).val = o + 1 * (x 1).val; omega))

/-- WHAT ONE POINT LEAVES in its output tile: the five stores side by side are the one function `tile` of the point's
    input tiles. -/
theorem out_eq_tile (x0 x1 x2 x3 x4 x5 : Vec Ideal S400x512 .bf16) (x6 x7 : Vec Ideal S5x512x512 .bf16) (x8 : Vec Ideal S5x512 .f32)
    (x9 x10 x11 x12 : Vec Ideal S1x2560 .f32) :
    out0_13 (F := Ideal) x0 x1 x2 x3 x4 x5 x6 x7 x8 x9 x10 x11 x12 = tile x0 x1 x2 x3 x4 x5 x6 x7 x8 x9 x10 x11 x12 := by
  funext y
  unfold out0_13
  refine View.canon_apply_of_pieces (tile x0 x1 x2 x3 x4 x5 x6 x7 x8 x9 x10 x11 x12) _ ?_ y (cover0_13 _ _ _ _ _ y)
  intro pc hpc
  simp only [List.mem_cons, List.not_mem_nil, or_false] at hpc
  rcases hpc with rfl | rfl | rfl | rfl | rfl
  · exact piece_ok (tile x0 x1 x2 x3 x4 x5 x6 x7 x8 x9 x10 x11 x12) 2048 inb_S400x2560_S400x512_0_2048 _ (fun p j hj => piece4 x0 x1 x2 x3 x4 x5 x6 x7 x8 x9 x10 x11 x12 p j hj)
  · exact piece_ok (tile x0 x1 x2 x3 x4 x5 x6 x7 x8 x9 x10 x11 x12) 1536 inb_S400x2560_S400x512_0_1536 _ (fun p j hj => piece3 x0 x1 x2 x3 x4 x5 x6 x7 x8 x9 x10 x11 x12 p j hj)
  · exact piece_ok (tile x0 x1 x2 x3 x4 x5 x6 x7 x8 x9 x10 x11 x12) 1024 inb_S400x2560_S400x512_0_1024 _ (fun p j hj => piece2 x0 x1 x2 x3 x4 x5 x6 x7 x8 x9 x10 x11 x12 p j hj)
  · exact piece_ok (tile x0 x1 x2 x3 x4 x5 x6 x7 x8 x9 x10 x11 x12) 512 inb_S400x2560_S400x512_0_512 _ (fun p j hj => piece1 x0 x1 x2 x3 x4 x5 x6 x7 x8 x9 x10 x11 x12 p j hj)
  · exact piece_ok (tile x0 x1 x2 x3 x4 x5 x6 x7 x8 x9 x10 x11 x12) 0 inb_S400x2560_S400x512_0_0 _ (fun p j hj => piece0 x0 x1 x2 x3 x4 x5 x6 x7 x8 x9 x10 x11 x12 p j hj)

/-! ## The index maps over the fifty grid points

The node features, the five mean arrays and the output move one 400-row block per point; the weights, the biases and
the per-channel statistics are taken whole at every point. -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx0_13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx0_6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem idx0_7 : ∀ t : Fin cfg0.N, win0_7.index t (0 : Fin 3) = 0 ∧ win0_7.index t (1 : Fin 3) = 0 ∧ win0_7.index t (2 : Fin 3) = 0 :=
  (by decide +kernel : ∀ t : Fin grid0.N, win0_7.index t (0 : Fin 3) = 0 ∧ win0_7.index t (1 : Fin 3) = 0 ∧ win0_7.index t (2 : Fin 3) = 0)
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx0_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx0_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-! ## From the tiles to the whole array -/

section Array

variable (V : (c : Dev nD) → (b : Ref sig .tc) → Buf (Elt Ideal) ((c : Thread nD τ).loc b))

/-- The five relations' aggregated neighbour means, as the region finds them. -/
def means (c : Dev nD) : Fin 5 → S20000x512.Idx → EReal
  | ⟨0, _⟩ => V c main_v97 | ⟨1, _⟩ => V c main_v98 | ⟨2, _⟩ => V c main_v99 | ⟨3, _⟩ => V c main_v100 | ⟨4, _⟩ => V c main_v101

/-- The hidden features of the specification, over the arrays as the region finds them. -/
def hid (c : Dev nD) : S20000x2560.Idx → EReal :=
  SageSpec.hidden
    (fun k r cc => means V c k (ix2 r cc))
    (fun r cc => (V c main_v96 : S20000x512.Idx → EReal) (ix2 r cc))
    (fun k j cc => (V c main_v103 : S5x512x512.Idx → EReal) (ix3 k cc j))
    (fun k j cc => (V c main_v105 : S5x512x512.Idx → EReal) (ix3 k cc j))
    (fun k j => (V c main_arg5 : S5x512.Idx → EReal) (ix2 k j))
    (fun q => (V c main_v106 : S1x2560.Idx → EReal) (ix2 0 q)) (fun q => (V c main_v107 : S1x2560.Idx → EReal) (ix2 0 q))
    (fun q => (V c main_v108 : S1x2560.Idx → EReal) (ix2 0 q)) (fun q => (V c main_v109 : S1x2560.Idx → EReal) (ix2 0 q))

/-- The specification's entry (r, q), as one `cell`. -/
theorem hid_at (c : Dev nD) (r : Fin 20000) (q : Fin 2560) :
    hid V c (ix2 r q)
      = cell (fun cc => means V c (SageSpec.rel q) (ix2 r cc)) (fun cc => (V c main_v96 : S20000x512.Idx → EReal) (ix2 r cc))
          (fun cc => (V c main_v103 : S5x512x512.Idx → EReal) (ix3 (SageSpec.rel q) cc (SageSpec.chan q)))
          (fun cc => (V c main_v105 : S5x512x512.Idx → EReal) (ix3 (SageSpec.rel q) cc (SageSpec.chan q)))
          ((V c main_arg5 : S5x512.Idx → EReal) (ix2 (SageSpec.rel q) (SageSpec.chan q)))
          ((V c main_v106 : S1x2560.Idx → EReal) (ix2 0 q)) ((V c main_v107 : S1x2560.Idx → EReal) (ix2 0 q))
          ((V c main_v108 : S1x2560.Idx → EReal) (ix2 0 q)) ((V c main_v109 : S1x2560.Idx → EReal) (ix2 0 q)) := rfl

/-! Each input tile at a point, read where it sits in its array: row p of point t's tile is row 400·t + p. -/

theorem blk_rows_0 (c : Dev nD) (t : Fin cfg0.N) (p : Fin 400) (cc : Fin 512) (hR : t.val * 400 + p.val < 20000) :
    iblk0 V c 0 t (ix2 p cc) = (V c main_v96 : S20000x512.Idx → EReal) (ix2 ⟨t.val * 400 + p.val, hR⟩ cc) := by
  obtain ⟨e0, e1⟩ := idx0_0 t
  show V c main_v96 (((cfg0.win 0).blk t).view.emb (ix2 p cc)) = _
  refine congrArg (V c main_v96) (funext fun a => Fin.ext ?_)
  match a with
  | ⟨0, _⟩ => show win0_0.index t (0 : Fin 2) * 400 + 1 * p.val = t.val * 400 + p.val; rw [e0]; omega
  | ⟨1, _⟩ => show win0_0.index t (1 : Fin 2) * 512 + 1 * cc.val = cc.val; rw [e1]; omega

theorem blk_rows_1 (c : Dev nD) (t : Fin cfg0.N) (p : Fin 400) (cc : Fin 512) (hR : t.val * 400 + p.val < 20000) :
    iblk0 V c 1 t (ix2 p cc) = (V c main_v97 : S20000x512.Idx → EReal) (ix2 ⟨t.val * 400 + p.val, hR⟩ cc) := by
  obtain ⟨e0, e1⟩ := idx0_1 t
  show V c main_v97 (((cfg0.win 1).blk t).view.emb (ix2 p cc)) = _
  refine congrArg (V c main_v97) (funext fun a => Fin.ext ?_)
  match a with
  | ⟨0, _⟩ => show win0_1.index t (0 : Fin 2) * 400 + 1 * p.val = t.val * 400 + p.val; rw [e0]; omega
  | ⟨1, _⟩ => show win0_1.index t (1 : Fin 2) * 512 + 1 * cc.val = cc.val; rw [e1]; omega

theorem blk_rows_2 (c : Dev nD) (t : Fin cfg0.N) (p : Fin 400) (cc : Fin 512) (hR : t.val * 400 + p.val < 20000) :
    iblk0 V c 2 t (ix2 p cc) = (V c main_v98 : S20000x512.Idx → EReal) (ix2 ⟨t.val * 400 + p.val, hR⟩ cc) := by
  obtain ⟨e0, e1⟩ := idx0_2 t
  show V c main_v98 (((cfg0.win 2).blk t).view.emb (ix2 p cc)) = _
  refine congrArg (V c main_v98) (funext fun a => Fin.ext ?_)
  match a with
  | ⟨0, _⟩ => show win0_2.index t (0 : Fin 2) * 400 + 1 * p.val = t.val * 400 + p.val; rw [e0]; omega
  | ⟨1, _⟩ => show win0_2.index t (1 : Fin 2) * 512 + 1 * cc.val = cc.val; rw [e1]; omega

theorem blk_rows_3 (c : Dev nD) (t : Fin cfg0.N) (p : Fin 400) (cc : Fin 512) (hR : t.val * 400 + p.val < 20000) :
    iblk0 V c 3 t (ix2 p cc) = (V c main_v99 : S20000x512.Idx → EReal) (ix2 ⟨t.val * 400 + p.val, hR⟩ cc) := by
  obtain ⟨e0, e1⟩ := idx0_3 t
  show V c main_v99 (((cfg0.win 3).blk t).view.emb (ix2 p cc)) = _
  refine congrArg (V c main_v99) (funext fun a => Fin.ext ?_)
  match a with
  | ⟨0, _⟩ => show win0_3.index t (0 : Fin 2) * 400 + 1 * p.val = t.val * 400 + p.val; rw [e0]; omega
  | ⟨1, _⟩ => show win0_3.index t (1 : Fin 2) * 512 + 1 * cc.val = cc.val; rw [e1]; omega

theorem blk_rows_4 (c : Dev nD) (t : Fin cfg0.N) (p : Fin 400) (cc : Fin 512) (hR : t.val * 400 + p.val < 20000) :
    iblk0 V c 4 t (ix2 p cc) = (V c main_v100 : S20000x512.Idx → EReal) (ix2 ⟨t.val * 400 + p.val, hR⟩ cc) := by
  obtain ⟨e0, e1⟩ := idx0_4 t
  show V c main_v100 (((cfg0.win 4).blk t).view.emb (ix2 p cc)) = _
  refine congrArg (V c main_v100) (funext fun a => Fin.ext ?_)
  match a with
  | ⟨0, _⟩ => show win0_4.index t (0 : Fin 2) * 400 + 1 * p.val = t.val * 400 + p.val; rw [e0]; omega
  | ⟨1, _⟩ => show win0_4.index t (1 : Fin 2) * 512 + 1 * cc.val = cc.val; rw [e1]; omega

theorem blk_rows_5 (c : Dev nD) (t : Fin cfg0.N) (p : Fin 400) (cc : Fin 512) (hR : t.val * 400 + p.val < 20000) :
    iblk0 V c 5 t (ix2 p cc) = (V c main_v101 : S20000x512.Idx → EReal) (ix2 ⟨t.val * 400 + p.val, hR⟩ cc) := by
  obtain ⟨e0, e1⟩ := idx0_5 t
  show V c main_v101 (((cfg0.win 5).blk t).view.emb (ix2 p cc)) = _
  refine congrArg (V c main_v101) (funext fun a => Fin.ext ?_)
  match a with
  | ⟨0, _⟩ => show win0_5.index t (0 : Fin 2) * 400 + 1 * p.val = t.val * 400 + p.val; rw [e0]; omega
  | ⟨1, _⟩ => show win0_5.index t (1 : Fin 2) * 512 + 1 * cc.val = cc.val; rw [e1]; omega

theorem blk_whole_6 (c : Dev nD) (t : Fin cfg0.N) (z : S5x512x512.Idx) :
    iblk0 V c 6 t z = (V c main_v103 : S5x512x512.Idx → EReal) z := by
  obtain ⟨e0, e1, e2⟩ := idx0_6 t
  show V c main_v103 (((cfg0.win 6).blk t).view.emb z) = _
  refine congrArg (V c main_v103) (funext fun a => Fin.ext ?_)
  match a with
  | ⟨0, _⟩ => show win0_6.index t (0 : Fin 3) * 5 + 1 * (z 0).val = (z 0).val; rw [e0]; omega
  | ⟨1, _⟩ => show win0_6.index t (1 : Fin 3) * 512 + 1 * (z 1).val = (z 1).val; rw [e1]; omega
  | ⟨2, _⟩ => show win0_6.index t (2 : Fin 3) * 512 + 1 * (z 2).val = (z 2).val; rw [e2]; omega

theorem blk_whole_7 (c : Dev nD) (t : Fin cfg0.N) (z : S5x512x512.Idx) :
    iblk0 V c 7 t z = (V c main_v105 : S5x512x512.Idx → EReal) z := by
  obtain ⟨e0, e1, e2⟩ := idx0_7 t
  show V c main_v105 (((cfg0.win 7).blk t).view.emb z) = _
  refine congrArg (V c main_v105) (funext fun a => Fin.ext ?_)
  match a with
  | ⟨0, _⟩ => show win0_7.index t (0 : Fin 3) * 5 + 1 * (z 0).val = (z 0).val; rw [e0]; omega
  | ⟨1, _⟩ => show win0_7.index t (1 : Fin 3) * 512 + 1 * (z 1).val = (z 1).val; rw [e1]; omega
  | ⟨2, _⟩ => show win0_7.index t (2 : Fin 3) * 512 + 1 * (z 2).val = (z 2).val; rw [e2]; omega

theorem blk_whole_8 (c : Dev nD) (t : Fin cfg0.N) (z : S5x512.Idx) :
    iblk0 V c 8 t z = (V c main_arg5 : S5x512.Idx → EReal) z := by
  obtain ⟨e0, e1⟩ := idx0_8 t
  show V c main_arg5 (((cfg0.win 8).blk t).view.emb z) = _
  refine congrArg (V c main_arg5) (funext fun a => Fin.ext ?_)
  match a with
  | ⟨0, _⟩ => show win0_8.index t (0 : Fin 2) * 5 + 1 * (z 0).val = (z 0).val; rw [e0]; omega
  | ⟨1, _⟩ => show win0_8.index t (1 : Fin 2) * 512 + 1 * (z 1).val = (z 1).val; rw [e1]; omega

theorem blk_whole_9 (c : Dev nD) (t : Fin cfg0.N) (z : S1x2560.Idx) :
    iblk0 V c 9 t z = (V c main_v106 : S1x2560.Idx → EReal) z := by
  obtain ⟨e0, e1⟩ := idx0_9 t
  show V c main_v106 (((cfg0.win 9).blk t).view.emb z) = _
  refine congrArg (V c main_v106) (funext fun a => Fin.ext ?_)
  match a with
  | ⟨0, _⟩ => show win0_9.index t (0 : Fin 2) * 1 + 1 * (z 0).val = (z 0).val; rw [e0]; omega
  | ⟨1, _⟩ => show win0_9.index t (1 : Fin 2) * 2560 + 1 * (z 1).val = (z 1).val; rw [e1]; omega

theorem blk_whole_10 (c : Dev nD) (t : Fin cfg0.N) (z : S1x2560.Idx) :
    iblk0 V c 10 t z = (V c main_v107 : S1x2560.Idx → EReal) z := by
  obtain ⟨e0, e1⟩ := idx0_10 t
  show V c main_v107 (((cfg0.win 10).blk t).view.emb z) = _
  refine congrArg (V c main_v107) (funext fun a => Fin.ext ?_)
  match a with
  | ⟨0, _⟩ => show win0_10.index t (0 : Fin 2) * 1 + 1 * (z 0).val = (z 0).val; rw [e0]; omega
  | ⟨1, _⟩ => show win0_10.index t (1 : Fin 2) * 2560 + 1 * (z 1).val = (z 1).val; rw [e1]; omega

theorem blk_whole_11 (c : Dev nD) (t : Fin cfg0.N) (z : S1x2560.Idx) :
    iblk0 V c 11 t z = (V c main_v108 : S1x2560.Idx → EReal) z := by
  obtain ⟨e0, e1⟩ := idx0_11 t
  show V c main_v108 (((cfg0.win 11).blk t).view.emb z) = _
  refine congrArg (V c main_v108) (funext fun a => Fin.ext ?_)
  match a with
  | ⟨0, _⟩ => show win0_11.index t (0 : Fin 2) * 1 + 1 * (z 0).val = (z 0).val; rw [e0]; omega
  | ⟨1, _⟩ => show win0_11.index t (1 : Fin 2) * 2560 + 1 * (z 1).val = (z 1).val; rw [e1]; omega

theorem blk_whole_12 (c : Dev nD) (t : Fin cfg0.N) (z : S1x2560.Idx) :
    iblk0 V c 12 t z = (V c main_v109 : S1x2560.Idx → EReal) z := by
  obtain ⟨e0, e1⟩ := idx0_12 t
  show V c main_v109 (((cfg0.win 12).blk t).view.emb z) = _
  refine congrArg (V c main_v109) (funext fun a => Fin.ext ?_)
  match a with
  | ⟨0, _⟩ => show win0_12.index t (0 : Fin 2) * 1 + 1 * (z 0).val = (z 0).val; rw [e0]; omega
  | ⟨1, _⟩ => show win0_12.index t (1 : Fin 2) * 2560 + 1 * (z 1).val = (z 1).val; rw [e1]; omega

/-- Relation k's mean tile at a point is the block of relation k's mean array. -/
theorem mean_blk (c : Dev nD) (t : Fin cfg0.N) (p : Fin 400) (cc : Fin 512) (hR : t.val * 400 + p.val < 20000) (k : Fin 5) :
    pick5 (iblk0 V c 1 t) (iblk0 V c 2 t) (iblk0 V c 3 t) (iblk0 V c 4 t) (iblk0 V c 5 t) k (ix2 p cc)
      = means V c k (ix2 ⟨t.val * 400 + p.val, hR⟩ cc) :=
  match k with
  | ⟨0, _⟩ => blk_rows_1 V c t p cc hR
  | ⟨1, _⟩ => blk_rows_2 V c t p cc hR
  | ⟨2, _⟩ => blk_rows_3 V c t p cc hR
  | ⟨3, _⟩ => blk_rows_4 V c t p cc hR
  | ⟨4, _⟩ => blk_rows_5 V c t p cc hR

/-- WHAT POINT t WRITES BACK is block t of the specification's hidden features. -/
theorem flushed_eq (c : Dev nD) (t : Fin cfg0.N) :
    (dat0 (F := Ideal) V c).flushed 13 t = ((cfg0.win 13).blk t).view.read (Elt Ideal) (hid V c) := by
  show (cfg0.win 13).cut (grid0.coords t) ((dat0 V c).after 13 t) = _
  rw [after0_13]
  funext y
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) y = hid V c (((cfg0.win 13).blk t).view.emb y)
  refine (congrFun (out_eq_tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)) y).trans ?_
  have ht : t.val < 50 := t.isLt
  have hy0 : (y 0).val < 400 := (y 0).isLt
  have hR : t.val * 400 + (y 0).val < 20000 := by omega
  obtain ⟨e0, e1⟩ := idx0_13 t
  have hi : ((cfg0.win 13).blk t).view.emb y = ix2 (n0 := 20000) (n1 := 2560) ⟨t.val * 400 + (y 0).val, hR⟩ (y 1) := funext fun a => Fin.ext (by
    match a with
    | ⟨0, _⟩ => show win0_13.index t (0 : Fin 2) * 400 + 1 * (y 0).val = t.val * 400 + (y 0).val; rw [e0]; omega
    | ⟨1, _⟩ => show win0_13.index t (1 : Fin 2) * 2560 + 1 * (y 1).val = (y 1).val; rw [e1]; omega)
  rw [hi]
  refine Eq.trans ?_ (hid_at V c ⟨t.val * 400 + (y 0).val, hR⟩ (y 1)).symm
  show tileAt (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (y 0) (y 1) = _
  unfold tileAt
  exact cell_congr (fun cc => mean_blk V c t (y 0) cc hR (SageSpec.rel (y 1))) (fun cc => blk_rows_0 V c t (y 0) cc hR)
    (fun cc => blk_whole_6 V c t _) (fun cc => blk_whole_7 V c t _) (blk_whole_8 V c t _)
    (blk_whole_9 V c t _) (blk_whole_10 V c t _) (blk_whole_11 V c t _) (blk_whole_12 V c t _)

/-- An index of the output array is in point t's block iff each coordinate is in the block's range on its axis. -/
theorem mem_blk (t : Fin cfg0.N) (i : S20000x2560.Idx) :
    i ∈ ((cfg0.win 13).blk t).view.set ↔ ∀ a : Fin 2, win0_13.index t a * S400x2560.size a ≤ (i a).val ∧ (i a).val < win0_13.index t a * S400x2560.size a + S400x2560.size a := by
  show i ∈ ((View.whole main_v110).slice (win0_13.rect t)).set ↔ _
  rw [View.set_slice_whole, Rect.mem_set_unit]
  exact Iff.rfl

/-- Row r of the output lies in the block of point r / 400, and every point writes its block back. -/
theorem cover (i : S20000x2560.Idx) :
    ∃ t : Fin cfg0.N, (cfg0.win 13).flush t = true ∧ i ∈ ((cfg0.win 13).blk t).view.set := by
  have hi0 : (i 0).val < 20000 := (i 0).isLt
  have hi1 : (i 1).val < 2560 := (i 1).isLt
  have hN : cfg0.N = 50 := Gen.N_0
  have htlt : (i 0).val / 400 < cfg0.N := by rw [hN]; omega
  refine ⟨⟨(i 0).val / 400, htlt⟩, flush0_13 _, ?_⟩
  rw [mem_blk]
  obtain ⟨e0, e1⟩ := idx0_13 ⟨(i 0).val / 400, htlt⟩
  intro a
  match a with
  | ⟨0, _⟩ =>
    show win0_13.index ⟨(i 0).val / 400, htlt⟩ (0 : Fin 2) * 400 ≤ (i 0).val ∧ (i 0).val < win0_13.index ⟨(i 0).val / 400, htlt⟩ (0 : Fin 2) * 400 + 400
    rw [e0]; show (i 0).val / 400 * 400 ≤ (i 0).val ∧ (i 0).val < (i 0).val / 400 * 400 + 400; omega
  | ⟨1, _⟩ =>
    show win0_13.index ⟨(i 0).val / 400, htlt⟩ (1 : Fin 2) * 2560 ≤ (i 1).val ∧ (i 1).val < win0_13.index ⟨(i 0).val / 400, htlt⟩ (1 : Fin 2) * 2560 + 2560
    rw [e1]; omega

/-- THE HIDDEN FEATURES AFTER THE FIRST REGION: the output array ends holding the specification's hidden features of
    the arrays as the region found them. -/
theorem hidden_arr (c : Dev nD) :
    (Gen.dat0 (F := Ideal) V c).arrAt 13 cfg0.N = SageSpec.hidden
      (fun k r cc => means V c k (ix2 r cc))
      (fun r cc => (V c main_v96 : S20000x512.Idx → EReal) (ix2 r cc))
      (fun k j cc => (V c main_v103 : S5x512x512.Idx → EReal) (ix3 k cc j))
      (fun k j cc => (V c main_v105 : S5x512x512.Idx → EReal) (ix3 k cc j))
      (fun k j => (V c main_arg5 : S5x512.Idx → EReal) (ix2 k j))
      (fun q => (V c main_v106 : S1x2560.Idx → EReal) (ix2 0 q)) (fun q => (V c main_v107 : S1x2560.Idx → EReal) (ix2 0 q))
      (fun q => (V c main_v108 : S1x2560.Idx → EReal) (ix2 0 q)) (fun q => (V c main_v109 : S1x2560.Idx → EReal) (ix2 0 q)) :=
  (dat0 (F := Ideal) V c).arrAt_eq_of_cover 13 (hid V c) (fun t _ => flushed_eq V c t) cover

end Array

end Cert.KernelIdeal.Branches

end
-- ==== Proof.Heads.lean ====
/-
  The two heads (mean and log-variance) of the encoder's second layer, as the second kernel region leaves them.

  At every one of the 25 grid points the region's body reads an 800-row block of the hidden features and of their
  neighbour means (all 2560 channels), the two heads' whole weights ([input channel, output channel]) and bias rows, and
  stores, for each head, the 800 × 256 block  means · W_l + features · W_r + bias  — each product a sum over the 2560
  input channels into a zero accumulator. Point t's block is rows 800·t … 800·t + 799 of the array, so the 25 blocks tile
  the 20000 rows, and each output array is, index by index, the SAGE form of the region's entry contents.
-/
import proofs.«145364_j21045339751000_1_alg».proof.Proof.Gen.KernelIdeal.Frame
import proofs.«145364_j21045339751000_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Heads

open Idealize.ShloMosaic Idealize.ShloMosaic.TcCoe Idealize.ShloMosaic.ValueIdx
open Idealize.ShloMosaic.Pipeline (Dat Cfg Window)

/-- Where the product's operands are read, coordinate by coordinate: the left operand at (row, contracted channel), -/
theorem lhs_row (i : S800x256.Idx) (q : dot_S800x2560_S2560x256_S800x256_1_0_0_1_n_n.contr.Idx) : (dot_S800x2560_S2560x256_S800x256_1_0_0_1_n_n.lhsIdx i q 0).val = (i 0).val := by
  unfold DotDims.lhsIdx
  rw [dif_neg (show ¬(0 : Fin S800x2560.rank) ∈ dot_S800x2560_S2560x256_S800x256_1_0_0_1_n_n.lhsBatch by decide), dif_pos (show (0 : Fin S800x2560.rank) ∈ dot_S800x2560_S2560x256_S800x256_1_0_0_1_n_n.lhsNonContracting by decide)]
  rfl
theorem lhs_chan (i : S800x256.Idx) (q : dot_S800x2560_S2560x256_S800x256_1_0_0_1_n_n.contr.Idx) : (dot_S800x2560_S2560x256_S800x256_1_0_0_1_n_n.lhsIdx i q 1).val = (q ⟨0, by decide⟩).val :=
  dot_S800x2560_S2560x256_S800x256_1_0_0_1_n_n.lhsIdx_val_of_single rfl i q
/-- the right operand at (contracted channel, output channel). -/
theorem rhs_chan (i : S800x256.Idx) (q : dot_S800x2560_S2560x256_S800x256_1_0_0_1_n_n.contr.Idx) : (dot_S800x2560_S2560x256_S800x256_1_0_0_1_n_n.rhsIdx i q 0).val = (q ⟨0, by decide⟩).val :=
  dot_S800x2560_S2560x256_S800x256_1_0_0_1_n_n.rhsIdx_val_of_single rfl i q
theorem rhs_out (i : S800x256.Idx) (q : dot_S800x2560_S2560x256_S800x256_1_0_0_1_n_n.contr.Idx) : (dot_S800x2560_S2560x256_S800x256_1_0_0_1_n_n.rhsIdx i q 1).val = (i 1).val := by
  unfold DotDims.rhsIdx
  rw [dif_neg (show ¬(1 : Fin S2560x256.rank) ∈ dot_S800x2560_S2560x256_S800x256_1_0_0_1_n_n.rhsBatch by decide), dif_pos (show (1 : Fin S2560x256.rank) ∈ dot_S800x2560_S2560x256_S800x256_1_0_0_1_n_n.rhsNonContracting by decide)]
  rfl

/-- A row block times a whole weight into the zero accumulator, at row p and output channel j: the sum over the
    2560 input channels. -/
theorem matmul_at (a : FVec Ideal S800x2560 .bf16) (w : FVec Ideal S2560x256 .bf16) (p : Fin 800) (j : Fin 256) :
    matmul (F := Ideal) (φ₁ := .bf16) (φ₂ := .bf16) dot_S800x2560_S2560x256_S800x256_1_0_0_1_n_n none a w (constant (F := Ideal) S800x256 .f32 0x00000000#32) (ix2 p j)
      = ∑ k : Fin 2560, (a (ix2 p k) : EReal) * (w (ix2 k j) : EReal) := by
  refine (Ideal.matmul_constant_zero_apply dot_S800x2560_S2560x256_S800x256_1_0_0_1_n_n none a w (ix2 p j)).trans ?_
  rw [← Equiv.sum_comp (contrEquiv1 dot_S800x2560_S2560x256_S800x256_1_0_0_1_n_n 2560 rfl rfl).symm]
  refine Finset.sum_congr rfl fun k _ => ?_
  have hk := contrEquiv1_symm_val dot_S800x2560_S2560x256_S800x256_1_0_0_1_n_n 2560 rfl rfl k
  have el : dot_S800x2560_S2560x256_S800x256_1_0_0_1_n_n.lhsIdx (ix2 p j) ((contrEquiv1 dot_S800x2560_S2560x256_S800x256_1_0_0_1_n_n 2560 rfl rfl).symm k) = ix2 p k := funext fun a => Fin.ext (by
    match a with
    | ⟨0, _⟩ => exact lhs_row _ _
    | ⟨1, _⟩ => exact (lhs_chan _ _).trans hk)
  have er : dot_S800x2560_S2560x256_S800x256_1_0_0_1_n_n.rhsIdx (ix2 p j) ((contrEquiv1 dot_S800x2560_S2560x256_S800x256_1_0_0_1_n_n 2560 rfl rfl).symm k) = ix2 k j := funext fun a => Fin.ext (by
    match a with
    | ⟨0, _⟩ => exact (rhs_chan _ _).trans hk
    | ⟨1, _⟩ => exact rhs_out _ _)
  rw [el, er]

/-- One head's block at row p and output channel j: the two sums over the input channels and the bias, in the
    kernel's order of additions. -/
theorem head_at (h mh : Vec Ideal S800x2560 .bf16) (wl wr : Vec Ideal S2560x256 .bf16) (b : Vec Ideal S1x256 .f32)
    (p : Fin 800) (j : Fin 256) :
    addf (F := Ideal) (addf (F := Ideal)
        (matmul (F := Ideal) (φ₁ := .bf16) (φ₂ := .bf16) dot_S800x2560_S2560x256_S800x256_1_0_0_1_n_n none
          (shapeCast S800x2560 mh Gen.shapeCasts_S800x2560_S800x2560) (shapeCast S2560x256 wl Gen.shapeCasts_S2560x256_S2560x256)
          (constant (F := Ideal) S800x256 .f32 0x00000000#32))
        (matmul (F := Ideal) (φ₁ := .bf16) (φ₂ := .bf16) dot_S800x2560_S2560x256_S800x256_1_0_0_1_n_n none
          (shapeCast S800x2560 h Gen.shapeCasts_S800x2560_S800x2560) (shapeCast S2560x256 wr Gen.shapeCasts_S2560x256_S2560x256)
          (constant (F := Ideal) S800x256 .f32 0x00000000#32)))
      (broadcastTo S800x256 (shapeCast S1x256 b Gen.shapeCasts_S1x256_S1x256) Gen.broadcasts_S1x256_S800x256) (ix2 p j)
      = SageSpec.sage (fun k : Fin 2560 => (mh (ix2 p k) : EReal)) (fun k => (h (ix2 p k) : EReal))
          (fun k => (wl (ix2 k j) : EReal)) (fun k => (wr (ix2 k j) : EReal)) (b (ix2 0 j) : EReal) := by
  rw [shapeCast_self, shapeCast_self, shapeCast_self, shapeCast_self, shapeCast_self]
  rw [addf_apply, addf_apply, matmul_at, matmul_at]
  rw [broadcastTo_apply b Gen.broadcasts_S1x256_S800x256 (ix2 p j) (ix2 0 j) (fun a => by
    match a with
    | ⟨0, _⟩ => rfl
    | ⟨1, _⟩ => rfl)]
  unfold SageSpec.sage
  rfl

/-- The first head's payload is that term of its five loaded blocks. -/
theorem mu_at (h mh : Vec Ideal S800x2560 .bf16) (wl wr : Vec Ideal S2560x256 .bf16) (b : Vec Ideal S1x256 .f32)
    (p : Fin 800) (j : Fin 256) :
    Gen.k1_pay3 (F := Ideal) h mh wl wr b (ix2 p j)
      = SageSpec.sage (fun k : Fin 2560 => (mh (ix2 p k) : EReal)) (fun k => (h (ix2 p k) : EReal))
          (fun k => (wl (ix2 k j) : EReal)) (fun k => (wr (ix2 k j) : EReal)) (b (ix2 0 j) : EReal) :=
  head_at h mh wl wr b p j

/-- The second head's payload is the same term of its own weights and bias. -/
theorem lv_at (h mh : Vec Ideal S800x2560 .bf16) (wl wr : Vec Ideal S2560x256 .bf16) (b : Vec Ideal S1x256 .f32)
    (p : Fin 800) (j : Fin 256) :
    Gen.k1_pay4 (F := Ideal) h mh wl wr b (ix2 p j)
      = SageSpec.sage (fun k : Fin 2560 => (mh (ix2 p k) : EReal)) (fun k => (h (ix2 p k) : EReal))
          (fun k => (wl (ix2 k j) : EReal)) (fun k => (wr (ix2 k j) : EReal)) (b (ix2 0 j) : EReal) :=
  head_at h mh wl wr b p j

/-! ## From the blocks to the arrays -/

variable (V : (c : Dev nD) → (b : Ref sig .tc) → Buf (Elt Ideal) ((c : Thread nD τ).loc b))

theorem origin : (![0, 0] : Fin 2 → Nat) = fun _ => 0 := funext fun a => by fin_cases a <;> rfl

/-- The block index maps, decided once over the 25 grid points: the two row-blocked inputs and the two outputs sit at
    row block t, every other window and every column at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The first head as a function of the region's entry contents. -/
def muG (c : Dev nD) : S20000x256.Idx → EReal :=
  SageSpec.head
    (fun r cc => (V c main_v131 : S20000x2560.Idx → EReal) (ix2 r cc)) (fun r cc => (V c main_v130 : S20000x2560.Idx → EReal) (ix2 r cc))
    (fun j cc => (V c main_v133 : S2560x256.Idx → EReal) (ix2 cc j)) (fun j cc => (V c main_v135 : S2560x256.Idx → EReal) (ix2 cc j))
    (fun j => (V c main_v140 : S1x256.Idx → EReal) (ix2 0 j))

/-- A row-blocked input's block at point t holds rows 800·t … 800·t + 799 of its array, all 2560 channels. -/
theorem h_block (c : Dev nD) (t : Fin cfg1.N) (p : Fin 800) (k : Fin 2560) (r : Fin 20000) (hr : r.val = t.val * 800 + p.val) :
    (Gen.iblk1 V c 0 t (ix2 p k) : EReal) = (V c main_v130 : S20000x2560.Idx → EReal) (ix2 r k) := by
  obtain ⟨e00, e01, -⟩ := block_index t
  show V c main_v130 (((cfg1.win 0).blk t).view.emb (ix2 p k)) = V c main_v130 (ix2 r k)
  refine congrArg _ (funext fun a => Fin.ext ?_)
  match a with
  | ⟨0, _⟩ => show win1_0.index t (0 : Fin 2) * 800 + 1 * p.val = r.val; omega
  | ⟨1, _⟩ => show win1_0.index t (1 : Fin 2) * 2560 + 1 * k.val = k.val; omega

theorem mh_block (c : Dev nD) (t : Fin cfg1.N) (p : Fin 800) (k : Fin 2560) (r : Fin 20000) (hr : r.val = t.val * 800 + p.val) :
    (Gen.iblk1 V c 1 t (ix2 p k) : EReal) = (V c main_v131 : S20000x2560.Idx → EReal) (ix2 r k) := by
  obtain ⟨-, -, e10, e11, -⟩ := block_index t
  show V c main_v131 (((cfg1.win 1).blk t).view.emb (ix2 p k)) = V c main_v131 (ix2 r k)
  refine congrArg _ (funext fun a => Fin.ext ?_)
  match a with
  | ⟨0, _⟩ => show win1_1.index t (0 : Fin 2) * 800 + 1 * p.val = r.val; omega
  | ⟨1, _⟩ => show win1_1.index t (1 : Fin 2) * 2560 + 1 * k.val = k.val; omega

/-- Each weight's block is its whole array, and each bias's its whole row, at every point. -/
theorem mu_wl_block (c : Dev nD) (t : Fin cfg1.N) (k : Fin 2560) (j : Fin 256) :
    (Gen.iblk1 V c 2 t (ix2 k j) : EReal) = (V c main_v133 : S2560x256.Idx → EReal) (ix2 k j) := by
  have e := block_index t
  show V c main_v133 (((cfg1.win 2).blk t).view.emb (ix2 k j)) = V c main_v133 (ix2 k j)
  refine congrArg _ (funext fun a => Fin.ext ?_)
  match a with
  | ⟨0, _⟩ => show win1_2.index t (0 : Fin 2) * 2560 + 1 * k.val = k.val; omega
  | ⟨1, _⟩ => show win1_2.index t (1 : Fin 2) * 256 + 1 * j.val = j.val; omega
theorem mu_wr_block (c : Dev nD) (t : Fin cfg1.N) (k : Fin 2560) (j : Fin 256) :
    (Gen.iblk1 V c 3 t (ix2 k j) : EReal) = (V c main_v135 : S2560x256.Idx → EReal) (ix2 k j) := by
  have e := block_index t
  show V c main_v135 (((cfg1.win 3).blk t).view.emb (ix2 k j)) = V c main_v135 (ix2 k j)
  refine congrArg _ (funext fun a => Fin.ext ?_)
  match a with
  | ⟨0, _⟩ => show win1_3.index t (0 : Fin 2) * 2560 + 1 * k.val = k.val; omega
  | ⟨1, _⟩ => show win1_3.index t (1 : Fin 2) * 256 + 1 * j.val = j.val; omega
theorem mu_b_block (c : Dev nD) (t : Fin cfg1.N) (j : Fin 256) :
    (Gen.iblk1 V c 4 t (ix2 0 j) : EReal) = (V c main_v140 : S1x256.Idx → EReal) (ix2 0 j) := by
  have e := block_index t
  show V c main_v140 (((cfg1.win 4).blk t).view.emb (ix2 0 j)) = V c main_v140 (ix2 0 j)
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * j.val = j.val; omega
theorem lv_wl_block (c : Dev nD) (t : Fin cfg1.N) (k : Fin 2560) (j : Fin 256) :
    (Gen.iblk1 V c 5 t (ix2 k j) : EReal) = (V c main_v137 : S2560x256.Idx → EReal) (ix2 k j) := by
  have e := block_index t
  show V c main_v137 (((cfg1.win 5).blk t).view.emb (ix2 k j)) = V c main_v137 (ix2 k j)
  refine congrArg _ (funext fun a => Fin.ext ?_)
  match a with
  | ⟨0, _⟩ => show win1_5.index t (0 : Fin 2) * 2560 + 1 * k.val = k.val; omega
  | ⟨1, _⟩ => show win1_5.index t (1 : Fin 2) * 256 + 1 * j.val = j.val; omega
theorem lv_wr_block (c : Dev nD) (t : Fin cfg1.N) (k : Fin 2560) (j : Fin 256) :
    (Gen.iblk1 V c 6 t (ix2 k j) : EReal) = (V c main_v139 : S2560x256.Idx → EReal) (ix2 k j) := by
  have e := block_index t
  show V c main_v139 (((cfg1.win 6).blk t).view.emb (ix2 k j)) = V c main_v139 (ix2 k j)
  refine congrArg _ (funext fun a => Fin.ext ?_)
  match a with
  | ⟨0, _⟩ => show win1_6.index t (0 : Fin 2) * 2560 + 1 * k.val = k.val; omega
  | ⟨1, _⟩ => show win1_6.index t (1 : Fin 2) * 256 + 1 * j.val = j.val; omega
theorem lv_b_block (c : Dev nD) (t : Fin cfg1.N) (j : Fin 256) :
    (Gen.iblk1 V c 7 t (ix2 0 j) : EReal) = (V c main_v141 : S1x256.Idx → EReal) (ix2 0 j) := by
  have e := block_index t
  show V c main_v141 (((cfg1.win 7).blk t).view.emb (ix2 0 j)) = V c main_v141 (ix2 0 j)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * j.val = j.val; omega

/-- The second head as a function of the region's entry contents. -/
def lvG (c : Dev nD) : S20000x256.Idx → EReal :=
  SageSpec.head
    (fun r cc => (V c main_v131 : S20000x2560.Idx → EReal) (ix2 r cc)) (fun r cc => (V c main_v130 : S20000x2560.Idx → EReal) (ix2 r cc))
    (fun j cc => (V c main_v137 : S2560x256.Idx → EReal) (ix2 cc j)) (fun j cc => (V c main_v139 : S2560x256.Idx → EReal) (ix2 cc j))
    (fun j => (V c main_v141 : S1x256.Idx → EReal) (ix2 0 j))

/-- What point t writes back of each head is rows 800·t … 800·t + 799 of that function. -/
theorem mu_flushed (c : Dev nD) (t : Fin cfg1.N) :
    (Gen.dat1 (F := Ideal) V c).flushed 8 t = ((cfg1.win 8).blk t).view.read (Elt Ideal) (muG V c) := by
  show (cfg1.win 8).cut (grid1.coords t) ((Gen.dat1 V c).after 8 t) = _
  rw [Gen.after1_8]
  unfold Gen.out1_8
  rw [View.canon_unit_zero origin]
  simp only [View.ld_unit_zero (S := S800x2560) origin, View.ld_unit_zero (S := S2560x256) origin, View.ld_unit_zero (S := S1x256) origin]
  funext y
  obtain ⟨p, j, rfl⟩ : ∃ (p : Fin 800) (j : Fin 256), y = ix2 p j := ⟨y 0, y 1, eq_ix2 y⟩
  have ht : t.val < 25 := t.isLt
  have hp : p.val < 800 := p.isLt
  have hr : t.val * 800 + p.val < 20000 := by omega
  have e := block_index t
  have hemb : ((cfg1.win 8).blk t).view.emb (ix2 p j) = (ix2 (⟨t.val * 800 + p.val, hr⟩ : Fin 20000) j : S20000x256.Idx) := by
    funext a; apply Fin.ext
    match a with
    | ⟨0, _⟩ => show win1_8.index t (0 : Fin 2) * 800 + 1 * p.val = t.val * 800 + p.val; omega
    | ⟨1, _⟩ => show win1_8.index t (1 : Fin 2) * 256 + 1 * j.val = j.val; omega
  refine (mu_at _ _ _ _ _ p j).trans ?_
  show _ = muG V c (((cfg1.win 8).blk t).view.emb (ix2 p j))
  rw [hemb]
  exact congr (congr (congr (congr (congrArg (SageSpec.sage (K := 2560))
    (funext fun k => mh_block V c t p k ⟨t.val * 800 + p.val, hr⟩ rfl))
    (funext fun k => h_block V c t p k ⟨t.val * 800 + p.val, hr⟩ rfl))
    (funext fun k => mu_wl_block V c t k j)) (funext fun k => mu_wr_block V c t k j)) (mu_b_block V c t j)

theorem lv_flushed (c : Dev nD) (t : Fin cfg1.N) :
    (Gen.dat1 (F := Ideal) V c).flushed 9 t = ((cfg1.win 9).blk t).view.read (Elt Ideal) (lvG V c) := by
  show (cfg1.win 9).cut (grid1.coords t) ((Gen.dat1 V c).after 9 t) = _
  rw [Gen.after1_9]
  unfold Gen.out1_9
  rw [View.canon_unit_zero origin]
  simp only [View.ld_unit_zero (S := S800x2560) origin, View.ld_unit_zero (S := S2560x256) origin, View.ld_unit_zero (S := S1x256) origin]
  funext y
  obtain ⟨p, j, rfl⟩ : ∃ (p : Fin 800) (j : Fin 256), y = ix2 p j := ⟨y 0, y 1, eq_ix2 y⟩
  have ht : t.val < 25 := t.isLt
  have hp : p.val < 800 := p.isLt
  have hr : t.val * 800 + p.val < 20000 := by omega
  have e := block_index t
  have hemb : ((cfg1.win 9).blk t).view.emb (ix2 p j) = (ix2 (⟨t.val * 800 + p.val, hr⟩ : Fin 20000) j : S20000x256.Idx) := by
    funext a; apply Fin.ext
    match a with
    | ⟨0, _⟩ => show win1_9.index t (0 : Fin 2) * 800 + 1 * p.val = t.val * 800 + p.val; omega
    | ⟨1, _⟩ => show win1_9.index t (1 : Fin 2) * 256 + 1 * j.val = j.val; omega
  refine (lv_at _ _ _ _ _ p j).trans ?_
  show _ = lvG V c (((cfg1.win 9).blk t).view.emb (ix2 p j))
  rw [hemb]
  exact congr (congr (congr (congr (congrArg (SageSpec.sage (K := 2560))
    (funext fun k => mh_block V c t p k ⟨t.val * 800 + p.val, hr⟩ rfl))
    (funext fun k => h_block V c t p k ⟨t.val * 800 + p.val, hr⟩ rfl))
    (funext fun k => lv_wl_block V c t k j)) (funext fun k => lv_wr_block V c t k j)) (lv_b_block V c t j)

/-- An index of a head's array is in point t's block iff each coordinate is in the block's range on its axis. -/
theorem mu_mem_block (t : Fin cfg1.N) (i : S20000x256.Idx) :
    i ∈ ((cfg1.win 8).blk t).view.set ↔ ∀ a : Fin 2, win1_8.index t a * S800x256.size a ≤ (i a).val ∧ (i a).val < win1_8.index t a * S800x256.size a + S800x256.size a := by
  show i ∈ ((View.whole main_v142_0).slice (win1_8.rect t)).set ↔ _
  rw [View.set_slice_whole, Rect.mem_set_unit]
  exact Iff.rfl

/-- The 25 blocks cover the array: row r is in block r / 800. -/
theorem mu_cover (i : S20000x256.Idx) :
    ∃ t : Fin cfg1.N, (cfg1.win 8).flush t = true ∧ i ∈ ((cfg1.win 8).blk t).view.set := by
  have hi0 : (i 0).val < 20000 := (i 0).isLt
  have hi1 : (i 1).val < 256 := (i 1).isLt
  have ht : (i 0).val / 800 < 25 := by omega
  obtain ⟨t, htv⟩ : ∃ t : Fin cfg1.N, t.val = (i 0).val / 800 := ⟨⟨(i 0).val / 800, ht⟩, rfl⟩
  have e := block_index t
  refine ⟨t, Gen.flush1_8 t, ?_⟩
  rw [mu_mem_block]
  intro a
  match a with
  | ⟨0, _⟩ => show win1_8.index t (0 : Fin 2) * 800 ≤ (i 0).val ∧ (i 0).val < win1_8.index t (0 : Fin 2) * 800 + 800; omega
  | ⟨1, _⟩ => show win1_8.index t (1 : Fin 2) * 256 ≤ (i 1).val ∧ (i 1).val < win1_8.index t (1 : Fin 2) * 256 + 256; omega

theorem lv_mem_block (t : Fin cfg1.N) (i : S20000x256.Idx) :
    i ∈ ((cfg1.win 9).blk t).view.set ↔ ∀ a : Fin 2, win1_9.index t a * S800x256.size a ≤ (i a).val ∧ (i a).val < win1_9.index t a * S800x256.size a + S800x256.size a := by
  show i ∈ ((View.whole main_v142_1).slice (win1_9.rect t)).set ↔ _
  rw [View.set_slice_whole, Rect.mem_set_unit]
  exact Iff.rfl

theorem lv_cover (i : S20000x256.Idx) :
    ∃ t : Fin cfg1.N, (cfg1.win 9).flush t = true ∧ i ∈ ((cfg1.win 9).blk t).view.set := by
  have hi0 : (i 0).val < 20000 := (i 0).isLt
  have hi1 : (i 1).val < 256 := (i 1).isLt
  have ht : (i 0).val / 800 < 25 := by omega
  obtain ⟨t, htv⟩ : ∃ t : Fin cfg1.N, t.val = (i 0).val / 800 := ⟨⟨(i 0).val / 800, ht⟩, rfl⟩
  have e := block_index t
  refine ⟨t, Gen.flush1_9 t, ?_⟩
  rw [lv_mem_block]
  intro a
  match a with
  | ⟨0, _⟩ => show win1_9.index t (0 : Fin 2) * 800 ≤ (i 0).val ∧ (i 0).val < win1_9.index t (0 : Fin 2) * 800 + 800; omega
  | ⟨1, _⟩ => show win1_9.index t (1 : Fin 2) * 256 ≤ (i 1).val ∧ (i 1).val < win1_9.index t (1 : Fin 2) * 256 + 256; omega

/-- THE TWO HEADS after the region: each output array is the SAGE form over the 2560 hidden channels of the entry
    contents — the aggregated features against the first weight, the node's own against the second, plus the bias. -/
theorem mu_arr (c : Dev nD) :
    (Gen.dat1 (F := Ideal) V c).arrAt 8 cfg1.N = SageSpec.head
      (fun r cc => (V c main_v131 : S20000x2560.Idx → EReal) (ix2 r cc)) (fun r cc => (V c main_v130 : S20000x2560.Idx → EReal) (ix2 r cc))
      (fun j cc => (V c main_v133 : S2560x256.Idx → EReal) (ix2 cc j)) (fun j cc => (V c main_v135 : S2560x256.Idx → EReal) (ix2 cc j))
      (fun j => (V c main_v140 : S1x256.Idx → EReal) (ix2 0 j)) :=
  (Gen.dat1 (F := Ideal) V c).arrAt_eq_of_cover 8 (muG V c) (fun t _ => mu_flushed V c t) (fun i => mu_cover i)

theorem lv_arr (c : Dev nD) :
    (Gen.dat1 (F := Ideal) V c).arrAt 9 cfg1.N = SageSpec.head
      (fun r cc => (V c main_v131 : S20000x2560.Idx → EReal) (ix2 r cc)) (fun r cc => (V c main_v130 : S20000x2560.Idx → EReal) (ix2 r cc))
      (fun j cc => (V c main_v137 : S2560x256.Idx → EReal) (ix2 cc j)) (fun j cc => (V c main_v139 : S2560x256.Idx → EReal) (ix2 cc j))
      (fun j => (V c main_v141 : S1x256.Idx → EReal) (ix2 0 j)) :=
  (Gen.dat1 (F := Ideal) V c).arrAt_eq_of_cover 9 (lvG V c) (fun t _ => lv_flushed V c t) (fun i => lv_cover i)

end Cert.KernelIdeal.Heads

end
-- ==== Proof.HostLayout.lean ====
/-
  What the two pallas_calls find in their plain input arrays: the host operations around the calls only re-lay the
  arguments (a change of float format, which is the identity on the extended reals; a transpose of the two trailing
  axes of a weight stack, or of a weight matrix; a vector of n channels as a one-row matrix), so each such array,
  read at an index, is an argument array read at the matching index.
-/
import proofs.«145364_j21045339751000_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before the first call -/

set_option maxHeartbeats 4000000 in
/-- The node features, in the narrower float format: the features. -/
theorem x_eq (c : Dev nD) : (V1 m ρ c main_v96 : S20000x512.Idx → EReal) = m ((c : Thread nD τ).loc main_arg0) := by
  show StableHlo.after hostOps0 (W0 m ρ c) (Proc.devRef .tc main_v96) = _
  after_results_simp <;> rfl

set_option maxHeartbeats 4000000 in
/-- The aggregated-side weight stack with its two trailing axes swapped: entry (k, c, j) is the weight of output
    channel j against input channel c of relation k. -/
theorem wl_at (c : Dev nD) (k : Fin 5) (j cc : Fin 512) :
    (V1 m ρ c main_v103 : S5x512x512.Idx → EReal) (ix3 k cc j) = (m ((c : Thread nD τ).loc main_arg3) : S5x512x512.Idx → EReal) (ix3 k j cc) := by
  have e : (V1 m ρ c main_v103 : S5x512x512.Idx → EReal)
      = transpose S5x512x512 [0, 2, 1] (m ((c : Thread nD τ).loc main_arg3) : S5x512x512.Idx → EReal) transposes_S5x512x512_S5x512x512_0_2_1 := by
    show StableHlo.after hostOps0 (W0 m ρ c) (Proc.devRef .tc main_v103) = _
    after_results_simp <;> rfl
  rw [e]
  exact transpose_apply [0, 2, 1] _ transposes_S5x512x512_S5x512x512_0_2_1 (ix3 k cc j) (ix3 k j cc)
    (fun b => match b with | ⟨0, _⟩ => rfl | ⟨1, _⟩ => rfl | ⟨2, _⟩ => rfl)

set_option maxHeartbeats 4000000 in
/-- The same for the node's-own-side weight stack. -/
theorem wr_at (c : Dev nD) (k : Fin 5) (j cc : Fin 512) :
    (V1 m ρ c main_v105 : S5x512x512.Idx → EReal) (ix3 k cc j) = (m ((c : Thread nD τ).loc main_arg4) : S5x512x512.Idx → EReal) (ix3 k j cc) := by
  have e : (V1 m ρ c main_v105 : S5x512x512.Idx → EReal)
      = transpose S5x512x512 [0, 2, 1] (m ((c : Thread nD τ).loc main_arg4) : S5x512x512.Idx → EReal) transposes_S5x512x512_S5x512x512_0_2_1 := by
    show StableHlo.after hostOps0 (W0 m ρ c) (Proc.devRef .tc main_v105) = _
    after_results_simp <;> rfl
  rw [e]
  exact transpose_apply [0, 2, 1] _ transposes_S5x512x512_S5x512x512_0_2_1 (ix3 k cc j) (ix3 k j cc)
    (fun b => match b with | ⟨0, _⟩ => rfl | ⟨1, _⟩ => rfl | ⟨2, _⟩ => rfl)

set_option maxHeartbeats 4000000 in
/-- The biases are passed as they are. -/
theorem b_eq (c : Dev nD) : (V1 m ρ c main_arg5 : S5x512.Idx → EReal) = m ((c : Thread nD τ).loc main_arg5) := by
  show StableHlo.after hostOps0 (W0 m ρ c) (Proc.devRef .tc main_arg5) = _
  after_results_simp <;> rfl

/-- A vector of 2560 channels as a one-row matrix, read in its row. -/
theorem row_at (v : S2560.Idx → EReal) (q : Fin 2560) :
    shapeCast S1x2560 v shapeCasts_S2560_S1x2560 (ix2 (0 : Fin 1) q) = v (ix1 q) :=
  shapeCast_apply v shapeCasts_S2560_S1x2560 (ix2 (0 : Fin 1) q) (ix1 q)
    (by rewrite [Shape.rowMajor_val_one, Shape.rowMajor_val_two]; show q.val = 0 * 2560 + q.val; omega)

set_option maxHeartbeats 4000000 in
/-- The running mean, the running variance, the scale and the shift, each as a one-row matrix. -/
theorem rm_at (c : Dev nD) (q : Fin 2560) :
    (V1 m ρ c main_v106 : S1x2560.Idx → EReal) (ix2 (0 : Fin 1) q) = (m ((c : Thread nD τ).loc main_arg14) : S2560.Idx → EReal) (ix1 q) := by
  have e : (V1 m ρ c main_v106 : S1x2560.Idx → EReal) = shapeCast S1x2560 (m ((c : Thread nD τ).loc main_arg14) : S2560.Idx → EReal) shapeCasts_S2560_S1x2560 := by
    show StableHlo.after hostOps0 (W0 m ρ c) (Proc.devRef .tc main_v106) = _
    after_results_simp <;> rfl
  rw [e]; exact row_at _ q
set_option maxHeartbeats 4000000 in
theorem rv_at (c : Dev nD) (q : Fin 2560) :
    (V1 m ρ c main_v107 : S1x2560.Idx → EReal) (ix2 (0 : Fin 1) q) = (m ((c : Thread nD τ).loc main_arg15) : S2560.Idx → EReal) (ix1 q) := by
  have e : (V1 m ρ c main_v107 : S1x2560.Idx → EReal) = shapeCast S1x2560 (m ((c : Thread nD τ).loc main_arg15) : S2560.Idx → EReal) shapeCasts_S2560_S1x2560 := by
    show StableHlo.after hostOps0 (W0 m ρ c) (Proc.devRef .tc main_v107) = _
    after_results_simp <;> rfl
  rw [e]; exact row_at _ q
set_option maxHeartbeats 4000000 in
theorem g_at (c : Dev nD) (q : Fin 2560) :
    (V1 m ρ c main_v108 : S1x2560.Idx → EReal) (ix2 (0 : Fin 1) q) = (m ((c : Thread nD τ).loc main_arg12) : S2560.Idx → EReal) (ix1 q) := by
  have e : (V1 m ρ c main_v108 : S1x2560.Idx → EReal) = shapeCast S1x2560 (m ((c : Thread nD τ).loc main_arg12) : S2560.Idx → EReal) shapeCasts_S2560_S1x2560 := by
    show StableHlo.after hostOps0 (W0 m ρ c) (Proc.devRef .tc main_v108) = _
    after_results_simp <;> rfl
  rw [e]; exact row_at _ q
set_option maxHeartbeats 4000000 in
theorem be_at (c : Dev nD) (q : Fin 2560) :
    (V1 m ρ c main_v109 : S1x2560.Idx → EReal) (ix2 (0 : Fin 1) q) = (m ((c : Thread nD τ).loc main_arg13) : S2560.Idx → EReal) (ix1 q) := by
  have e : (V1 m ρ c main_v109 : S1x2560.Idx → EReal) = shapeCast S1x2560 (m ((c : Thread nD τ).loc main_arg13) : S2560.Idx → EReal) shapeCasts_S2560_S1x2560 := by
    show StableHlo.after hostOps0 (W0 m ρ c) (Proc.devRef .tc main_v109) = _
    after_results_simp <;> rfl
  rw [e]; exact row_at _ q

end Cert.KernelIdeal.HostSide

end
-- ==== Proof.HostBetween.lean ====
/-
  What the second pallas_call finds in its plain input arrays: between the two calls the host only re-lays values
  (a change of float format, which is the identity on the extended reals; a transpose of a weight matrix; a vector of
  256 channels as a one-row matrix), so each such array, read at an index, is the first call's output or an argument
  array read at the matching index. The arguments themselves are still what was launched.
-/
import proofs.«145364_j21045339751000_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostBetween

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments after the first call -/

set_option maxHeartbeats 4000000 in
/-- No host operation and no window of the first call writes an argument: it is still the launch memory. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

set_option maxHeartbeats 4000000 in
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

set_option maxHeartbeats 4000000 in
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp <;> rfl

set_option maxHeartbeats 4000000 in
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp <;> rfl

set_option maxHeartbeats 4000000 in
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp <;> rfl

set_option maxHeartbeats 4000000 in
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp <;> rfl

/-! ## Before the second call -/

set_option maxHeartbeats 4000000 in
/-- The hidden features, in the narrower float format: the first call's output. -/
theorem h_eq (c : Dev nD) : (V3 m ρ c main_v130 : S20000x2560.Idx → EReal) = W2 m ρ c (Proc.devRef .tc main_v110) := by
  show StableHlo.after hostOps1 (W2 m ρ c) (Proc.devRef .tc main_v130) = _
  after_results_simp <;> rfl

set_option maxHeartbeats 4000000 in
/-- The mean head's aggregated-side weight, transposed: entry (c, j) is the weight of output channel j against input
    channel c. -/
theorem muL_at (c : Dev nD) (j : Fin 256) (cc : Fin 2560) :
    (V3 m ρ c main_v133 : S2560x256.Idx → EReal) (ix2 cc j) = (m ((c : Thread nD τ).loc main_arg6) : S256x2560.Idx → EReal) (ix2 j cc) := by
  have e : (V3 m ρ c main_v133 : S2560x256.Idx → EReal)
      = transpose S2560x256 [1, 0] (W2 m ρ c (Proc.devRef .tc main_arg6) : S256x2560.Idx → EReal) transposes_S256x2560_S2560x256_1_0 := by
    show StableHlo.after hostOps1 (W2 m ρ c) (Proc.devRef .tc main_v133) = _
    after_results_simp <;> rfl
  rw [e, W2_arg6]
  exact transpose_apply [1, 0] _ transposes_S256x2560_S2560x256_1_0 (ix2 cc j) (ix2 j cc)
    (fun b => match b with | ⟨0, _⟩ => rfl | ⟨1, _⟩ => rfl)

set_option maxHeartbeats 4000000 in
/-- The same for the mean head's own-side weight and for the log-variance head's two weights. -/
theorem muR_at (c : Dev nD) (j : Fin 256) (cc : Fin 2560) :
    (V3 m ρ c main_v135 : S2560x256.Idx → EReal) (ix2 cc j) = (m ((c : Thread nD τ).loc main_arg7) : S256x2560.Idx → EReal) (ix2 j cc) := by
  have e : (V3 m ρ c main_v135 : S2560x256.Idx → EReal)
      = transpose S2560x256 [1, 0] (W2 m ρ c (Proc.devRef .tc main_arg7) : S256x2560.Idx → EReal) transposes_S256x2560_S2560x256_1_0 := by
    show StableHlo.after hostOps1 (W2 m ρ c) (Proc.devRef .tc main_v135) = _
    after_results_simp <;> rfl
  rw [e, W2_arg7]
  exact transpose_apply [1, 0] _ transposes_S256x2560_S2560x256_1_0 (ix2 cc j) (ix2 j cc)
    (fun b => match b with | ⟨0, _⟩ => rfl | ⟨1, _⟩ => rfl)

set_option maxHeartbeats 4000000 in
theorem lvL_at (c : Dev nD) (j : Fin 256) (cc : Fin 2560) :
    (V3 m ρ c main_v137 : S2560x256.Idx → EReal) (ix2 cc j) = (m ((c : Thread nD τ).loc main_arg9) : S256x2560.Idx → EReal) (ix2 j cc) := by
  have e : (V3 m ρ c main_v137 : S2560x256.Idx → EReal)
      = transpose S2560x256 [1, 0] (W2 m ρ c (Proc.devRef .tc main_arg9) : S256x2560.Idx → EReal) transposes_S256x2560_S2560x256_1_0 := by
    show StableHlo.after hostOps1 (W2 m ρ c) (Proc.devRef .tc main_v137) = _
    after_results_simp <;> rfl
  rw [e, W2_arg9]
  exact transpose_apply [1, 0] _ transposes_S256x2560_S2560x256_1_0 (ix2 cc j) (ix2 j cc)
    (fun b => match b with | ⟨0, _⟩ => rfl | ⟨1, _⟩ => rfl)

set_option maxHeartbeats 4000000 in
theorem lvR_at (c : Dev nD) (j : Fin 256) (cc : Fin 2560) :
    (V3 m ρ c main_v139 : S2560x256.Idx → EReal) (ix2 cc j) = (m ((c : Thread nD τ).loc main_arg10) : S256x2560.Idx → EReal) (ix2 j cc) := by
  have e : (V3 m ρ c main_v139 : S2560x256.Idx → EReal)
      = transpose S2560x256 [1, 0] (W2 m ρ c (Proc.devRef .tc main_arg10) : S256x2560.Idx → EReal) transposes_S256x2560_S2560x256_1_0 := by
    show StableHlo.after hostOps1 (W2 m ρ c) (Proc.devRef .tc main_v139) = _
    after_results_simp <;> rfl
  rw [e, W2_arg10]
  exact transpose_apply [1, 0] _ transposes_S256x2560_S2560x256_1_0 (ix2 cc j) (ix2 j cc)
    (fun b => match b with | ⟨0, _⟩ => rfl | ⟨1, _⟩ => rfl)

/-- A vector of 256 channels as a one-row matrix, read in its row. -/
theorem row_at (v : S256.Idx → EReal) (j : Fin 256) :
    shapeCast S1x256 v shapeCasts_S256_S1x256 (ix2 (0 : Fin 1) j) = v (ix1 j) :=
  shapeCast_apply v shapeCasts_S256_S1x256 (ix2 (0 : Fin 1) j) (ix1 j)
    (by rewrite [Shape.rowMajor_val_one, Shape.rowMajor_val_two]; show j.val = 0 * 256 + j.val; omega)

set_option maxHeartbeats 4000000 in
/-- The two heads' biases, each as a one-row matrix. -/
theorem bmu_at (c : Dev nD) (j : Fin 256) :
    (V3 m ρ c main_v140 : S1x256.Idx → EReal) (ix2 (0 : Fin 1) j) = (m ((c : Thread nD τ).loc main_arg8) : S256.Idx → EReal) (ix1 j) := by
  have e : (V3 m ρ c main_v140 : S1x256.Idx → EReal)
      = shapeCast S1x256 (W2 m ρ c (Proc.devRef .tc main_arg8) : S256.Idx → EReal) shapeCasts_S256_S1x256 := by
    show StableHlo.after hostOps1 (W2 m ρ c) (Proc.devRef .tc main_v140) = _
    after_results_simp <;> rfl
  rw [e, W2_arg8]; exact row_at _ j

set_option maxHeartbeats 4000000 in
theorem blv_at (c : Dev nD) (j : Fin 256) :
    (V3 m ρ c main_v141 : S1x256.Idx → EReal) (ix2 (0 : Fin 1) j) = (m ((c : Thread nD τ).loc main_arg11) : S256.Idx → EReal) (ix1 j) := by
  have e : (V3 m ρ c main_v141 : S1x256.Idx → EReal)
      = shapeCast S1x256 (W2 m ρ c (Proc.devRef .tc main_arg11) : S256.Idx → EReal) shapeCasts_S256_S1x256 := by
    show StableHlo.after hostOps1 (W2 m ρ c) (Proc.devRef .tc main_v141) = _
    after_results_simp <;> rfl
  rw [e, W2_arg11]; exact row_at _ j

end Cert.KernelIdeal.HostBetween

end
-- ==== Proof.MeansBridge.lean ====
/-
  The five relations' aggregated neighbour features, as the first pallas_call finds them, are the reference's.

  Both programs compute, for relation k, the same thing with the same host operations in the same order: gather the
  source nodes' feature rows along the edge list (negative indices wrapped first), zero the rows of edges of another
  relation, scatter-add the rows to their target nodes, and divide each node's sum by the larger of its edge count
  and one. The kernel's host side then only narrows the float format, which is the identity on the extended reals.
  So the two composed terms are one term, operation for operation.
-/
import proofs.«145364_j21045339751000_1_alg».proof.Proof.Gen.KernelIdeal.Frame
import proofs.«145364_j21045339751000_1_alg».proof.Proof.RefRead
import Idealize.ShloMosaic.Lib.StableHlo.Run

set_option maxRecDepth 16384

noncomputable section

namespace Cert.KernelIdeal.MeansBridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
theorem mean0 (c : Dev nD) : (V1 m ρ c main_v97 : S20000x512.Idx → EReal)
    = Cert.ReferenceIdeal.ReadP.val_main_v33 (F := Ideal) (m ((c : Thread nD τ).loc main_arg0)) (m ((c : Thread nD τ).loc main_arg1)) (m ((c : Thread nD τ).loc main_arg2)) := by
  show StableHlo.after hostOps0 (W0 m ρ c) (Proc.devRef .tc main_v97) = _
  after_results_simp <;> rfl

set_option maxHeartbeats 8000000 in
theorem mean1 (c : Dev nD) : (V1 m ρ c main_v98 : S20000x512.Idx → EReal)
    = Cert.ReferenceIdeal.ReadP.val_main_v72 (F := Ideal) (m ((c : Thread nD τ).loc main_arg0)) (m ((c : Thread nD τ).loc main_arg1)) (m ((c : Thread nD τ).loc main_arg2)) := by
  show StableHlo.after hostOps0 (W0 m ρ c) (Proc.devRef .tc main_v98) = _
  after_results_simp <;> rfl

set_option maxHeartbeats 8000000 in
theorem mean2 (c : Dev nD) : (V1 m ρ c main_v99 : S20000x512.Idx → EReal)
    = Cert.ReferenceIdeal.ReadP.val_main_v111 (F := Ideal) (m ((c : Thread nD τ).loc main_arg0)) (m ((c : Thread nD τ).loc main_arg1)) (m ((c : Thread nD τ).loc main_arg2)) := by
  show StableHlo.after hostOps0 (W0 m ρ c) (Proc.devRef .tc main_v99) = _
  after_results_simp <;> rfl

set_option maxHeartbeats 8000000 in
theorem mean3 (c : Dev nD) : (V1 m ρ c main_v100 : S20000x512.Idx → EReal)
    = Cert.ReferenceIdeal.ReadP.val_main_v150 (F := Ideal) (m ((c : Thread nD τ).loc main_arg0)) (m ((c : Thread nD τ).loc main_arg1)) (m ((c : Thread nD τ).loc main_arg2)) := by
  show StableHlo.after hostOps0 (W0 m ρ c) (Proc.devRef .tc main_v100) = _
  after_results_simp <;> rfl

set_option maxHeartbeats 8000000 in
theorem mean4 (c : Dev nD) : (V1 m ρ c main_v101 : S20000x512.Idx → EReal)
    = Cert.ReferenceIdeal.ReadP.val_main_v189 (F := Ideal) (m ((c : Thread nD τ).loc main_arg0)) (m ((c : Thread nD τ).loc main_arg1)) (m ((c : Thread nD τ).loc main_arg2)) := by
  show StableHlo.after hostOps0 (W0 m ρ c) (Proc.devRef .tc main_v101) = _
  after_results_simp <;> rfl

end Cert.KernelIdeal.MeansBridge

end
-- ==== Proof.RefAgg.lean ====
/-
  The reference's neighbour mean of the hidden features, as one function of the hidden array.

  For each head the reference gathers the hidden rows at the edges' source nodes, multiplies every gathered row by
  an edge weight that is the constant one, adds the rows up at the edges' target nodes, and divides each node's sum by
  the larger of its edge count and one. Multiplying by one changes nothing over the extended reals, so the stage is
  the quotient of the scatter-add of the bare gather; and the two heads' copies of the index and count stages are the
  same operations of the edge list, so both heads aggregate with this one function.
-/
import proofs.«145364_j21045339751000_1_alg».proof.Proof.RefRead
import Idealize.ShloMosaic.Lib.IdealHost

noncomputable section

namespace Cert.ReferenceIdeal.RefAgg

open Cert Cert.ReferenceIdeal Cert.ReferenceIdeal.Gen Idealize.ShloMosaic Idealize.ShloMosaic.TcCoe Idealize.SL.Sem
  Idealize.ShloMosaic.StableHlo Idealize.ShloMosaic.ValueIdx

/-- The neighbour mean of an array `h` of hidden rows over the edge list `x1`: gather at the source nodes, add up at
    the target nodes into a zero array, divide by the broadcast of max(count, 1). -/
def agg (h : (⟨S20000x2560, .f32⟩ : BufTy).Contents (Elt Ideal)) (x1 : (⟨S2x100000, .i32⟩ : BufTy).Contents (Elt Ideal)) :
    (⟨S20000x2560, .f32⟩ : BufTy).Contents (Elt Ideal) :=
  Host.divf (F := Ideal) (φ := .f32)
    (Host.scatterAdd (F := Ideal) (φ := .f32) scatter_S20000x2560_S100000x1_S100000x2560_1_0_0_1 (ReadP.val_main_v226 (F := Ideal)) (ReadP.val_main_v227 (F := Ideal) x1)
      (Host.gather (α := Elt Ideal .f32) gather_S20000x2560_S100000x1_S100000x2560_1_0_n_n_0_1_12560 h (ReadP.val_main_v221 (F := Ideal) x1)))
    (ReadP.val_main_v235 (F := Ideal) x1)

/-! ## The edge weight is one -/

/-- The first head's edge weight, broadcast over rows and channels, is one everywhere. -/
theorem ones_apply (i : S100000x2560.Idx) : ReadP.val_main_v224 (F := Ideal) i = 1 := by
  rw [ReadP.val_main_v224_apply, ReadP.val_main_v223_apply, ReadP.val_main_v215_apply, ReadP.val_main_cst_29_apply,
    Ideal.ofBits_def, Ideal.ofBits_one_f32]

/-- The second head's edge weight likewise. -/
theorem ones'_apply (i : S100000x2560.Idx) : ReadP.val_main_v253 (F := Ideal) i = 1 := by
  rw [ReadP.val_main_v253_apply, ReadP.val_main_v252_apply, ReadP.val_main_v215_apply, ReadP.val_main_cst_29_apply,
    Ideal.ofBits_def, Ideal.ofBits_one_f32]

/-- The weighted gathered rows of the first head are the gathered rows. -/
theorem v225_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v225 (F := Ideal) x0 x1 x2 x3 x4 x5 x12 x13 x14 x15 = ReadP.val_main_v222 (F := Ideal) x0 x1 x2 x3 x4 x5 x12 x13 x14 x15 := by
  funext i
  rw [ReadP.val_main_v225_apply, ones_apply, Ideal.mulf_def, mul_one]

/-- The weighted gathered rows of the second head are the gathered rows. -/
theorem v254_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v254 (F := Ideal) x0 x1 x2 x3 x4 x5 x12 x13 x14 x15 = ReadP.val_main_v251 (F := Ideal) x0 x1 x2 x3 x4 x5 x12 x13 x14 x15 := by
  funext i
  rw [ReadP.val_main_v254_apply, ones'_apply, Ideal.mulf_def, mul_one]

/-! ## The second head's index and count stages are the first head's -/

theorem v245_eq : ReadP.val_main_v245 (F := Ideal) = ReadP.val_main_v216 (F := Ideal) := rfl
theorem v246_eq (x1 : (⟨S2x100000, .i32⟩ : BufTy).Contents (Elt Ideal)) : ReadP.val_main_v246 (F := Ideal) x1 = ReadP.val_main_v217 (F := Ideal) x1 := rfl
theorem v247_eq : ReadP.val_main_v247 (F := Ideal) = ReadP.val_main_v218 (F := Ideal) := rfl
theorem v248_eq (x1 : (⟨S2x100000, .i32⟩ : BufTy).Contents (Elt Ideal)) : ReadP.val_main_v248 (F := Ideal) x1 = ReadP.val_main_v219 (F := Ideal) x1 := rfl
theorem v249_eq (x1 : (⟨S2x100000, .i32⟩ : BufTy).Contents (Elt Ideal)) : ReadP.val_main_v249 (F := Ideal) x1 = ReadP.val_main_v220 (F := Ideal) x1 := by
  unfold ReadP.val_main_v249 ReadP.val_main_v220; rw [v246_eq, v248_eq]
/-- The normalised source-node indices, as a column. -/
theorem v250_eq (x1 : (⟨S2x100000, .i32⟩ : BufTy).Contents (Elt Ideal)) : ReadP.val_main_v250 (F := Ideal) x1 = ReadP.val_main_v221 (F := Ideal) x1 := by
  unfold ReadP.val_main_v250 ReadP.val_main_v221; rw [v249_eq]
/-- The zero array the sums start from. -/
theorem v255_eq : ReadP.val_main_v255 (F := Ideal) = ReadP.val_main_v226 (F := Ideal) := rfl
/-- The target-node indices, as a column. -/
theorem v256_eq (x1 : (⟨S2x100000, .i32⟩ : BufTy).Contents (Elt Ideal)) : ReadP.val_main_v256 (F := Ideal) x1 = ReadP.val_main_v227 (F := Ideal) x1 := rfl
theorem v258_eq : ReadP.val_main_v258 (F := Ideal) = ReadP.val_main_v229 (F := Ideal) := rfl
theorem v259_eq (x1 : (⟨S2x100000, .i32⟩ : BufTy).Contents (Elt Ideal)) : ReadP.val_main_v259 (F := Ideal) x1 = ReadP.val_main_v230 (F := Ideal) x1 := rfl
theorem v260_eq (x1 : (⟨S2x100000, .i32⟩ : BufTy).Contents (Elt Ideal)) : ReadP.val_main_v260 (F := Ideal) x1 = ReadP.val_main_v231 (F := Ideal) x1 := by
  unfold ReadP.val_main_v260 ReadP.val_main_v231; rw [v258_eq, v259_eq]
theorem v261_eq : ReadP.val_main_v261 (F := Ideal) = ReadP.val_main_v232 (F := Ideal) := rfl
theorem v262_eq (x1 : (⟨S2x100000, .i32⟩ : BufTy).Contents (Elt Ideal)) : ReadP.val_main_v262 (F := Ideal) x1 = ReadP.val_main_v233 (F := Ideal) x1 := by
  unfold ReadP.val_main_v262 ReadP.val_main_v233; rw [v260_eq, v261_eq]
theorem v263_eq (x1 : (⟨S2x100000, .i32⟩ : BufTy).Contents (Elt Ideal)) : ReadP.val_main_v263 (F := Ideal) x1 = ReadP.val_main_v234 (F := Ideal) x1 := by
  unfold ReadP.val_main_v263 ReadP.val_main_v234; rw [v262_eq]
/-- The broadcast of max(count, 1). -/
theorem v264_eq (x1 : (⟨S2x100000, .i32⟩ : BufTy).Contents (Elt Ideal)) : ReadP.val_main_v264 (F := Ideal) x1 = ReadP.val_main_v235 (F := Ideal) x1 := by
  unfold ReadP.val_main_v264 ReadP.val_main_v235; rw [v263_eq]

/-! ## Both heads' aggregated hidden features -/

/-- The first head's aggregated hidden features are the neighbour mean of the hidden array. -/
theorem v236_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v236 (F := Ideal) x0 x1 x2 x3 x4 x5 x12 x13 x14 x15 = agg (ReadP.val_main_v214 (F := Ideal) x0 x1 x2 x3 x4 x5 x12 x13 x14 x15) x1 := by
  unfold ReadP.val_main_v236 ReadP.val_main_v228 agg
  rw [v225_eq]
  unfold ReadP.val_main_v222
  rfl

/-- The second head's aggregated hidden features are the same neighbour mean. -/
theorem v265_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v265 (F := Ideal) x0 x1 x2 x3 x4 x5 x12 x13 x14 x15 = agg (ReadP.val_main_v214 (F := Ideal) x0 x1 x2 x3 x4 x5 x12 x13 x14 x15) x1 := by
  unfold ReadP.val_main_v265 ReadP.val_main_v257 agg
  rw [v254_eq, v255_eq, v256_eq, v264_eq]
  unfold ReadP.val_main_v251
  rw [v250_eq]

end Cert.ReferenceIdeal.RefAgg

end
-- ==== Proof.AggBridge.lean ====
/-
  Between the two pallas_calls the kernel's host side aggregates the hidden features over the edge list: gather the
  source nodes' rows (negative indices wrapped), scatter-add them to the target nodes, divide by the larger of the
  node's edge count and one, then narrow the float format (the identity on the extended reals). Read through the host
  operations between the calls, from the contents the first call leaves, this is the reference's aggregation of the
  same array, operation for operation: the edge-index buffers are untouched by the first call, so at the boundary they
  still hold what the host operations before it computed from the edge-index argument.
-/
import proofs.«145364_j21045339751000_1_alg».proof.Proof.Gen.KernelIdeal.Frame
import proofs.«145364_j21045339751000_1_alg».proof.Proof.RefRead
import proofs.«145364_j21045339751000_1_alg».proof.Proof.RefAgg
import Idealize.ShloMosaic.Lib.StableHlo.Run

set_option maxRecDepth 16384

noncomputable section

namespace Cert.KernelIdeal.AggBridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The source-node indices (row 0 of the edge list), at the boundary between the calls. -/
theorem src_at_boundary (c : Dev nD) : W2 m ρ c (Proc.devRef .tc main_v1) = Cert.ReferenceIdeal.ReadP.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl

set_option maxHeartbeats 4000000 in
/-- The target-node indices (row 1 of the edge list), at the boundary between the calls. -/
theorem dst_at_boundary (c : Dev nD) : W2 m ρ c (Proc.devRef .tc main_v3) = Cert.ReferenceIdeal.ReadP.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

set_option maxHeartbeats 8000000 in
/-- The second call's aggregated input is the reference's aggregation of what the first call left. -/
theorem mh_eq (c : Dev nD) : (V3 m ρ c main_v131 : S20000x2560.Idx → EReal)
    = Cert.ReferenceIdeal.RefAgg.agg (W2 m ρ c (Proc.devRef .tc main_v110)) (m ((c : Thread nD τ).loc main_arg1)) := by
  show StableHlo.after hostOps1 (W2 m ρ c) (Proc.devRef .tc main_v131) = _
  after_results_simp
  rw [src_at_boundary m ρ c, dst_at_boundary m ρ c]
  rfl

end Cert.KernelIdeal.AggBridge

end
-- ==== Proof.RefValue.lean ====
/-
  The reference program's three results, element by element, are the specification's functions of its arguments.

  Layer one: for each relation the reference multiplies the mean-aggregated rows and the node's own rows by the
  transposed slices of the two weight stacks, adds the bias row and takes the maximum with zero; it lays the five
  512-wide results side by side, so channel q = 512·k + j of the joined array is relation k's channel j, and then
  normalises every channel with its running mean and variance, its scale and its shift. Layer two: each head is the
  same linear form over the 2560 hidden channels. The mean-aggregation stages enter only as accessors.
-/
import proofs.«145364_j21045339751000_1_alg».proof.Proof.RefRead
import proofs.«145364_j21045339751000_1_alg».proof.Proof.Spec

noncomputable section

namespace Cert.ReferenceIdeal.RefValue

open Cert Cert.ReferenceIdeal Cert.ReferenceIdeal.Gen Idealize.ShloMosaic Idealize.ShloMosaic.TcCoe Idealize.SL.Sem
  Idealize.ShloMosaic.StableHlo Idealize.ShloMosaic.ValueIdx

/-! ## The two heads -/

/-- The mean head: SAGE over the aggregated hidden rows and the node's own hidden row, weights read transposed. -/
theorem mu_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x6 : (⟨S256x2560, .f32⟩ : BufTy).Contents (Elt Ideal)) (x7 : (⟨S256x2560, .f32⟩ : BufTy).Contents (Elt Ideal)) (x8 : (⟨S256, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v244 (F := Ideal) x0 x1 x2 x3 x4 x5 x6 x7 x8 x12 x13 x14 x15 =
      SageSpec.head (fun r c => ReadP.val_main_v236 (F := Ideal) x0 x1 x2 x3 x4 x5 x12 x13 x14 x15 (ix2 r c)) (fun r c => ReadP.val_main_v214 (F := Ideal) x0 x1 x2 x3 x4 x5 x12 x13 x14 x15 (ix2 r c))
        (fun j c => x6 (ix2 j c)) (fun j c => x7 (ix2 j c)) (fun j => x8 (ix1 j)) := by
  funext i
  obtain ⟨r, j, rfl⟩ : ∃ (r : Fin 20000) (j : Fin 256), i = ix2 r j := ⟨i 0, i 1, eq_ix2 i⟩
  have eL : ∀ c : Fin 2560, ReadP.lidx_main_v238 (ix2 r j) c = ix2 r c := fun c => funext fun a => by
    match a with | ⟨0, _⟩ => rfl | ⟨1, _⟩ => rfl
  have eL' : ∀ c : Fin 2560, ReadP.lidx_main_v240 (ix2 r j) c = ix2 r c := fun c => funext fun a => by
    match a with | ⟨0, _⟩ => rfl | ⟨1, _⟩ => rfl
  have eR : ∀ c : Fin 2560, ReadP.idx_main_v237 (ReadP.ridx_main_v238 (ix2 r j) c) = ix2 j c := fun c => funext fun a => by
    match a with | ⟨0, _⟩ => rfl | ⟨1, _⟩ => rfl
  have eR' : ∀ c : Fin 2560, ReadP.idx_main_v239 (ReadP.ridx_main_v240 (ix2 r j) c) = ix2 j c := fun c => funext fun a => by
    match a with | ⟨0, _⟩ => rfl | ⟨1, _⟩ => rfl
  have eB : ReadP.idx_main_v242 (ReadP.idx_main_v243 (ix2 r j)) = ix1 j := funext fun a => by
    match a with | ⟨0, _⟩ => rfl
  rw [ReadP.val_main_v244_apply, ReadP.val_main_v241_apply, ReadP.val_main_v238_apply, ReadP.val_main_v240_apply, ReadP.val_main_v243_apply, ReadP.val_main_v242_apply, eB]
  simp only [ReadP.val_main_v237_apply, ReadP.val_main_v239_apply, eL, eL', eR, eR']
  rfl

/-- The log-variance head: the same form with its own weights and bias. -/
theorem lv_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x9 : (⟨S256x2560, .f32⟩ : BufTy).Contents (Elt Ideal)) (x10 : (⟨S256x2560, .f32⟩ : BufTy).Contents (Elt Ideal)) (x11 : (⟨S256, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v273 (F := Ideal) x0 x1 x2 x3 x4 x5 x9 x10 x11 x12 x13 x14 x15 =
      SageSpec.head (fun r c => ReadP.val_main_v265 (F := Ideal) x0 x1 x2 x3 x4 x5 x12 x13 x14 x15 (ix2 r c)) (fun r c => ReadP.val_main_v214 (F := Ideal) x0 x1 x2 x3 x4 x5 x12 x13 x14 x15 (ix2 r c))
        (fun j c => x9 (ix2 j c)) (fun j c => x10 (ix2 j c)) (fun j => x11 (ix1 j)) := by
  funext i
  obtain ⟨r, j, rfl⟩ : ∃ (r : Fin 20000) (j : Fin 256), i = ix2 r j := ⟨i 0, i 1, eq_ix2 i⟩
  have eL : ∀ c : Fin 2560, ReadP.lidx_main_v267 (ix2 r j) c = ix2 r c := fun c => funext fun a => by
    match a with | ⟨0, _⟩ => rfl | ⟨1, _⟩ => rfl
  have eL' : ∀ c : Fin 2560, ReadP.lidx_main_v269 (ix2 r j) c = ix2 r c := fun c => funext fun a => by
    match a with | ⟨0, _⟩ => rfl | ⟨1, _⟩ => rfl
  have eR : ∀ c : Fin 2560, ReadP.idx_main_v266 (ReadP.ridx_main_v267 (ix2 r j) c) = ix2 j c := fun c => funext fun a => by
    match a with | ⟨0, _⟩ => rfl | ⟨1, _⟩ => rfl
  have eR' : ∀ c : Fin 2560, ReadP.idx_main_v268 (ReadP.ridx_main_v269 (ix2 r j) c) = ix2 j c := fun c => funext fun a => by
    match a with | ⟨0, _⟩ => rfl | ⟨1, _⟩ => rfl
  have eB : ReadP.idx_main_v271 (ReadP.idx_main_v272 (ix2 r j)) = ix1 j := funext fun a => by
    match a with | ⟨0, _⟩ => rfl
  rw [ReadP.val_main_v273_apply, ReadP.val_main_v270_apply, ReadP.val_main_v267_apply, ReadP.val_main_v269_apply, ReadP.val_main_v272_apply, ReadP.val_main_v271_apply, eB]
  simp only [ReadP.val_main_v266_apply, ReadP.val_main_v268_apply, eL, eL', eR, eR']
  rfl

/-! ## Layer one, one relation at a time -/

/-- Relation 0: relu of its SAGE element, read at node `r` and channel `j`. -/
theorem relu0_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (j : Fin 512) :
    ReadP.val_main_v42 (F := Ideal) x0 x1 x2 x3 x4 x5 (ix2 r j) =
      max (SageSpec.sage (fun c : Fin 512 => ReadP.val_main_v33 (F := Ideal) x0 x1 x2 (ix2 r c)) (fun c : Fin 512 => x0 (ix2 r c))
        (fun c : Fin 512 => x3 (ix3 (⟨0, by decide⟩ : Fin 5) j c)) (fun c : Fin 512 => x4 (ix3 (⟨0, by decide⟩ : Fin 5) j c)) (x5 (ix2 (⟨0, by decide⟩ : Fin 5) j))) 0 := by
  have hj : j.val < 512 := j.isLt
  have eL : ∀ c : Fin 512, ReadP.lidx_main_v35 (ix2 r j) c = ix2 r c := fun c => funext fun a => by
    match a with | ⟨0, _⟩ => rfl | ⟨1, _⟩ => rfl
  have eL' : ∀ c : Fin 512, ReadP.lidx_main_v37 (ix2 r j) c = ix2 r c := fun c => funext fun a => by
    match a with | ⟨0, _⟩ => rfl | ⟨1, _⟩ => rfl
  have eW : ∀ c : Fin 512, ReadP.idx_main_v7 (ReadP.idx_main_v8 (ReadP.idx_main_v34 (ReadP.ridx_main_v35 (ix2 r j) c))) = ix3 (⟨0, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eW' : ∀ c : Fin 512, ReadP.idx_main_v9 (ReadP.idx_main_v10 (ReadP.idx_main_v36 (ReadP.ridx_main_v37 (ix2 r j) c))) = ix3 (⟨0, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eB : ReadP.idx_main_v11 (ReadP.idx_main_v12 (ReadP.idx_main_v39 (ReadP.idx_main_v40 (ix2 r j)))) = ix2 (⟨0, by decide⟩ : Fin 5) j :=
    funext fun a => Fin.ext (by
      match a with
      | ⟨0, _⟩ => rfl
      | ⟨1, _⟩ => show j.val % 512 = j.val; omega)
  rw [ReadP.val_main_v42_apply, ReadP.val_main_v41_apply, ReadP.val_main_v38_apply, ReadP.val_main_v35_apply, ReadP.val_main_v37_apply, ReadP.val_main_v40_apply, ReadP.val_main_v39_apply, ReadP.val_main_v12_apply, ReadP.val_main_v11_apply, eB,
    ReadP.val_main_call0_v0_apply, ReadP.val_main_call0_cst_apply]
  simp only [ReadP.val_main_v34_apply, ReadP.val_main_v8_apply, ReadP.val_main_v7_apply, ReadP.val_main_v36_apply, ReadP.val_main_v10_apply, ReadP.val_main_v9_apply, eL, eL', eW, eW']
  rw [Ideal.ofBits_def, Ideal.ofBits_zero_f32]
  rfl

/-- Relation 1: relu of its SAGE element, read at node `r` and channel `j`. -/
theorem relu1_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (j : Fin 512) :
    ReadP.val_main_v81 (F := Ideal) x0 x1 x2 x3 x4 x5 (ix2 r j) =
      max (SageSpec.sage (fun c : Fin 512 => ReadP.val_main_v72 (F := Ideal) x0 x1 x2 (ix2 r c)) (fun c : Fin 512 => x0 (ix2 r c))
        (fun c : Fin 512 => x3 (ix3 (⟨1, by decide⟩ : Fin 5) j c)) (fun c : Fin 512 => x4 (ix3 (⟨1, by decide⟩ : Fin 5) j c)) (x5 (ix2 (⟨1, by decide⟩ : Fin 5) j))) 0 := by
  have hj : j.val < 512 := j.isLt
  have eL : ∀ c : Fin 512, ReadP.lidx_main_v74 (ix2 r j) c = ix2 r c := fun c => funext fun a => by
    match a with | ⟨0, _⟩ => rfl | ⟨1, _⟩ => rfl
  have eL' : ∀ c : Fin 512, ReadP.lidx_main_v76 (ix2 r j) c = ix2 r c := fun c => funext fun a => by
    match a with | ⟨0, _⟩ => rfl | ⟨1, _⟩ => rfl
  have eW : ∀ c : Fin 512, ReadP.idx_main_v46 (ReadP.idx_main_v47 (ReadP.idx_main_v73 (ReadP.ridx_main_v74 (ix2 r j) c))) = ix3 (⟨1, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eW' : ∀ c : Fin 512, ReadP.idx_main_v48 (ReadP.idx_main_v49 (ReadP.idx_main_v75 (ReadP.ridx_main_v76 (ix2 r j) c))) = ix3 (⟨1, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eB : ReadP.idx_main_v50 (ReadP.idx_main_v51 (ReadP.idx_main_v78 (ReadP.idx_main_v79 (ix2 r j)))) = ix2 (⟨1, by decide⟩ : Fin 5) j :=
    funext fun a => Fin.ext (by
      match a with
      | ⟨0, _⟩ => rfl
      | ⟨1, _⟩ => show j.val % 512 = j.val; omega)
  rw [ReadP.val_main_v81_apply, ReadP.val_main_v80_apply, ReadP.val_main_v77_apply, ReadP.val_main_v74_apply, ReadP.val_main_v76_apply, ReadP.val_main_v79_apply, ReadP.val_main_v78_apply, ReadP.val_main_v51_apply, ReadP.val_main_v50_apply, eB,
    ReadP.val_main_call1_v0_apply, ReadP.val_main_call1_cst_apply]
  simp only [ReadP.val_main_v73_apply, ReadP.val_main_v47_apply, ReadP.val_main_v46_apply, ReadP.val_main_v75_apply, ReadP.val_main_v49_apply, ReadP.val_main_v48_apply, eL, eL', eW, eW']
  rw [Ideal.ofBits_def, Ideal.ofBits_zero_f32]
  rfl

/-- Relation 2: relu of its SAGE element, read at node `r` and channel `j`. -/
theorem relu2_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (j : Fin 512) :
    ReadP.val_main_v120 (F := Ideal) x0 x1 x2 x3 x4 x5 (ix2 r j) =
      max (SageSpec.sage (fun c : Fin 512 => ReadP.val_main_v111 (F := Ideal) x0 x1 x2 (ix2 r c)) (fun c : Fin 512 => x0 (ix2 r c))
        (fun c : Fin 512 => x3 (ix3 (⟨2, by decide⟩ : Fin 5) j c)) (fun c : Fin 512 => x4 (ix3 (⟨2, by decide⟩ : Fin 5) j c)) (x5 (ix2 (⟨2, by decide⟩ : Fin 5) j))) 0 := by
  have hj : j.val < 512 := j.isLt
  have eL : ∀ c : Fin 512, ReadP.lidx_main_v113 (ix2 r j) c = ix2 r c := fun c => funext fun a => by
    match a with | ⟨0, _⟩ => rfl | ⟨1, _⟩ => rfl
  have eL' : ∀ c : Fin 512, ReadP.lidx_main_v115 (ix2 r j) c = ix2 r c := fun c => funext fun a => by
    match a with | ⟨0, _⟩ => rfl | ⟨1, _⟩ => rfl
  have eW : ∀ c : Fin 512, ReadP.idx_main_v85 (ReadP.idx_main_v86 (ReadP.idx_main_v112 (ReadP.ridx_main_v113 (ix2 r j) c))) = ix3 (⟨2, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eW' : ∀ c : Fin 512, ReadP.idx_main_v87 (ReadP.idx_main_v88 (ReadP.idx_main_v114 (ReadP.ridx_main_v115 (ix2 r j) c))) = ix3 (⟨2, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eB : ReadP.idx_main_v89 (ReadP.idx_main_v90 (ReadP.idx_main_v117 (ReadP.idx_main_v118 (ix2 r j)))) = ix2 (⟨2, by decide⟩ : Fin 5) j :=
    funext fun a => Fin.ext (by
      match a with
      | ⟨0, _⟩ => rfl
      | ⟨1, _⟩ => show j.val % 512 = j.val; omega)
  rw [ReadP.val_main_v120_apply, ReadP.val_main_v119_apply, ReadP.val_main_v116_apply, ReadP.val_main_v113_apply, ReadP.val_main_v115_apply, ReadP.val_main_v118_apply, ReadP.val_main_v117_apply, ReadP.val_main_v90_apply, ReadP.val_main_v89_apply, eB,
    ReadP.val_main_call2_v0_apply, ReadP.val_main_call2_cst_apply]
  simp only [ReadP.val_main_v112_apply, ReadP.val_main_v86_apply, ReadP.val_main_v85_apply, ReadP.val_main_v114_apply, ReadP.val_main_v88_apply, ReadP.val_main_v87_apply, eL, eL', eW, eW']
  rw [Ideal.ofBits_def, Ideal.ofBits_zero_f32]
  rfl

/-- Relation 3: relu of its SAGE element, read at node `r` and channel `j`. -/
theorem relu3_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (j : Fin 512) :
    ReadP.val_main_v159 (F := Ideal) x0 x1 x2 x3 x4 x5 (ix2 r j) =
      max (SageSpec.sage (fun c : Fin 512 => ReadP.val_main_v150 (F := Ideal) x0 x1 x2 (ix2 r c)) (fun c : Fin 512 => x0 (ix2 r c))
        (fun c : Fin 512 => x3 (ix3 (⟨3, by decide⟩ : Fin 5) j c)) (fun c : Fin 512 => x4 (ix3 (⟨3, by decide⟩ : Fin 5) j c)) (x5 (ix2 (⟨3, by decide⟩ : Fin 5) j))) 0 := by
  have hj : j.val < 512 := j.isLt
  have eL : ∀ c : Fin 512, ReadP.lidx_main_v152 (ix2 r j) c = ix2 r c := fun c => funext fun a => by
    match a with | ⟨0, _⟩ => rfl | ⟨1, _⟩ => rfl
  have eL' : ∀ c : Fin 512, ReadP.lidx_main_v154 (ix2 r j) c = ix2 r c := fun c => funext fun a => by
    match a with | ⟨0, _⟩ => rfl | ⟨1, _⟩ => rfl
  have eW : ∀ c : Fin 512, ReadP.idx_main_v124 (ReadP.idx_main_v125 (ReadP.idx_main_v151 (ReadP.ridx_main_v152 (ix2 r j) c))) = ix3 (⟨3, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eW' : ∀ c : Fin 512, ReadP.idx_main_v126 (ReadP.idx_main_v127 (ReadP.idx_main_v153 (ReadP.ridx_main_v154 (ix2 r j) c))) = ix3 (⟨3, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eB : ReadP.idx_main_v128 (ReadP.idx_main_v129 (ReadP.idx_main_v156 (ReadP.idx_main_v157 (ix2 r j)))) = ix2 (⟨3, by decide⟩ : Fin 5) j :=
    funext fun a => Fin.ext (by
      match a with
      | ⟨0, _⟩ => rfl
      | ⟨1, _⟩ => show j.val % 512 = j.val; omega)
  rw [ReadP.val_main_v159_apply, ReadP.val_main_v158_apply, ReadP.val_main_v155_apply, ReadP.val_main_v152_apply, ReadP.val_main_v154_apply, ReadP.val_main_v157_apply, ReadP.val_main_v156_apply, ReadP.val_main_v129_apply, ReadP.val_main_v128_apply, eB,
    ReadP.val_main_call3_v0_apply, ReadP.val_main_call3_cst_apply]
  simp only [ReadP.val_main_v151_apply, ReadP.val_main_v125_apply, ReadP.val_main_v124_apply, ReadP.val_main_v153_apply, ReadP.val_main_v127_apply, ReadP.val_main_v126_apply, eL, eL', eW, eW']
  rw [Ideal.ofBits_def, Ideal.ofBits_zero_f32]
  rfl

/-- Relation 4: relu of its SAGE element, read at node `r` and channel `j`. -/
theorem relu4_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (j : Fin 512) :
    ReadP.val_main_v198 (F := Ideal) x0 x1 x2 x3 x4 x5 (ix2 r j) =
      max (SageSpec.sage (fun c : Fin 512 => ReadP.val_main_v189 (F := Ideal) x0 x1 x2 (ix2 r c)) (fun c : Fin 512 => x0 (ix2 r c))
        (fun c : Fin 512 => x3 (ix3 (⟨4, by decide⟩ : Fin 5) j c)) (fun c : Fin 512 => x4 (ix3 (⟨4, by decide⟩ : Fin 5) j c)) (x5 (ix2 (⟨4, by decide⟩ : Fin 5) j))) 0 := by
  have hj : j.val < 512 := j.isLt
  have eL : ∀ c : Fin 512, ReadP.lidx_main_v191 (ix2 r j) c = ix2 r c := fun c => funext fun a => by
    match a with | ⟨0, _⟩ => rfl | ⟨1, _⟩ => rfl
  have eL' : ∀ c : Fin 512, ReadP.lidx_main_v193 (ix2 r j) c = ix2 r c := fun c => funext fun a => by
    match a with | ⟨0, _⟩ => rfl | ⟨1, _⟩ => rfl
  have eW : ∀ c : Fin 512, ReadP.idx_main_v163 (ReadP.idx_main_v164 (ReadP.idx_main_v190 (ReadP.ridx_main_v191 (ix2 r j) c))) = ix3 (⟨4, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eW' : ∀ c : Fin 512, ReadP.idx_main_v165 (ReadP.idx_main_v166 (ReadP.idx_main_v192 (ReadP.ridx_main_v193 (ix2 r j) c))) = ix3 (⟨4, by decide⟩ : Fin 5) j c :=
    fun c => funext fun a => Fin.ext (by
      have hc : c.val < 512 := c.isLt
      match a with
      | ⟨0, _⟩ => rfl
      | ⟨1, _⟩ => show (j.val * 512 + c.val) / 512 % 512 = j.val; omega
      | ⟨2, _⟩ => show (j.val * 512 + c.val) % 512 = c.val; omega)
  have eB : ReadP.idx_main_v167 (ReadP.idx_main_v168 (ReadP.idx_main_v195 (ReadP.idx_main_v196 (ix2 r j)))) = ix2 (⟨4, by decide⟩ : Fin 5) j :=
    funext fun a => Fin.ext (by
      match a with
      | ⟨0, _⟩ => rfl
      | ⟨1, _⟩ => show j.val % 512 = j.val; omega)
  rw [ReadP.val_main_v198_apply, ReadP.val_main_v197_apply, ReadP.val_main_v194_apply, ReadP.val_main_v191_apply, ReadP.val_main_v193_apply, ReadP.val_main_v196_apply, ReadP.val_main_v195_apply, ReadP.val_main_v168_apply, ReadP.val_main_v167_apply, eB,
    ReadP.val_main_call4_v0_apply, ReadP.val_main_call4_cst_apply]
  simp only [ReadP.val_main_v190_apply, ReadP.val_main_v164_apply, ReadP.val_main_v163_apply, ReadP.val_main_v192_apply, ReadP.val_main_v166_apply, ReadP.val_main_v165_apply, eL, eL', eW, eW']
  rw [Ideal.ofBits_def, Ideal.ofBits_zero_f32]
  rfl

/-! ## The joined array and the batch norm -/

/-- The five relations' mean-aggregated neighbour features, as one accessor: relation `k`, node `r`, input channel `c`. -/
def means (x0 : (⟨S20000x512, .f32⟩ : BufTy).Contents (Elt Ideal)) (x1 : (⟨S2x100000, .i32⟩ : BufTy).Contents (Elt Ideal)) (x2 : (⟨S100000, .i32⟩ : BufTy).Contents (Elt Ideal)) : Fin 5 → Fin 20000 → Fin 512 → EReal := fun k r c =>
  (match k with
   | ⟨0, _⟩ => ReadP.val_main_v33 (F := Ideal) x0 x1 x2
   | ⟨1, _⟩ => ReadP.val_main_v72 (F := Ideal) x0 x1 x2
   | ⟨2, _⟩ => ReadP.val_main_v111 (F := Ideal) x0 x1 x2
   | ⟨3, _⟩ => ReadP.val_main_v150 (F := Ideal) x0 x1 x2
   | ⟨4, _⟩ => ReadP.val_main_v189 (F := Ideal) x0 x1 x2) (ix2 r c)

/-- The five relu outputs side by side: channel `q = 512·k + j` of the joined array is relation `k`'s channel `j`. -/
theorem cat_apply (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (r : Fin 20000) (q : Fin 2560) (k : Fin 5) (j : Fin 512)
    (hq : q.val = 512 * k.val + j.val) :
    ReadP.val_main_v199 (F := Ideal) x0 x1 x2 x3 x4 x5 (ix2 r q) =
      max (SageSpec.sage (means x0 x1 x2 k r) (fun c : Fin 512 => x0 (ix2 r c))
        (fun c : Fin 512 => x3 (ix3 k j c)) (fun c : Fin 512 => x4 (ix3 k j c)) (x5 (ix2 k j))) 0 := by
  match k with
  | ⟨0, _⟩ =>
    have hq' : q.val = 0 + j.val := hq
    unfold ReadP.val_main_v199
    refine (concatenate_apply_piece (t := S20000x2560) (1 : Fin 2) _ _ (ix2 r q) 0 ?_ S20000x512
      (ReadP.val_main_v42 (F := Ideal) x0 x1 x2 x3 x4 x5) ?_ rfl 0 ?_ (ix2 r j) ?_ ?_).trans ?_
    · show 0 < 5; decide
    · rfl
    · rfl
    · intro b hb
      match b with
      | ⟨0, _⟩ => rfl
      | ⟨1, _⟩ => exact absurd rfl hb
    · show 0 + j.val = q.val; omega
    · exact relu0_apply x0 x1 x2 x3 x4 x5 r j
  | ⟨1, _⟩ =>
    have hq' : q.val = 512 + j.val := hq
    unfold ReadP.val_main_v199
    refine (concatenate_apply_piece (t := S20000x2560) (1 : Fin 2) _ _ (ix2 r q) 1 ?_ S20000x512
      (ReadP.val_main_v81 (F := Ideal) x0 x1 x2 x3 x4 x5) ?_ rfl 512 ?_ (ix2 r j) ?_ ?_).trans ?_
    · show 1 < 5; decide
    · rfl
    · rfl
    · intro b hb
      match b with
      | ⟨0, _⟩ => rfl
      | ⟨1, _⟩ => exact absurd rfl hb
    · show 512 + j.val = q.val; omega
    · exact relu1_apply x0 x1 x2 x3 x4 x5 r j
  | ⟨2, _⟩ =>
    have hq' : q.val = 1024 + j.val := hq
    unfold ReadP.val_main_v199
    refine (concatenate_apply_piece (t := S20000x2560) (1 : Fin 2) _ _ (ix2 r q) 2 ?_ S20000x512
      (ReadP.val_main_v120 (F := Ideal) x0 x1 x2 x3 x4 x5) ?_ rfl 1024 ?_ (ix2 r j) ?_ ?_).trans ?_
    · show 2 < 5; decide
    · rfl
    · rfl
    · intro b hb
      match b with
      | ⟨0, _⟩ => rfl
      | ⟨1, _⟩ => exact absurd rfl hb
    · show 1024 + j.val = q.val; omega
    · exact relu2_apply x0 x1 x2 x3 x4 x5 r j
  | ⟨3, _⟩ =>
    have hq' : q.val = 1536 + j.val := hq
    unfold ReadP.val_main_v199
    refine (concatenate_apply_piece (t := S20000x2560) (1 : Fin 2) _ _ (ix2 r q) 3 ?_ S20000x512
      (ReadP.val_main_v159 (F := Ideal) x0 x1 x2 x3 x4 x5) ?_ rfl 1536 ?_ (ix2 r j) ?_ ?_).trans ?_
    · show 3 < 5; decide
    · rfl
    · rfl
    · intro b hb
      match b with
      | ⟨0, _⟩ => rfl
      | ⟨1, _⟩ => exact absurd rfl hb
    · show 1536 + j.val = q.val; omega
    · exact relu3_apply x0 x1 x2 x3 x4 x5 r j
  | ⟨4, _⟩ =>
    have hq' : q.val = 2048 + j.val := hq
    unfold ReadP.val_main_v199
    refine (concatenate_apply_piece (t := S20000x2560) (1 : Fin 2) _ _ (ix2 r q) 4 ?_ S20000x512
      (ReadP.val_main_v198 (F := Ideal) x0 x1 x2 x3 x4 x5) ?_ rfl 2048 ?_ (ix2 r j) ?_ ?_).trans ?_
    · show 4 < 5; decide
    · rfl
    · rfl
    · intro b hb
      match b with
      | ⟨0, _⟩ => rfl
      | ⟨1, _⟩ => exact absurd rfl hb
    · show 2048 + j.val = q.val; omega
    · exact relu4_apply x0 x1 x2 x3 x4 x5 r j

/-- The hidden features of the reference are the specification's: batch norm of relu of each relation's SAGE element. -/
theorem hidden_eq (x0 : (⟨S20000x512, .f32⟩ : BufTy).Contents (Elt Ideal)) (x1 : (⟨S2x100000, .i32⟩ : BufTy).Contents (Elt Ideal)) (x2 : (⟨S100000, .i32⟩ : BufTy).Contents (Elt Ideal)) (x3 : (⟨S5x512x512, .f32⟩ : BufTy).Contents (Elt Ideal)) (x4 : (⟨S5x512x512, .f32⟩ : BufTy).Contents (Elt Ideal)) (x5 : (⟨S5x512, .f32⟩ : BufTy).Contents (Elt Ideal)) (x12 : (⟨S2560, .f32⟩ : BufTy).Contents (Elt Ideal)) (x13 : (⟨S2560, .f32⟩ : BufTy).Contents (Elt Ideal)) (x14 : (⟨S2560, .f32⟩ : BufTy).Contents (Elt Ideal)) (x15 : (⟨S2560, .f32⟩ : BufTy).Contents (Elt Ideal)) :
    ReadP.val_main_v214 (F := Ideal) x0 x1 x2 x3 x4 x5 x12 x13 x14 x15 =
      SageSpec.hidden (means x0 x1 x2) (fun r c => x0 (ix2 r c)) (fun k j c => x3 (ix3 k j c)) (fun k j c => x4 (ix3 k j c))
        (fun k j => x5 (ix2 k j)) (fun q => x14 (ix1 q)) (fun q => x15 (ix1 q)) (fun q => x12 (ix1 q)) (fun q => x13 (ix1 q)) := by
  funext i
  obtain ⟨r, q, rfl⟩ : ∃ (r : Fin 20000) (q : Fin 2560), i = ix2 r q := ⟨i 0, i 1, eq_ix2 i⟩
  have eM : ReadP.idx_main_v200 (ReadP.idx_main_v201 (ix2 r q)) = ix1 q := funext fun a => by
    match a with | ⟨0, _⟩ => rfl
  have eV : ReadP.idx_main_v206 (ReadP.idx_main_v207 (ix2 r q)) = ix1 q := funext fun a => by
    match a with | ⟨0, _⟩ => rfl
  have eG : ReadP.idx_main_v209 (ReadP.idx_main_v210 (ix2 r q)) = ix1 q := funext fun a => by
    match a with | ⟨0, _⟩ => rfl
  have eBt : ReadP.idx_main_v212 (ReadP.idx_main_v213 (ix2 r q)) = ix1 q := funext fun a => by
    match a with | ⟨0, _⟩ => rfl
  have hq : q.val = 512 * (SageSpec.rel q).val + (SageSpec.chan q).val := by
    show q.val = 512 * (q.val / 512) + q.val % 512; omega
  rw [ReadP.val_main_v214_apply, ReadP.val_main_v211_apply, ReadP.val_main_v208_apply, ReadP.val_main_v202_apply, ReadP.val_main_v201_apply, ReadP.val_main_v200_apply, eM, ReadP.val_main_v207_apply, ReadP.val_main_v206_apply, eV,
    ReadP.val_main_v205_apply, ReadP.val_main_v204_apply, ReadP.val_main_v203_apply, ReadP.val_main_cst_28_apply, ReadP.val_main_v210_apply, ReadP.val_main_v209_apply, eG, ReadP.val_main_v213_apply, ReadP.val_main_v212_apply, eBt,
    cat_apply x0 x1 x2 x3 x4 x5 r q (SageSpec.rel q) (SageSpec.chan q) hq]
  rfl

end Cert.ReferenceIdeal.RefValue

end
-- ==== Proof.KValue.lean ====
/-
  The idealized kernel's two result arrays are the reference's.

  Layer one. What the first pallas_call leaves in its output array is the hidden-feature function of the arrays it
  found; those are the five aggregated means (the reference's, operation for operation), the node features, the two
  weight stacks with their trailing axes swapped (so the kernel's entry (k, c, j) is the reference's (k, j, c)), the
  biases, and the four batch-norm vectors as one-row matrices. Hence the array is the reference's hidden features.

  Layer two. What the second pallas_call leaves in each output array is the head function of the arrays it found: the
  hidden features again (narrowed, the identity here), their aggregation over the edge list (the reference's
  aggregation of the same array, with the reference's unit edge weight dropped: x · 1 = x), the two transposed weight
  matrices and the bias row. Hence each result is the reference's head.
-/
import proofs.«145364_j21045339751000_1_alg».proof.Proof.Spec
import proofs.«145364_j21045339751000_1_alg».proof.Proof.KRun
import proofs.«145364_j21045339751000_1_alg».proof.Proof.Branches
import proofs.«145364_j21045339751000_1_alg».proof.Proof.Heads
import proofs.«145364_j21045339751000_1_alg».proof.Proof.HostLayout
import proofs.«145364_j21045339751000_1_alg».proof.Proof.HostBetween
import proofs.«145364_j21045339751000_1_alg».proof.Proof.MeansBridge
import proofs.«145364_j21045339751000_1_alg».proof.Proof.AggBridge
import proofs.«145364_j21045339751000_1_alg».proof.Proof.RefValue
import proofs.«145364_j21045339751000_1_alg».proof.Proof.RefAgg

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 4000000 in
/-- The five aggregated means, as the first call finds them, are the reference's five. -/
theorem means_K (c : Dev nD) : (fun (k : Fin 5) (r : Fin 20000) (cc : Fin 512) => Branches.means (V1 m ρ) c k (ix2 r cc))
      = Cert.ReferenceIdeal.RefValue.means (m ((c : Thread nD τ).loc main_arg0)) (m ((c : Thread nD τ).loc main_arg1)) (m ((c : Thread nD τ).loc main_arg2)) := by
    funext k r cc
    match k with
    | ⟨0, _⟩ => exact congrFun (MeansBridge.mean0 m ρ c) (ix2 r cc)
    | ⟨1, _⟩ => exact congrFun (MeansBridge.mean1 m ρ c) (ix2 r cc)
    | ⟨2, _⟩ => exact congrFun (MeansBridge.mean2 m ρ c) (ix2 r cc)
    | ⟨3, _⟩ => exact congrFun (MeansBridge.mean3 m ρ c) (ix2 r cc)
    | ⟨4, _⟩ => exact congrFun (MeansBridge.mean4 m ρ c) (ix2 r cc)

set_option maxHeartbeats 4000000 in
/-- The first call's output array, at the boundary between the calls, is the reference's hidden features. -/
theorem hidden_K (c : Dev nD) : W2 m ρ c (Proc.devRef .tc main_v110)
    = Cert.ReferenceIdeal.ReadP.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) := by
  have h2 : (fun (r : Fin 20000) (cc : Fin 512) => (V1 m ρ c main_v96 : S20000x512.Idx → EReal) (ix2 r cc))
      = fun r cc => ((m ((c : Thread nD τ).loc main_arg0)) : S20000x512.Idx → EReal) (ix2 r cc) := by rw [HostSide.x_eq m ρ c]
  have h3 : (fun (k : Fin 5) (j cc : Fin 512) => (V1 m ρ c main_v103 : S5x512x512.Idx → EReal) (ix3 k cc j))
      = fun k j cc => ((m ((c : Thread nD τ).loc main_arg3)) : S5x512x512.Idx → EReal) (ix3 k j cc) := by
    funext k j cc; exact HostSide.wl_at m ρ c k j cc
  have h4 : (fun (k : Fin 5) (j cc : Fin 512) => (V1 m ρ c main_v105 : S5x512x512.Idx → EReal) (ix3 k cc j))
      = fun k j cc => ((m ((c : Thread nD τ).loc main_arg4)) : S5x512x512.Idx → EReal) (ix3 k j cc) := by
    funext k j cc; exact HostSide.wr_at m ρ c k j cc
  have h5 : (fun (k : Fin 5) (j : Fin 512) => (V1 m ρ c main_arg5 : S5x512.Idx → EReal) (ix2 k j))
      = fun k j => ((m ((c : Thread nD τ).loc main_arg5)) : S5x512.Idx → EReal) (ix2 k j) := by rw [HostSide.b_eq m ρ c]
  have h6 : (fun (q : Fin 2560) => (V1 m ρ c main_v106 : S1x2560.Idx → EReal) (ix2 0 q))
      = fun q => ((m ((c : Thread nD τ).loc main_arg14)) : S2560.Idx → EReal) (ix1 q) := by funext q; exact HostSide.rm_at m ρ c q
  have h7 : (fun (q : Fin 2560) => (V1 m ρ c main_v107 : S1x2560.Idx → EReal) (ix2 0 q))
      = fun q => ((m ((c : Thread nD τ).loc main_arg15)) : S2560.Idx → EReal) (ix1 q) := by funext q; exact HostSide.rv_at m ρ c q
  have h8 : (fun (q : Fin 2560) => (V1 m ρ c main_v108 : S1x2560.Idx → EReal) (ix2 0 q))
      = fun q => ((m ((c : Thread nD τ).loc main_arg12)) : S2560.Idx → EReal) (ix1 q) := by funext q; exact HostSide.g_at m ρ c q
  have h9 : (fun (q : Fin 2560) => (V1 m ρ c main_v109 : S1x2560.Idx → EReal) (ix2 0 q))
      = fun q => ((m ((c : Thread nD τ).loc main_arg13)) : S2560.Idx → EReal) (ix1 q) := by funext q; exact HostSide.be_at m ρ c q
  rw [KRun.W2_hidden m ρ c, Branches.hidden_arr (V1 m ρ) c, Cert.ReferenceIdeal.RefValue.hidden_eq, means_K m ρ c, h2, h3, h4, h5, h6, h7, h8, h9]

/-- The hidden features as the second call finds them. -/
theorem h_K (c : Dev nD) : (V3 m ρ c main_v130 : S20000x2560.Idx → EReal)
    = Cert.ReferenceIdeal.ReadP.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) :=
  (HostBetween.h_eq m ρ c).trans (hidden_K m ρ c)

set_option maxHeartbeats 4000000 in
/-- Their aggregation as the second call finds it is the reference's, in either of its two copies. -/
theorem mh_K (c : Dev nD) : (V3 m ρ c main_v131 : S20000x2560.Idx → EReal)
    = Cert.ReferenceIdeal.ReadP.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) := by
  rw [AggBridge.mh_eq m ρ c, hidden_K m ρ c, ← Cert.ReferenceIdeal.RefAgg.v236_eq]
set_option maxHeartbeats 4000000 in
theorem mh_K' (c : Dev nD) : (V3 m ρ c main_v131 : S20000x2560.Idx → EReal)
    = Cert.ReferenceIdeal.ReadP.val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) := by
  rw [AggBridge.mh_eq m ρ c, hidden_K m ρ c, ← Cert.ReferenceIdeal.RefAgg.v265_eq]

set_option maxHeartbeats 4000000 in
/-- The first result array (mu) at the last boundary is the reference's first head. -/
theorem mu_K (c : Dev nD) : W4 m ρ c (Proc.devRef .tc main_v142_0)
    = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) := by
  have e1 : (fun (r : Fin 20000) (cc : Fin 2560) => (V3 m ρ c main_v131 : S20000x2560.Idx → EReal) (ix2 r cc))
      = fun r cc => Cert.ReferenceIdeal.ReadP.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (ix2 r cc) := by rw [mh_K m ρ c]
  have e2 : (fun (r : Fin 20000) (cc : Fin 2560) => (V3 m ρ c main_v130 : S20000x2560.Idx → EReal) (ix2 r cc))
      = fun r cc => Cert.ReferenceIdeal.ReadP.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (ix2 r cc) := by rw [h_K m ρ c]
  have e3 : (fun (j : Fin 256) (cc : Fin 2560) => (V3 m ρ c main_v133 : S2560x256.Idx → EReal) (ix2 cc j))
      = fun j cc => ((m ((c : Thread nD τ).loc main_arg6)) : S256x2560.Idx → EReal) (ix2 j cc) := by funext j cc; exact HostBetween.muL_at m ρ c j cc
  have e4 : (fun (j : Fin 256) (cc : Fin 2560) => (V3 m ρ c main_v135 : S2560x256.Idx → EReal) (ix2 cc j))
      = fun j cc => ((m ((c : Thread nD τ).loc main_arg7)) : S256x2560.Idx → EReal) (ix2 j cc) := by funext j cc; exact HostBetween.muR_at m ρ c j cc
  have e5 : (fun (j : Fin 256) => (V3 m ρ c main_v140 : S1x256.Idx → EReal) (ix2 0 j))
      = fun j => ((m ((c : Thread nD τ).loc main_arg8)) : S256.Idx → EReal) (ix1 j) := by funext j; exact HostBetween.bmu_at m ρ c j
  rw [KRun.W4_mu m ρ c, Heads.mu_arr (V3 m ρ) c, Cert.ReferenceIdeal.RefValue.mu_eq, e1, e2, e3, e4, e5]

set_option maxHeartbeats 4000000 in
/-- The second result array (logvar) at the last boundary is the reference's second head. -/
theorem lv_K (c : Dev nD) : W4 m ρ c (Proc.devRef .tc main_v142_1)
    = Cert.ReferenceIdeal.ReadP.val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e1 : (fun (r : Fin 20000) (cc : Fin 2560) => (V3 m ρ c main_v131 : S20000x2560.Idx → EReal) (ix2 r cc))
      = fun r cc => Cert.ReferenceIdeal.ReadP.val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (ix2 r cc) := by rw [mh_K' m ρ c]
  have e2 : (fun (r : Fin 20000) (cc : Fin 2560) => (V3 m ρ c main_v130 : S20000x2560.Idx → EReal) (ix2 r cc))
      = fun r cc => Cert.ReferenceIdeal.ReadP.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (ix2 r cc) := by rw [h_K m ρ c]
  have e3 : (fun (j : Fin 256) (cc : Fin 2560) => (V3 m ρ c main_v137 : S2560x256.Idx → EReal) (ix2 cc j))
      = fun j cc => ((m ((c : Thread nD τ).loc main_arg9)) : S256x2560.Idx → EReal) (ix2 j cc) := by funext j cc; exact HostBetween.lvL_at m ρ c j cc
  have e4 : (fun (j : Fin 256) (cc : Fin 2560) => (V3 m ρ c main_v139 : S2560x256.Idx → EReal) (ix2 cc j))
      = fun j cc => ((m ((c : Thread nD τ).loc main_arg10)) : S256x2560.Idx → EReal) (ix2 j cc) := by funext j cc; exact HostBetween.lvR_at m ρ c j cc
  have e5 : (fun (j : Fin 256) => (V3 m ρ c main_v141 : S1x256.Idx → EReal) (ix2 0 j))
      = fun j => ((m ((c : Thread nD τ).loc main_arg11)) : S256.Idx → EReal) (ix1 j) := by funext j; exact HostBetween.blv_at m ρ c j
  rw [KRun.W4_lv m ρ c, Heads.lv_arr (V3 m ρ) c, Cert.ReferenceIdeal.RefValue.lv_eq, e1, e2, e3, e4, e5]

end Cert.KernelIdeal.KValue

end
-- ==== Proof.lean ====
/-
  The certificate: a two-layer relational SAGE encoder (five relation branches with relu and eval-mode batch norm,
  then the mu and logvar heads) as two pallas_calls among host gathers and scatter-adds, against its jnp reference,
  equal result by result over the extended reals.

  Frames. Each pallas_call's body loads, computes and stores through literal rectangles, so the kernel's frame, at the
  word level and idealized, is the imported frame certificate; the reference is host operations only, and its frame
  is its run with the results dropped.
  Preserves. The idealization rewrote no operation, so there is nothing to state.
  Algebraic. Both programs end with each result at the reference's last stage of the corresponding head, read at the
  kernel's arguments: the kernel because each call's output array is the layer's function of the arrays the call
  found (Proof/Branches, Proof/Heads), those arrays are the reference's (Proof/HostLayout, Proof/HostBetween,
  Proof/MeansBridge, Proof/AggBridge), and the layer's function of them is the reference's stage (Proof/RefValue,
  Proof/RefAgg); the reference by its run, its arguments being the kernel's.
-/
import proofs.«145364_j21045339751000_1_alg».proof.Defs
import proofs.«145364_j21045339751000_1_alg».proof.Proof.Gen.Kernel
import proofs.«145364_j21045339751000_1_alg».proof.Proof.Gen.Kernel.Skeleton
import proofs.«145364_j21045339751000_1_alg».proof.Proof.Gen.Kernel.Launch
import proofs.«145364_j21045339751000_1_alg».proof.Proof.Gen.Kernel.Points
import proofs.«145364_j21045339751000_1_alg».proof.Proof.Gen.Kernel.Frame
import proofs.«145364_j21045339751000_1_alg».proof.Proof.Gen.KernelIdeal
import proofs.«145364_j21045339751000_1_alg».proof.Proof.Gen.KernelIdeal.Skeleton
import proofs.«145364_j21045339751000_1_alg».proof.Proof.Gen.KernelIdeal.Launch
import proofs.«145364_j21045339751000_1_alg».proof.Proof.Gen.KernelIdeal.Points
import proofs.«145364_j21045339751000_1_alg».proof.Proof.Gen.KernelIdeal.Frame
import proofs.«145364_j21045339751000_1_alg».proof.Proof.Gen.ReferenceIdeal
import proofs.«145364_j21045339751000_1_alg».proof.Proof.Gen.Pre_finite_inputs
import proofs.«145364_j21045339751000_1_alg».proof.Proof.RefRun
import proofs.«145364_j21045339751000_1_alg».proof.Proof.RefRead
import proofs.«145364_j21045339751000_1_alg».proof.Proof.RefStage
import proofs.«145364_j21045339751000_1_alg».proof.Proof.KRun
import proofs.«145364_j21045339751000_1_alg».proof.Proof.KValue
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

theorem preserves : Cert.preserves_Kernel_KernelIdeal := trivial

/-- Both runs end with the results at the reference's two last stages read at the kernel's arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _,
    (θ_run Cert.KernelIdeal.defs _ _).mono (fun r h c => ⟨(h c).1.trans (Cert.KernelIdeal.KValue.mu_K m ρ c), (h c).2.1.trans (Cert.KernelIdeal.KValue.lv_K m ρ c), (h c).2.2⟩)
      (Cert.KernelIdeal.KRun.run_named (F := Ideal) m ρ), ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨a0, a1, a2, a3, a4, a5, a6, a7, a8, a9, a10, a11, a12, a13, a14, a15⟩ := hagree c
    rw [Cert.ReferenceIdeal.ReadP.val_main_v244_eq, a0, a1, a2, a3, a4, a5, a6, a7, a8, a12, a13, a14, a15]
  · obtain ⟨a0, a1, a2, a3, a4, a5, a6, a7, a8, a9, a10, a11, a12, a13, a14, a15⟩ := hagree c
    rw [Cert.ReferenceIdeal.ReadP.val_main_v273_eq, a0, a1, a2, a3, a4, a5, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
